-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S4x32x4096 : Shape := ⟨3, ![4, 32, 4096]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : IVec S4x32x4096 1) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  main_v3
-- ==== Kernel.lean ====
abbrev S4x4096x64 : Shape := ⟨3, ![4, 4096, 64]⟩
abbrev S4x32x4096 : Shape := ⟨3, ![4, 32, 4096]⟩
abbrev S4x4096x32 : Shape := ⟨3, ![4, 4096, 32]⟩
abbrev S_ : Shape := ⟨0, ![]⟩
abbrev S4x4096x128 : Shape := ⟨3, ![4, 4096, 128]⟩
abbrev S4x1x128 : Shape := ⟨3, ![4, 1, 128]⟩
abbrev S1x1024x64 : Shape := ⟨3, ![1, 1024, 64]⟩
abbrev S1x1024x128 : Shape := ⟨3, ![1, 1024, 128]⟩
abbrev S1x1x128 : Shape := ⟨3, ![1, 1, 128]⟩
abbrev S1024x128 : Shape := ⟨2, ![1024, 128]⟩
abbrev S1x128 : Shape := ⟨2, ![1, 128]⟩
abbrev S1024x64 : Shape := ⟨2, ![1024, 64]⟩
abbrev S64x1024 : Shape := ⟨2, ![64, 1024]⟩
abbrev S1024x1024 : Shape := ⟨2, ![1024, 1024]⟩
abbrev S128 : Shape := ⟨1, ![128]⟩
abbrev S4x1x32 : Shape := ⟨3, ![4, 1, 32]⟩
abbrev S4x32 : Shape := ⟨2, ![4, 32]⟩

abbrev nBuf : Space → Nat
  | .hbm => 45
  | .vmem => 16
  | .smem => 0
  | _ => 0

abbrev bufTy : (tb : Table) → Fin (tcTables nBuf tb) → BufTy
  | .hbm, ⟨0, _⟩ => ⟨S4x4096x64, .f32⟩
  | .hbm, ⟨1, _⟩ => ⟨S4x32x4096, .i1⟩
  | .hbm, ⟨2, _⟩ => ⟨S4x4096x64, .bf16⟩
  | .hbm, ⟨3, _⟩ => ⟨S4x4096x32, .i1⟩
  | .hbm, ⟨4, _⟩ => ⟨S4x4096x32, .bf16⟩
  | .hbm, ⟨5, _⟩ => ⟨S_, .i32⟩
  | .hbm, ⟨6, _⟩ => ⟨S_, .bf16⟩
  | .hbm, ⟨7, _⟩ => ⟨S4x4096x128, .bf16⟩
  | .hbm, ⟨8, _⟩ => ⟨S4x1x128, .f32⟩
  | .hbm, ⟨9, _⟩ => ⟨S4x1x128, .f32⟩
  | .hbm, ⟨10, _⟩ => ⟨S4x1x32, .f32⟩
  | .hbm, ⟨11, _⟩ => ⟨S4x32, .f32⟩
  | .hbm, ⟨12, _⟩ => ⟨S4x1x32, .f32⟩
  | .hbm, ⟨13, _⟩ => ⟨S4x32, .f32⟩
  | .hbm, ⟨14, _⟩ => ⟨S4x32x4096, .f32⟩
  | .hbm, ⟨15, _⟩ => ⟨S_, .f32⟩
  | .hbm, ⟨16, _⟩ => ⟨S4x32, .f32⟩
  | .hbm, ⟨17, _⟩ => ⟨S_, .f32⟩
  | .hbm, ⟨18, _⟩ => ⟨S4x32, .f32⟩
  | .hbm, ⟨19, _⟩ => ⟨S4x32, .i1⟩
  | .hbm, ⟨20, _⟩ => ⟨S4x32, .f32⟩
  | .hbm, ⟨21, _⟩ => ⟨S4x32, .f32⟩
  | .hbm, ⟨22, _⟩ => ⟨S_, .f32⟩
  | .hbm, ⟨23, _⟩ => ⟨S4x32, .f32⟩
  | .hbm, ⟨24, _⟩ => ⟨S4x32, .f32⟩
  | .hbm, ⟨25, _⟩ => ⟨S4x32, .f32⟩
  | .hbm, ⟨26, _⟩ => ⟨S_, .f32⟩
  | .hbm, ⟨27, _⟩ => ⟨S4x32, .f32⟩
  | .hbm, ⟨28, _⟩ => ⟨S4x32, .f32⟩
  | .hbm, ⟨29, _⟩ => ⟨S4x32, .f32⟩
  | .hbm, ⟨30, _⟩ => ⟨S4x32, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4x32, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S1x1024x64, .bf16⟩
  | .local _ .vmem, ⟨1, _⟩ => ⟨S1x1024x64, .bf16⟩
  | .local _ .vmem, ⟨2, _⟩ => ⟨S1x1024x64, .bf16⟩
  | .local _ .vmem, ⟨3, _⟩ => ⟨S1x1024x64, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1024x128, .f32⟩
  | .local _ .vmem, ⟨13, _⟩ => ⟨S1024x128, .f32⟩
  | .local _ .vmem, ⟨14, _⟩ => ⟨S1x128, .f32⟩
  | .local _ .vmem, ⟨15, _⟩ => ⟨S1x128, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def k0_cond4 (i : grid0.Coords) : BitVec 1 :=
  let arg1 : BitVec 32 := BitVec.ofNat 32 (i 1).val
  let c3_i32_29 : BitVec 32 := 3#32
  let v45 : BitVec 1 := Scalar.cmpi .eq arg1 c3_i32_29
  let arg2 : BitVec 32 := BitVec.ofNat 32 (i 2).val
  let c3_i32_30 : BitVec 32 := 3#32
  let v46 : BitVec 1 := Scalar.cmpi .eq arg2 c3_i32_30
  let v47 : BitVec 1 := Scalar.andi v45 v46
  let v48 : BitVec 32 := Scalar.extui v47
  let c0_i32_31 : BitVec 32 := 0#32
  let v49 : BitVec 1 := Scalar.cmpi .ne v48 c0_i32_31
  v49

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bitsLt_bf16_f32 : FTy.bits .bf16 < FTy.bits .f32
  transposes_S4x32x4096_S4x4096x32_0_2_1 : S4x32x4096.Transposes [0, 2, 1] S4x4096x32
  pads_S4x4096x32_S4x4096x128_000_000_0960 : S4x4096x32.Pads (![0, 0, 0] : Fin 3 → Nat) ![0, 0, 96] ![0, 0, 0] S4x4096x128
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  transposes_S1024x64_p1_0_S64x1024 : S1024x64.Transposes [1, 0] S64x1024
  reduces_S1024x128_S128 : S1024x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S4x1x128_S4x1x32_0_0_0 : S4x1x128.Slices ![0, 0, 0] S4x1x32
  shapeCasts_S4x1x32_S4x32 : S4x1x32.ShapeCasts S4x32
  reducesTo_S4x32x4096_S4x32_d2 : S4x32x4096.ReducesTo [2] S4x32
  bcast_S_S4x32 : S_.BroadcastsInDim S4x32 (![] : Fin 0 → Fin S4x32.rank)
  reducesTo_S4x32_S_d0_1 : S4x32.ReducesTo [0, 1] S_
  dot_S1024x64_S64x1024_S1024x1024_1_0_0_1_n_n_wf : DotDims.WF S1024x64 S64x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x4096x64.size a
  hwx0_0 : ∀ i : grid0.Coords, EltTy.bits .bf16 = 32 ∨ (Rect.block (s := S4x4096x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x4096x64.size a
  hwx0_1 : ∀ i : grid0.Coords, EltTy.bits .bf16 = 32 ∨ (Rect.block (s := S4x4096x64) S1x1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S4x4096x128.size a
  hwx0_2 : ∀ i : grid0.Coords, EltTy.bits .bf16 = 32 ∨ (Rect.block (s := S4x4096x128) S1x1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S4x4096x128.size a
  hwx0_3 : ∀ i : grid0.Coords, EltTy.bits .bf16 = 32 ∨ (Rect.block (s := S4x4096x128) S1x1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S4x1x128.size a
  hwx0_4 : ∀ i : grid0.Coords, EltTy.bits .f32 = 32 ∨ (Rect.block (s := S4x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S4x1x128.size a
  hwx0_5 : ∀ i : grid0.Coords, EltTy.bits .f32 = 32 ∨ (Rect.block (s := S4x1x128) S1x1x128.size (cc0_transform_5 i) (hinb0_5 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond4 i == 1#1) | 5 => fun i => !(k0_cond4 i == 1#1) | ⟨_ + 6, h⟩ => absurd h (Nat.not_lt.2 (Nat.le_add_left _ _))

class Facts : Prop extends Facts₀ where

variable [Facts]
-- ==== ReferenceIdeal.lean ====
abbrev S4x4096x64 : Shape := ⟨3, ![4, 4096, 64]⟩
abbrev S4x32x4096 : Shape := ⟨3, ![4, 32, 4096]⟩
abbrev S_ : Shape := ⟨0, ![]⟩
abbrev S4x32 : Shape := ⟨2, ![4, 32]⟩
abbrev S4x4096x4096 : Shape := ⟨3, ![4, 4096, 4096]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x32x4096, .i1⟩
  | .hbm, ⟨2, _⟩ => ⟨S4x32x4096, .f32⟩
  | .hbm, ⟨3, _⟩ => ⟨S_, .f32⟩
  | .hbm, ⟨4, _⟩ => ⟨S4x32, .f32⟩
  | .hbm, ⟨5, _⟩ => ⟨S_, .f32⟩
  | .hbm, ⟨6, _⟩ => ⟨S4x32, .f32⟩
  | .hbm, ⟨7, _⟩ => ⟨S4x32, .i1⟩
  | .hbm, ⟨8, _⟩ => ⟨S4x32, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S4x32x4096, .f32⟩
  | .hbm, ⟨15, _⟩ => ⟨S4x32x4096, .f32⟩
  | .hbm, ⟨16, _⟩ => ⟨S_, .f32⟩
  | .hbm, ⟨17, _⟩ => ⟨S4x32, .f32⟩
  | .hbm, ⟨18, _⟩ => ⟨S4x32, .f32⟩
  | .hbm, ⟨19, _⟩ => ⟨S_, .f32⟩
  | .hbm, ⟨20, _⟩ => ⟨S4x32, .f32⟩
  | .hbm, ⟨21, _⟩ => ⟨S4x32, .f32⟩
  | .hbm, ⟨22, _⟩ => ⟨S4x32, .f32⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x32x4096, .f32⟩
  | .hbm, ⟨29, _⟩ => ⟨S4x32x4096, .f32⟩
  | .hbm, ⟨30, _⟩ => ⟨S4x32x4096, .f32⟩
  | .hbm, ⟨31, _⟩ => ⟨S_, .f32⟩
  | .hbm, ⟨32, _⟩ => ⟨S4x32x4096, .f32⟩
  | .hbm, ⟨33, _⟩ => ⟨S4x32x4096, .f32⟩
  | .hbm, ⟨34, _⟩ => ⟨S4x32x4096, .f32⟩
  | .hbm, ⟨35, _⟩ => ⟨S4x32x4096, .f32⟩
  | .hbm, ⟨36, _⟩ => ⟨S_, .f32⟩
  | .hbm, ⟨37, _⟩ => ⟨S4x32, .f32⟩
  | .hbm, ⟨38, _⟩ => ⟨S_, .f32⟩
  | .hbm, ⟨39, _⟩ => ⟨S4x32, .f32⟩
  | .hbm, ⟨40, _⟩ => ⟨S4x32, .f32⟩
  | .hbm, ⟨41, _⟩ => ⟨S4x32, .f32⟩
  | .hbm, ⟨42, _⟩ => ⟨S4x32, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4x32, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_cst_10 : Ref sig .tc := ⟨.hbm, 45, rfl⟩
abbrev main_v32 : Ref sig .tc := ⟨.hbm, 46, rfl⟩
abbrev main_v33 : Ref sig .tc := ⟨.hbm, 47, rfl⟩
abbrev main_cst_11 : Ref sig .tc := ⟨.hbm, 48, rfl⟩
abbrev main_v34 : Ref sig .tc := ⟨.hbm, 49, rfl⟩
abbrev main_cst_12 : Ref sig .tc := ⟨.hbm, 50, rfl⟩
abbrev main_v35 : Ref sig .tc := ⟨.hbm, 51, rfl⟩
abbrev main_cst_13 : Ref sig .tc := ⟨.hbm, 52, rfl⟩
abbrev main_v36 : Ref sig .tc := ⟨.hbm, 53, rfl⟩
abbrev main_cst_14 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  reducesTo_S4x32x4096_S4x32_d2 : S4x32x4096.ReducesTo [2] S4x32
  h_S_ : 0 < S_.numel
  bcast_S_S4x32 : S_.BroadcastsInDim S4x32 (![] : Fin 0 → Fin S4x32.rank)
  bcast_S_S4x4096x4096 : S_.BroadcastsInDim S4x4096x4096 (![] : Fin 0 → Fin S4x4096x4096.rank)
  bcast_S_S4x32x4096 : S_.BroadcastsInDim S4x32x4096 (![] : Fin 0 → Fin S4x32x4096.rank)
  reducesTo_S4x32_S_d0_1 : S4x32.ReducesTo [0, 1] S_
  dot_S4x4096x64_S4x4096x64_S4x4096x4096_2_2_1_1_0_0_wf : DotDims.WF S4x4096x64 S4x4096x64 S4x4096x4096 [2] [2] [1] [1] [0] [0]
  dot_S4x32x4096_S4x4096x4096_S4x32x4096_2_1_1_2_0_0_wf : DotDims.WF S4x32x4096 S4x4096x4096 S4x32x4096 [2] [1] [1] [2] [0] [0]
  dot_S4x32x4096_S4x4096x4096_S4x32x4096_2_2_1_1_0_0_wf : DotDims.WF S4x32x4096 S4x4096x4096 S4x32x4096 [2] [2] [1] [1] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x32x4096_S4x4096x4096_S4x32x4096_2_1_1_2_0_0 : DotDims S4x32x4096 S4x4096x4096 S4x32x4096 where
  lhsContracting := [2]
  rhsContracting := [1]
  lhsNonContracting := [1]
  rhsNonContracting := [2]
  lhsBatch := [0]
  rhsBatch := [0]
  wf := dot_S4x32x4096_S4x4096x4096_S4x32x4096_2_1_1_2_0_0_wf
def dot_S4x32x4096_S4x4096x4096_S4x32x4096_2_2_1_1_0_0 : DotDims S4x32x4096 S4x4096x4096 S4x32x4096 where
  lhsContracting := [2]
  rhsContracting := [2]
  lhsNonContracting := [1]
  rhsNonContracting := [1]
  lhsBatch := [0]
  rhsBatch := [0]
  wf := dot_S4x32x4096_S4x4096x4096_S4x32x4096_2_2_1_1_0_0_wf

class Facts : Prop extends Facts₀ where

variable [Facts]
-- ==== Proof.BitsSetup.lean ====
/-
  What the proofs about the kernel share: the arrays as the region finds them, each window's block at a grid
  point, the four conditions the body branches on in closed form over the 64 grid points (b, pi, ni in
  row-major order: point t has ni = t mod 4 and pi = (t / 4) mod 4), where the two output windows are idle,
  and the memrefs the body is called with.
-/
import proofs.«120329_j57647051047499_1_alg».proof.Proof.Gen.Kernel.Launch
import proofs.«120329_j57647051047499_1_alg».proof.Proof.Gen.Kernel.Skeleton
import proofs.«120329_j57647051047499_1_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The four conditions of the body -/

/-- ni = 0: the two row accumulators are cleared. -/
abbrev cond1 (i : grid0.Coords) : Prop :=
  Scalar.cmpi .ne (Scalar.extui (Scalar.cmpi .eq (BitVec.ofNat 32 (i 2).val) 0#32)) 0#32 = 1#1
/-- pi = 0 and ni = 0: the two per-batch accumulators are cleared. -/
abbrev cond2 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- ni = 3: a row tile has met every column tile, its contribution is folded into the per-batch accumulators. -/
abbrev cond3 (i : grid0.Coords) : Prop :=
  Scalar.cmpi .ne (Scalar.extui (Scalar.cmpi .eq (BitVec.ofNat 32 (i 2).val) 3#32)) 0#32 = 1#1
/-- pi = 3 and ni = 3: the batch is done, the per-batch accumulators are stored to the outputs. -/
abbrev cond4 (i : grid0.Coords) : Prop := k0_cond4 i = 1#1

theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, cond2 (grid0.coords t) ↔ t.val % 16 = 0 :=
  (by decide +kernel : ∀ t : Fin grid0.N, cond2 (grid0.coords t) ↔ t.val % 16 = 0)
theorem hcond3 : ∀ t : Fin cfg0.N, cond3 (grid0.coords t) ↔ t.val % 4 = 3 :=
  (by decide +kernel : ∀ t : Fin grid0.N, cond3 (grid0.coords t) ↔ t.val % 4 = 3)
theorem hcond4 : ∀ t : Fin cfg0.N, cond4 (grid0.coords t) ↔ t.val % 16 = 15 :=
  (by decide +kernel : ∀ t : Fin grid0.N, cond4 (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, ¬cond4 (grid0.coords t) → cfg0.idle 4 (grid0.coords t) = true := by decide +kernel
theorem idle5 : ∀ t : Fin cfg0.N, ¬cond4 (grid0.coords t) → cfg0.idle 5 (grid0.coords t) = true := by decide +kernel
theorem noFlush4 : ∀ t : Fin cfg0.N, ¬cond4 (grid0.coords t) → (cfg0.win 4).flush t = false := by decide +kernel
theorem noFlush5 : ∀ t : Fin cfg0.N, ¬cond4 (grid0.coords t) → (cfg0.win 5).flush t = false := by decide +kernel
theorem live4 : ∀ t : Fin cfg0.N, cond4 (grid0.coords t) → cfg0.idle 4 (grid0.coords t) = false := by decide +kernel
theorem live5 : ∀ t : Fin cfg0.N, cond4 (grid0.coords t) → cfg0.idle 5 (grid0.coords t) = false := by decide +kernel

/-! ## The memrefs the body is called with -/

abbrev ms0 (t : Fin cfg0.N) : Memref sig .tc .vmem S1x1024x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x128 .f32 := win0_5.stage (cfg0.slots t 5)
abbrev hs5 (t : Fin cfg0.N) : (ms5 t).IsWhole := hstage0_5 ((cfg0.slots t 5).cast nbuf0_5)
abbrev sc0 : Memref sig .tc .vmem S1024x128 .f32 := Memref.whole cc0_scratch0
abbrev sc1 : Memref sig .tc .vmem S1024x128 .f32 := Memref.whole cc0_scratch1
abbrev sc2 : Memref sig .tc .vmem S1x128 .f32 := Memref.whole cc0_scratch2
abbrev sc3 : Memref sig .tc .vmem S1x128 .f32 := Memref.whole cc0_scratch3

/-- What a buffer reads after a run of stores whose LAST one went through the whole-shape rectangle at zero offsets:
    that store's payload, whatever the earlier stores and the prior contents were. -/
theorem read_writes_whole_cons {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons.mpr (Or.inl rfl), View.mem_set_unit_zero h inb y⟩),
    View.canon_cons_unit_zero h]

/-- The zero offsets of a rank-two whole-shape rectangle, as the constant function. -/
theorem hz2 : (![0, 0] : Fin 2 → ℕ) = fun _ => 0 := by
  funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

end Cert.Kernel.Hand

end
-- ==== Proof.BitsBodyA.lean ====
import proofs.«120329_j57647051047499_1_alg».proof.Proof.BitsSetup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at a grid point of case A (cond1 i, cond2 i, ¬cond3 i, ¬cond4 i), called on whole memrefs holding the four input blocks, the
    two output staging buffers and the four scratch accumulators: it runs to the end without a fault and leaves the
    inputs as they were and each written buffer at the payload of its last whole-buffer store. -/
theorem runA (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole)
    (hc1 : cond1 i) (hc2 : cond2 i) (hc3 : ¬cond3 i) (hc4 : ¬cond4 i)
    (x0 x1 : Vec F S1x1024x64 .bf16) (x2 x3 : Vec F S1x1024x128 .bf16) (y4 y5 : Vec F S1x1x128 .f32)
    (a0 a1 : Vec F S1024x128 .f32) (a2 a3 : Vec F S1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare y4 ∗ owns (c : Thread nD τ) arg8 fullShare y5
        ∗ owns (c : Thread nD τ) arg9 fullShare a0 ∗ owns (c : Thread nD τ) arg10 fullShare a1 ∗ owns (c : Thread nD τ) arg11 fullShare a2 ∗ owns (c : Thread nD τ) arg12 fullShare a3
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (y4) ∗ owns (c : Thread nD τ) arg8 fullShare (y5)
            ∗ owns (c : Thread nD τ) arg9 fullShare (k0_pay1 (k0_pay15 x0 x1 x3) k0_pay8) ∗ owns (c : Thread nD τ) arg10 fullShare (k0_pay2 (k0_pay16 x0 x1 x3) k0_pay9)
            ∗ owns (c : Thread nD τ) arg11 fullShare (k0_pay10) ∗ owns (c : Thread nD τ) arg12 fullShare (k0_pay11)) -∗ K ⟨⟩))
      ⊢ wp frame (wpE (defs₀ (F := F)) Variants.none c none) E (cc0__mic_kernel i arg3 harg3 arg4 harg4 arg5 harg5 arg6 harg6 arg7 harg7 arg8 harg8 arg9 harg9 arg10 harg10 arg11 harg11 arg12 harg12) K := by
  simp only [cc0__mic_kernel_eq_skeleton]; unfold cc0__mic_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, G0⟩, ⟨%g1, %hg1, G1⟩, ⟨%g2, %hg2, G2⟩, ⟨%g3, %hg3, G3⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5
  obtain rfl := harg9.eq_unread hg0; obtain rfl := harg10.eq_unread hg1; obtain rfl := harg11.eq_unread hg2; obtain rfl := harg12.eq_unread hg3
  sl_exec (disch := first | exact hc1 | exact hc2 | exact hc3 | exact hc4)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    · ipureintro; exact harg7.read_unread _
    iexact H4
  isplitl [H5]
  · iexists _; isplitr
    · ipureintro; exact harg8.read_unread _
    iexact H5
  isplitl [G0]
  · iexists _; isplitr
    swap
    · iexact G0
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G1]
  · iexists _; isplitr
    swap
    · iexact G1
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G2]
  · iexists _; isplitr
    swap
    · iexact G2
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  iexists _; isplitr
  swap
  · iexact G3
  ipureintro
  sl_unfold_run_names
  rw [read_writes_whole_cons _ _ hz2]
  all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))

end Cert.Kernel.Hand

end
-- ==== Proof.BitsBodyB.lean ====
import proofs.«120329_j57647051047499_1_alg».proof.Proof.BitsSetup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at a grid point of case B (cond1 i, ¬cond2 i, ¬cond3 i, ¬cond4 i), called on whole memrefs holding the four input blocks, the
    two output staging buffers and the four scratch accumulators: it runs to the end without a fault and leaves the
    inputs as they were and each written buffer at the payload of its last whole-buffer store. -/
theorem runB (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole)
    (hc1 : cond1 i) (hc2 : ¬cond2 i) (hc3 : ¬cond3 i) (hc4 : ¬cond4 i)
    (x0 x1 : Vec F S1x1024x64 .bf16) (x2 x3 : Vec F S1x1024x128 .bf16) (y4 y5 : Vec F S1x1x128 .f32)
    (a0 a1 : Vec F S1024x128 .f32) (a2 a3 : Vec F S1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare y4 ∗ owns (c : Thread nD τ) arg8 fullShare y5
        ∗ owns (c : Thread nD τ) arg9 fullShare a0 ∗ owns (c : Thread nD τ) arg10 fullShare a1 ∗ owns (c : Thread nD τ) arg11 fullShare a2 ∗ owns (c : Thread nD τ) arg12 fullShare a3
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (y4) ∗ owns (c : Thread nD τ) arg8 fullShare (y5)
            ∗ owns (c : Thread nD τ) arg9 fullShare (k0_pay1 (k0_pay15 x0 x1 x3) k0_pay8) ∗ owns (c : Thread nD τ) arg10 fullShare (k0_pay2 (k0_pay16 x0 x1 x3) k0_pay9)
            ∗ owns (c : Thread nD τ) arg11 fullShare (a2) ∗ owns (c : Thread nD τ) arg12 fullShare (a3)) -∗ K ⟨⟩))
      ⊢ wp frame (wpE (defs₀ (F := F)) Variants.none c none) E (cc0__mic_kernel i arg3 harg3 arg4 harg4 arg5 harg5 arg6 harg6 arg7 harg7 arg8 harg8 arg9 harg9 arg10 harg10 arg11 harg11 arg12 harg12) K := by
  simp only [cc0__mic_kernel_eq_skeleton]; unfold cc0__mic_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, G0⟩, ⟨%g1, %hg1, G1⟩, ⟨%g2, %hg2, G2⟩, ⟨%g3, %hg3, G3⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5
  obtain rfl := harg9.eq_unread hg0; obtain rfl := harg10.eq_unread hg1; obtain rfl := harg11.eq_unread hg2; obtain rfl := harg12.eq_unread hg3
  sl_exec (disch := first | exact hc1 | exact hc2 | exact hc3 | exact hc4)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    · ipureintro; exact harg7.read_unread _
    iexact H4
  isplitl [H5]
  · iexists _; isplitr
    · ipureintro; exact harg8.read_unread _
    iexact H5
  isplitl [G0]
  · iexists _; isplitr
    swap
    · iexact G0
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G1]
  · iexists _; isplitr
    swap
    · iexact G1
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G2]
  · iexists _; isplitr
    · ipureintro; exact harg11.read_unread _
    iexact G2
  iexists _; isplitr
  · ipureintro; exact harg12.read_unread _
  iexact G3

end Cert.Kernel.Hand

end
-- ==== Proof.BitsBodyC.lean ====
import proofs.«120329_j57647051047499_1_alg».proof.Proof.BitsSetup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at a grid point of case C (¬cond1 i, ¬cond2 i, ¬cond3 i, ¬cond4 i), called on whole memrefs holding the four input blocks, the
    two output staging buffers and the four scratch accumulators: it runs to the end without a fault and leaves the
    inputs as they were and each written buffer at the payload of its last whole-buffer store. -/
theorem runC (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole)
    (hc1 : ¬cond1 i) (hc2 : ¬cond2 i) (hc3 : ¬cond3 i) (hc4 : ¬cond4 i)
    (x0 x1 : Vec F S1x1024x64 .bf16) (x2 x3 : Vec F S1x1024x128 .bf16) (y4 y5 : Vec F S1x1x128 .f32)
    (a0 a1 : Vec F S1024x128 .f32) (a2 a3 : Vec F S1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare y4 ∗ owns (c : Thread nD τ) arg8 fullShare y5
        ∗ owns (c : Thread nD τ) arg9 fullShare a0 ∗ owns (c : Thread nD τ) arg10 fullShare a1 ∗ owns (c : Thread nD τ) arg11 fullShare a2 ∗ owns (c : Thread nD τ) arg12 fullShare a3
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (y4) ∗ owns (c : Thread nD τ) arg8 fullShare (y5)
            ∗ owns (c : Thread nD τ) arg9 fullShare (k0_pay1 (k0_pay15 x0 x1 x3) a0) ∗ owns (c : Thread nD τ) arg10 fullShare (k0_pay2 (k0_pay16 x0 x1 x3) a1)
            ∗ owns (c : Thread nD τ) arg11 fullShare (a2) ∗ owns (c : Thread nD τ) arg12 fullShare (a3)) -∗ K ⟨⟩))
      ⊢ wp frame (wpE (defs₀ (F := F)) Variants.none c none) E (cc0__mic_kernel i arg3 harg3 arg4 harg4 arg5 harg5 arg6 harg6 arg7 harg7 arg8 harg8 arg9 harg9 arg10 harg10 arg11 harg11 arg12 harg12) K := by
  simp only [cc0__mic_kernel_eq_skeleton]; unfold cc0__mic_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, G0⟩, ⟨%g1, %hg1, G1⟩, ⟨%g2, %hg2, G2⟩, ⟨%g3, %hg3, G3⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5
  obtain rfl := harg9.eq_unread hg0; obtain rfl := harg10.eq_unread hg1; obtain rfl := harg11.eq_unread hg2; obtain rfl := harg12.eq_unread hg3
  sl_exec (disch := first | exact hc1 | exact hc2 | exact hc3 | exact hc4)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    · ipureintro; exact harg7.read_unread _
    iexact H4
  isplitl [H5]
  · iexists _; isplitr
    · ipureintro; exact harg8.read_unread _
    iexact H5
  isplitl [G0]
  · iexists _; isplitr
    swap
    · iexact G0
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G1]
  · iexists _; isplitr
    swap
    · iexact G1
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G2]
  · iexists _; isplitr
    · ipureintro; exact harg11.read_unread _
    iexact G2
  iexists _; isplitr
  · ipureintro; exact harg12.read_unread _
  iexact G3

end Cert.Kernel.Hand

end
-- ==== Proof.BitsBodyD.lean ====
import proofs.«120329_j57647051047499_1_alg».proof.Proof.BitsSetup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at a grid point of case D (¬cond1 i, ¬cond2 i, cond3 i, ¬cond4 i), called on whole memrefs holding the four input blocks, the
    two output staging buffers and the four scratch accumulators: it runs to the end without a fault and leaves the
    inputs as they were and each written buffer at the payload of its last whole-buffer store. -/
theorem runD (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole)
    (hc1 : ¬cond1 i) (hc2 : ¬cond2 i) (hc3 : cond3 i) (hc4 : ¬cond4 i)
    (x0 x1 : Vec F S1x1024x64 .bf16) (x2 x3 : Vec F S1x1024x128 .bf16) (y4 y5 : Vec F S1x1x128 .f32)
    (a0 a1 : Vec F S1024x128 .f32) (a2 a3 : Vec F S1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare y4 ∗ owns (c : Thread nD τ) arg8 fullShare y5
        ∗ owns (c : Thread nD τ) arg9 fullShare a0 ∗ owns (c : Thread nD τ) arg10 fullShare a1 ∗ owns (c : Thread nD τ) arg11 fullShare a2 ∗ owns (c : Thread nD τ) arg12 fullShare a3
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (y4) ∗ owns (c : Thread nD τ) arg8 fullShare (y5)
            ∗ owns (c : Thread nD τ) arg9 fullShare (k0_pay1 (k0_pay15 x0 x1 x3) a0) ∗ owns (c : Thread nD τ) arg10 fullShare (k0_pay2 (k0_pay16 x0 x1 x3) a1)
            ∗ owns (c : Thread nD τ) arg11 fullShare (k0_pay4 (k0_pay12 x2) (k0_pay1 (k0_pay15 x0 x1 x3) a0) a2) ∗ owns (c : Thread nD τ) arg12 fullShare (k0_pay5 (k0_pay12 x2) (k0_pay2 (k0_pay16 x0 x1 x3) a1) a3)) -∗ K ⟨⟩))
      ⊢ wp frame (wpE (defs₀ (F := F)) Variants.none c none) E (cc0__mic_kernel i arg3 harg3 arg4 harg4 arg5 harg5 arg6 harg6 arg7 harg7 arg8 harg8 arg9 harg9 arg10 harg10 arg11 harg11 arg12 harg12) K := by
  simp only [cc0__mic_kernel_eq_skeleton]; unfold cc0__mic_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, G0⟩, ⟨%g1, %hg1, G1⟩, ⟨%g2, %hg2, G2⟩, ⟨%g3, %hg3, G3⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5
  obtain rfl := harg9.eq_unread hg0; obtain rfl := harg10.eq_unread hg1; obtain rfl := harg11.eq_unread hg2; obtain rfl := harg12.eq_unread hg3
  sl_exec (disch := first | exact hc1 | exact hc2 | exact hc3 | exact hc4)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    · ipureintro; exact harg7.read_unread _
    iexact H4
  isplitl [H5]
  · iexists _; isplitr
    · ipureintro; exact harg8.read_unread _
    iexact H5
  isplitl [G0]
  · iexists _; isplitr
    swap
    · iexact G0
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G1]
  · iexists _; isplitr
    swap
    · iexact G1
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G2]
  · iexists _; isplitr
    swap
    · iexact G2
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  iexists _; isplitr
  swap
  · iexact G3
  ipureintro
  sl_unfold_run_names
  rw [read_writes_whole_cons _ _ hz2]
  all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))

end Cert.Kernel.Hand

end
-- ==== Proof.BitsBodyE.lean ====
import proofs.«120329_j57647051047499_1_alg».proof.Proof.BitsSetup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at a grid point of case E (¬cond1 i, ¬cond2 i, cond3 i, cond4 i), called on whole memrefs holding the four input blocks, the
    two output staging buffers and the four scratch accumulators: it runs to the end without a fault and leaves the
    inputs as they were and each written buffer at the payload of its last whole-buffer store. -/
theorem runE (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole)
    (hc1 : ¬cond1 i) (hc2 : ¬cond2 i) (hc3 : cond3 i) (hc4 : cond4 i)
    (x0 x1 : Vec F S1x1024x64 .bf16) (x2 x3 : Vec F S1x1024x128 .bf16) (y4 y5 : Vec F S1x1x128 .f32)
    (a0 a1 : Vec F S1024x128 .f32) (a2 a3 : Vec F S1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare y4 ∗ owns (c : Thread nD τ) arg8 fullShare y5
        ∗ owns (c : Thread nD τ) arg9 fullShare a0 ∗ owns (c : Thread nD τ) arg10 fullShare a1 ∗ owns (c : Thread nD τ) arg11 fullShare a2 ∗ owns (c : Thread nD τ) arg12 fullShare a3
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k0_pay6 (k0_pay4 (k0_pay12 x2) (k0_pay1 (k0_pay15 x0 x1 x3) a0) a2)) ∗ owns (c : Thread nD τ) arg8 fullShare (k0_pay7 (k0_pay5 (k0_pay12 x2) (k0_pay2 (k0_pay16 x0 x1 x3) a1) a3))
            ∗ owns (c : Thread nD τ) arg9 fullShare (k0_pay1 (k0_pay15 x0 x1 x3) a0) ∗ owns (c : Thread nD τ) arg10 fullShare (k0_pay2 (k0_pay16 x0 x1 x3) a1)
            ∗ owns (c : Thread nD τ) arg11 fullShare (k0_pay4 (k0_pay12 x2) (k0_pay1 (k0_pay15 x0 x1 x3) a0) a2) ∗ owns (c : Thread nD τ) arg12 fullShare (k0_pay5 (k0_pay12 x2) (k0_pay2 (k0_pay16 x0 x1 x3) a1) a3)) -∗ K ⟨⟩))
      ⊢ wp frame (wpE (defs₀ (F := F)) Variants.none c none) E (cc0__mic_kernel i arg3 harg3 arg4 harg4 arg5 harg5 arg6 harg6 arg7 harg7 arg8 harg8 arg9 harg9 arg10 harg10 arg11 harg11 arg12 harg12) K := by
  simp only [cc0__mic_kernel_eq_skeleton]; unfold cc0__mic_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, G0⟩, ⟨%g1, %hg1, G1⟩, ⟨%g2, %hg2, G2⟩, ⟨%g3, %hg3, G3⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5
  obtain rfl := harg9.eq_unread hg0; obtain rfl := harg10.eq_unread hg1; obtain rfl := harg11.eq_unread hg2; obtain rfl := harg12.eq_unread hg3
  sl_exec (disch := first | exact hc1 | exact hc2 | exact hc3 | exact hc4)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    swap
    · iexact H4
    ipureintro
    sl_unfold_run_names
    rw [read_writes_whole_cons _ _ hz3]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [H5]
  · iexists _; isplitr
    swap
    · iexact H5
    ipureintro
    sl_unfold_run_names
    rw [read_writes_whole_cons _ _ hz3]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G0]
  · iexists _; isplitr
    swap
    · iexact G0
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G1]
  · iexists _; isplitr
    swap
    · iexact G1
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G2]
  · iexists _; isplitr
    swap
    · iexact G2
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  iexists _; isplitr
  swap
  · iexact G3
  ipureintro
  sl_unfold_run_names
  rw [read_writes_whole_cons _ _ hz2]
  all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))

end Cert.Kernel.Hand

end
-- ==== Proof.BitsData.lean ====
import proofs.«120329_j57647051047499_1_alg».proof.Proof.BitsBodyA
import proofs.«120329_j57647051047499_1_alg».proof.Proof.BitsBodyB
import proofs.«120329_j57647051047499_1_alg».proof.Proof.BitsBodyC
import proofs.«120329_j57647051047499_1_alg».proof.Proof.BitsBodyD
import proofs.«120329_j57647051047499_1_alg».proof.Proof.BitsBodyE

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffers when the region is entered: after the host lines before it (the cast of the features, the
    transposed mask and its zero padding to 128 lanes). -/
abbrev V0 (c : Dev nD) : Valuation τ sig (Elt F) := StableHlo.after (List.flatten [hostOps0, hostOps0_1]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] ⟨hostOps0_sub, hostOps0_1_sub⟩
    ⟨hostOps0_fresh, hostOps0_1_fresh⟩ main_chain

theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- The lines after the region write only their own result buffers, none of which is an array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The accumulators, point by point -/

/-- The four scratch accumulators: the row sums of squares against the mask, the row sums of exponentials against the
    complement mask, and the two per-batch totals. -/
abbrev AccTy (F : FTy → Type) := Vec F S1024x128 .f32 × Vec F S1024x128 .f32 × Vec F S1x128 .f32 × Vec F S1x128 .f32

/-- One grid point's effect on the accumulators, by its position n in the grid: the row accumulators restart when a new
    row tile begins (n mod 4 = 0), the batch totals when a new batch begins (n mod 16 = 0), the column tile's two
    products are added, and when the row tile has met its last column tile (n mod 4 = 3) its masked column sums are
    added to the batch totals. -/
def stepN (n : ℕ) (x0 x1 : Vec F S1x1024x64 .bf16) (x2 x3 : Vec F S1x1024x128 .bf16) (a : AccTy F) : AccTy F :=
  (k0_pay1 (k0_pay15 x0 x1 x3) (if n % 4 = 0 then k0_pay8 else a.1),
   k0_pay2 (k0_pay16 x0 x1 x3) (if n % 4 = 0 then k0_pay9 else a.2.1),
   if n % 4 = 3 then k0_pay4 (k0_pay12 x2) (k0_pay1 (k0_pay15 x0 x1 x3) (if n % 4 = 0 then k0_pay8 else a.1)) (if n % 16 = 0 then k0_pay10 else a.2.2.1)
     else (if n % 16 = 0 then k0_pay10 else a.2.2.1),
   if n % 4 = 3 then k0_pay5 (k0_pay12 x2) (k0_pay2 (k0_pay16 x0 x1 x3) (if n % 4 = 0 then k0_pay9 else a.2.1)) (if n % 16 = 0 then k0_pay11 else a.2.2.2)
     else (if n % 16 = 0 then k0_pay11 else a.2.2.2))

theorem stepN_first (n : ℕ) (h : n % 16 = 0) (x0 x1 : Vec F S1x1024x64 .bf16) (x2 x3 : Vec F S1x1024x128 .bf16) (a a' : AccTy F) :
    stepN n x0 x1 x2 x3 a = stepN n x0 x1 x2 x3 a' := by
  have h4 : n % 4 = 0 := by omega
  unfold stepN; simp only [if_pos h, if_pos h4]

/-- Contents nobody names: what the scratch buffers hold before the first point. -/
def junkAcc : AccTy F := (k0_pay8, k0_pay9, k0_pay10, k0_pay11)

/-- What the four scratch accumulators hold after the body at position n. -/
def accAt (c : Dev nD) : (n : ℕ) → n < cfg0.N → AccTy F
  | 0, hn => stepN 0 (iblk m c 0 ⟨0, hn⟩) (iblk m c 1 ⟨0, hn⟩) (iblk m c 2 ⟨0, hn⟩) (iblk m c 3 ⟨0, hn⟩) junkAcc
  | n + 1, hn => stepN (n + 1) (iblk m c 0 ⟨n + 1, hn⟩) (iblk m c 1 ⟨n + 1, hn⟩) (iblk m c 2 ⟨n + 1, hn⟩) (iblk m c 3 ⟨n + 1, hn⟩)
      (accAt c n (Nat.lt_of_succ_lt hn))

/-- One step from whatever the scratch buffers held: at the first point the step does not look at it. -/
theorem accAt_step (c : Dev nD) (t : Fin cfg0.N) (a : AccTy F)
    (ha : ∀ h : t.val ≠ 0, a = accAt m c (t.val - 1) (Nat.lt_of_le_of_lt (Nat.sub_le _ _) t.isLt)) :
    accAt m c t.val t.isLt = stepN t.val (iblk m c 0 t) (iblk m c 1 t) (iblk m c 2 t) (iblk m c 3 t) a := by
  obtain ⟨n, hn⟩ := t
  cases n with
  | zero => exact stepN_first 0 rfl _ _ _ _ _ _
  | succ n => rw [ha (Nat.succ_ne_zero n)]; rfl

/-- The region invariant before position n: before the first point the scratch buffers at anything; afterwards at
    what the point before left. -/
def PhiS (c : Dev nD) : (n : ℕ) → n ≤ cfg0.N → sProp 𝕄
  | 0, _ => Pipeline.scopedRest spec0 c
  | n + 1, hn => iprop(owns (c : Thread nD τ) sc0 fullShare (accAt m c n hn).1 ∗ owns (c : Thread nD τ) sc1 fullShare (accAt m c n hn).2.1
      ∗ owns (c : Thread nD τ) sc2 fullShare (accAt m c n hn).2.2.1 ∗ owns (c : Thread nD τ) sc3 fullShare (accAt m c n hn).2.2.2)

theorem PhiS_succ (c : Dev nD) (n : ℕ) (hn : n < cfg0.N) :
    PhiS m c (n + 1) hn = iprop(owns (c : Thread nD τ) sc0 fullShare (accAt m c n hn).1 ∗ owns (c : Thread nD τ) sc1 fullShare (accAt m c n hn).2.1
      ∗ owns (c : Thread nD τ) sc2 fullShare (accAt m c n hn).2.2.1 ∗ owns (c : Thread nD τ) sc3 fullShare (accAt m c n hn).2.2.2) := rfl

/-- The scratch buffers owned at some contents. -/
theorem scoped_eq (c : Dev nD) :
    (Pipeline.scopedRest spec0 c : sProp 𝕄)
      = iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) := by
  rw [scopedRest0_eq]; simp only [sc0, sc1, sc2, sc3, owns_whole]; rfl

/-- Before any point the scratch buffers are owned at some contents, which after the first point are what the point
    before left. -/
theorem PhiS_open (c : Dev nD) (n : ℕ) (h : n ≤ cfg0.N) :
    PhiS m c n h ⊢ iprop(∃ a : AccTy F, ⌜∀ hz : n ≠ 0, a = accAt m c (n - 1) (by omega)⌝
      ∗ owns (c : Thread nD τ) sc0 fullShare a.1 ∗ owns (c : Thread nD τ) sc1 fullShare a.2.1
      ∗ owns (c : Thread nD τ) sc2 fullShare a.2.2.1 ∗ owns (c : Thread nD τ) sc3 fullShare a.2.2.2) := by
  cases n with
  | zero =>
    rw [show PhiS m c 0 h = Pipeline.scopedRest spec0 c from rfl, scoped_eq]
    iintro ⟨⟨%d0, H0⟩, ⟨%d1, H1⟩, ⟨%d2, H2⟩, ⟨%d3, H3⟩⟩
    iexists (d0, d1, d2, d3)
    isplitr; · ipureintro; intro hz; exact absurd rfl hz
    isplitl [H0]; · iexact H0
    isplitl [H1]; · iexact H1
    isplitl [H2]; · iexact H2
    iexact H3
  | succ n =>
    rw [PhiS_succ]
    iintro ⟨H0, H1, H2, H3⟩
    iexists accAt m c n h
    isplitr; · ipureintro; intro _; rfl
    isplitl [H0]; · iexact H0
    isplitl [H1]; · iexact H1
    isplitl [H2]; · iexact H2
    iexact H3

/-! ## The pipeline's proof data -/

/-- The proof data of the pipeline on core c: each input's buffer holds its block; the two output buffers hold, where
    the body stores into them (the last point of a batch), the two batch totals; the invariant is PhiS. The feature
    array and the mask array are each read through two windows, at half the share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay6 (accAt m c t.val t.isLt).2.2.1
    | ⟨5, _⟩ => k0_pay7 (accAt m c t.val t.isLt).2.2.2
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay6 (accAt m c t.val t.isLt).2.2.1 := by dsimp only [dats]
theorem after_5 (c : Dev nD) (t : Fin cfg0.N) : (dats m 0 c).after 5 t = k0_pay7 (accAt m c t.val t.isLt).2.2.2 := by dsimp only [dats]

/-- Input window 0's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's current staging buffer holds its block at every point, fetched there or not. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's current staging buffer holds its block at every point, fetched there or not. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input window 3's current staging buffer holds its block at every point, fetched there or not. -/
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

end Cert.Kernel.Hand

end
-- ==== Proof.BitsObl.lean ====
import proofs.«120329_j57647051047499_1_alg».proof.Proof.BitsData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t: the invariant, nothing owed, each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- The body at any grid point. Its position in the grid decides which of the five cases it is in; the inputs' buffers
    hold their blocks, the scratch buffers what the point before left (anything at the first point, which clears
    them), and the case's run leaves the accumulators at this point's step. The output buffers are stored into only
    at the last point of a batch and are handed back untouched elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [Phi_castSucc]
  have hN : t.val < 64 := lt_of_lt_of_eq t.isLt (show cfg0.N = 64 from N_0)
  by_cases h4 : t.val % 16 = 15
  · have h1 : ¬t.val % 4 = 0 := by omega
    have h2 : ¬t.val % 16 = 0 := by omega
    have h3 : t.val % 4 = 3 := by omega
    rw [show (dats m 0 c).leavesExact 4 t = owns (c : Thread nD τ) (ms4 t) fullShare ((dats m 0 c).after 4 t) from by
      unfold Dat.leavesExact; rw [live4 t ((hcond4 t).mpr h4)], after_4]
    rw [show (dats m 0 c).leavesExact 5 t = owns (c : Thread nD τ) (ms5 t) fullShare ((dats m 0 c).after 5 t) from by
      unfold Dat.leavesExact; rw [live5 t ((hcond4 t).mpr h4)], after_5]
    iintro ⟨HΦ, Ho, ⟨%d0, H0⟩, ⟨%d1, H1⟩, ⟨%d2, H2⟩, ⟨%d3, H3⟩, ⟨%d4, H4⟩, ⟨%d5, H5⟩⟩
    ihave HΦ := (PhiS_open m c t.val (Nat.le_of_lt t.isLt)) $$ HΦ
    icases HΦ with ⟨%a, %ha, G0, G1, G2, G3⟩
    rw [accAt_step m c t a ha]
    simp only [stepN, if_neg h1, if_neg h2, if_pos h3]
    iapply (runE c (grid0.coords t) _ _ _ _ _ _ _ _ _ _ _ _ _ _ _ _ _ _ _ _ (fun h => h1 ((hcond1 t).mp h)) (fun h => h2 ((hcond2 t).mp h)) ((hcond3 t).mpr h3) ((hcond4 t).mpr h4) (iblk m c 0 t) (iblk m c 1 t) (iblk m c 2 t) (iblk m c 3 t) _ _ a.1 a.2.1 a.2.2.1 a.2.2.2 Set.univ _)
    isplitl [H0]; · iexact H0
    isplitl [H1]; · iexact H1
    isplitl [H2]; · iexact H2
    isplitl [H3]; · iexact H3
    isplitl [H4]; · iexact H4
    isplitl [H5]; · iexact H5
    isplitl [G0]; · iexact G0
    isplitl [G1]; · iexact G1
    isplitl [G2]; · iexact G2
    isplitl [G3]; · iexact G3
    iintro ⟨H0, H1, H2, H3, H4, H5, G0, G1, G2, G3⟩
    isplitl [G0 G1 G2 G3]
    · isplitl [G0]; · iexact G0
      isplitl [G1]; · iexact G1
      isplitl [G2]; · iexact G2
      iexact G3
    isplitl [Ho]; · iexact Ho
    isplitl [H0]; · iexact H0
    isplitl [H1]; · iexact H1
    isplitl [H2]; · iexact H2
    isplitl [H3]; · iexact H3
    isplitl [H4]; · iexact H4
    iexact H5

  by_cases h3 : t.val % 4 = 3
  · have h1 : ¬t.val % 4 = 0 := by omega
    have h2 : ¬t.val % 16 = 0 := by omega
    rw [Dat.leavesExact_idle (dats m 0 c) 4 t (idle4 t (fun h => h4 ((hcond4 t).mp h))) (noFlush4 t (fun h => h4 ((hcond4 t).mp h)))]
    rw [Dat.leavesExact_idle (dats m 0 c) 5 t (idle5 t (fun h => h4 ((hcond4 t).mp h))) (noFlush5 t (fun h => h4 ((hcond4 t).mp h)))]
    iintro ⟨HΦ, Ho, ⟨%d0, H0⟩, ⟨%d1, H1⟩, ⟨%d2, H2⟩, ⟨%d3, H3⟩, ⟨%d4, H4⟩, ⟨%d5, H5⟩⟩
    ihave HΦ := (PhiS_open m c t.val (Nat.le_of_lt t.isLt)) $$ HΦ
    icases HΦ with ⟨%a, %ha, G0, G1, G2, G3⟩
    rw [accAt_step m c t a ha]
    simp only [stepN, if_neg h1, if_neg h2, if_pos h3]
    iapply (runD c (grid0.coords t) _ _ _ _ _ _ _ _ _ _ _ _ _ _ _ _ _ _ _ _ (fun h => h1 ((hcond1 t).mp h)) (fun h => h2 ((hcond2 t).mp h)) ((hcond3 t).mpr h3) (fun h => h4 ((hcond4 t).mp h)) (iblk m c 0 t) (iblk m c 1 t) (iblk m c 2 t) (iblk m c 3 t) _ _ a.1 a.2.1 a.2.2.1 a.2.2.2 Set.univ _)
    isplitl [H0]; · iexact H0
    isplitl [H1]; · iexact H1
    isplitl [H2]; · iexact H2
    isplitl [H3]; · iexact H3
    isplitl [H4]; · iexact H4
    isplitl [H5]; · iexact H5
    isplitl [G0]; · iexact G0
    isplitl [G1]; · iexact G1
    isplitl [G2]; · iexact G2
    isplitl [G3]; · iexact G3
    iintro ⟨H0, H1, H2, H3, H4, H5, G0, G1, G2, G3⟩
    isplitl [G0 G1 G2 G3]
    · isplitl [G0]; · iexact G0
      isplitl [G1]; · iexact G1
      isplitl [G2]; · iexact G2
      iexact G3
    isplitl [Ho]; · iexact Ho
    isplitl [H0]; · iexact H0
    isplitl [H1]; · iexact H1
    isplitl [H2]; · iexact H2
    isplitl [H3]; · iexact H3
    isplitl [H4]; · iexists _; iexact H4
    iexists _; iexact H5

  by_cases h2 : t.val % 16 = 0
  · have h1 : t.val % 4 = 0 := by omega
    rw [Dat.leavesExact_idle (dats m 0 c) 4 t (idle4 t (fun h => h4 ((hcond4 t).mp h))) (noFlush4 t (fun h => h4 ((hcond4 t).mp h)))]
    rw [Dat.leavesExact_idle (dats m 0 c) 5 t (idle5 t (fun h => h4 ((hcond4 t).mp h))) (noFlush5 t (fun h => h4 ((hcond4 t).mp h)))]
    iintro ⟨HΦ, Ho, ⟨%d0, H0⟩, ⟨%d1, H1⟩, ⟨%d2, H2⟩, ⟨%d3, H3⟩, ⟨%d4, H4⟩, ⟨%d5, H5⟩⟩
    ihave HΦ := (PhiS_open m c t.val (Nat.le_of_lt t.isLt)) $$ HΦ
    icases HΦ with ⟨%a, %ha, G0, G1, G2, G3⟩
    rw [accAt_step m c t a ha]
    simp only [stepN, if_pos h1, if_pos h2, if_neg h3]
    iapply (runA c (grid0.coords t) _ _ _ _ _ _ _ _ _ _ _ _ _ _ _ _ _ _ _ _ ((hcond1 t).mpr h1) ((hcond2 t).mpr h2) (fun h => h3 ((hcond3 t).mp h)) (fun h => h4 ((hcond4 t).mp h)) (iblk m c 0 t) (iblk m c 1 t) (iblk m c 2 t) (iblk m c 3 t) _ _ a.1 a.2.1 a.2.2.1 a.2.2.2 Set.univ _)
    isplitl [H0]; · iexact H0
    isplitl [H1]; · iexact H1
    isplitl [H2]; · iexact H2
    isplitl [H3]; · iexact H3
    isplitl [H4]; · iexact H4
    isplitl [H5]; · iexact H5
    isplitl [G0]; · iexact G0
    isplitl [G1]; · iexact G1
    isplitl [G2]; · iexact G2
    isplitl [G3]; · iexact G3
    iintro ⟨H0, H1, H2, H3, H4, H5, G0, G1, G2, G3⟩
    isplitl [G0 G1 G2 G3]
    · isplitl [G0]; · iexact G0
      isplitl [G1]; · iexact G1
      isplitl [G2]; · iexact G2
      iexact G3
    isplitl [Ho]; · iexact Ho
    isplitl [H0]; · iexact H0
    isplitl [H1]; · iexact H1
    isplitl [H2]; · iexact H2
    isplitl [H3]; · iexact H3
    isplitl [H4]; · iexists _; iexact H4
    iexists _; iexact H5

  by_cases h1 : t.val % 4 = 0
  · skip
    rw [Dat.leavesExact_idle (dats m 0 c) 4 t (idle4 t (fun h => h4 ((hcond4 t).mp h))) (noFlush4 t (fun h => h4 ((hcond4 t).mp h)))]
    rw [Dat.leavesExact_idle (dats m 0 c) 5 t (idle5 t (fun h => h4 ((hcond4 t).mp h))) (noFlush5 t (fun h => h4 ((hcond4 t).mp h)))]
    iintro ⟨HΦ, Ho, ⟨%d0, H0⟩, ⟨%d1, H1⟩, ⟨%d2, H2⟩, ⟨%d3, H3⟩, ⟨%d4, H4⟩, ⟨%d5, H5⟩⟩
    ihave HΦ := (PhiS_open m c t.val (Nat.le_of_lt t.isLt)) $$ HΦ
    icases HΦ with ⟨%a, %ha, G0, G1, G2, G3⟩
    rw [accAt_step m c t a ha]
    simp only [stepN, if_pos h1, if_neg h2, if_neg h3]
    iapply (runB c (grid0.coords t) _ _ _ _ _ _ _ _ _ _ _ _ _ _ _ _ _ _ _ _ ((hcond1 t).mpr h1) (fun h => h2 ((hcond2 t).mp h)) (fun h => h3 ((hcond3 t).mp h)) (fun h => h4 ((hcond4 t).mp h)) (iblk m c 0 t) (iblk m c 1 t) (iblk m c 2 t) (iblk m c 3 t) _ _ a.1 a.2.1 a.2.2.1 a.2.2.2 Set.univ _)
    isplitl [H0]; · iexact H0
    isplitl [H1]; · iexact H1
    isplitl [H2]; · iexact H2
    isplitl [H3]; · iexact H3
    isplitl [H4]; · iexact H4
    isplitl [H5]; · iexact H5
    isplitl [G0]; · iexact G0
    isplitl [G1]; · iexact G1
    isplitl [G2]; · iexact G2
    isplitl [G3]; · iexact G3
    iintro ⟨H0, H1, H2, H3, H4, H5, G0, G1, G2, G3⟩
    isplitl [G0 G1 G2 G3]
    · isplitl [G0]; · iexact G0
      isplitl [G1]; · iexact G1
      isplitl [G2]; · iexact G2
      iexact G3
    isplitl [Ho]; · iexact Ho
    isplitl [H0]; · iexact H0
    isplitl [H1]; · iexact H1
    isplitl [H2]; · iexact H2
    isplitl [H3]; · iexact H3
    isplitl [H4]; · iexists _; iexact H4
    iexists _; iexact H5

  · skip
    rw [Dat.leavesExact_idle (dats m 0 c) 4 t (idle4 t (fun h => h4 ((hcond4 t).mp h))) (noFlush4 t (fun h => h4 ((hcond4 t).mp h)))]
    rw [Dat.leavesExact_idle (dats m 0 c) 5 t (idle5 t (fun h => h4 ((hcond4 t).mp h))) (noFlush5 t (fun h => h4 ((hcond4 t).mp h)))]
    iintro ⟨HΦ, Ho, ⟨%d0, H0⟩, ⟨%d1, H1⟩, ⟨%d2, H2⟩, ⟨%d3, H3⟩, ⟨%d4, H4⟩, ⟨%d5, H5⟩⟩
    ihave HΦ := (PhiS_open m c t.val (Nat.le_of_lt t.isLt)) $$ HΦ
    icases HΦ with ⟨%a, %ha, G0, G1, G2, G3⟩
    rw [accAt_step m c t a ha]
    simp only [stepN, if_neg h1, if_neg h2, if_neg h3]
    iapply (runC c (grid0.coords t) _ _ _ _ _ _ _ _ _ _ _ _ _ _ _ _ _ _ _ _ (fun h => h1 ((hcond1 t).mp h)) (fun h => h2 ((hcond2 t).mp h)) (fun h => h3 ((hcond3 t).mp h)) (fun h => h4 ((hcond4 t).mp h)) (iblk m c 0 t) (iblk m c 1 t) (iblk m c 2 t) (iblk m c 3 t) _ _ a.1 a.2.1 a.2.2.1 a.2.2.2 Set.univ _)
    isplitl [H0]; · iexact H0
    isplitl [H1]; · iexact H1
    isplitl [H2]; · iexact H2
    isplitl [H3]; · iexact H3
    isplitl [H4]; · iexact H4
    isplitl [H5]; · iexact H5
    isplitl [G0]; · iexact G0
    isplitl [G1]; · iexact G1
    isplitl [G2]; · iexact G2
    isplitl [G3]; · iexact G3
    iintro ⟨H0, H1, H2, H3, H4, H5, G0, G1, G2, G3⟩
    isplitl [G0 G1 G2 G3]
    · isplitl [G0]; · iexact G0
      isplitl [G1]; · iexact G1
      isplitl [G2]; · iexact G2
      iexact G3
    isplitl [Ho]; · iexact Ho
    isplitl [H0]; · iexact H0
    isplitl [H1]; · iexact H1
    isplitl [H2]; · iexact H2
    isplitl [H3]; · iexact H3
    isplitl [H4]; · iexists _; iexact H4
    iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LibFrameSharedTail.lean ====
/-
  The frame run of a one-region pipeline kernel that is handed ONE array through SEVERAL input windows, carries an
  invariant of its own from grid point to grid point (a scratch accumulator), and is followed in @main by lines of
  host operations.

  When two input windows stage blocks of one array, the array's buffer is dealt among the windows at the region's
  entry (hsplit) and collected again at its exit (hjoin): between the two the pipeline holds one share per window.
  The lines after the region run holding every unscoped buffer whole: the arrays as the region leaves them (the exit
  valuation E, which agrees with the entry contents off the arrays), everything else as the region found it. They
  write no array, so what they leave is dealt to the windows once more (hsplitN) for the pipeline's own bookkeeping,
  and the final state has every window's array at what the write-backs left there and every other unscoped buffer at
  what the lines computed from the exit valuation.
-/
import Idealize.ShloMosaic.Lib.Pipeline.FrameSuffix

noncomputable section

namespace Idealize.ShloMosaic.Pipeline

open Idealize.SL
open Idealize.SL.BI (sProp bigSep bigSep_map bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- What the frame run around a region with shared arrays concludes: every window's array at what the write-backs
    leave, every other unscoped buffer at what the lines after the region compute from the exit valuation. -/
def SharedPost (cfgs : P → Cfg sig Λ₀) (dats : (p : P) → (c : Dev nD) → Dat τ Val Unit ℕ (UR sig nD τ) ℕ (cfgs p) c) (p : P)
    (E : Dev nD → Valuation τ sig Val) (opss : List (List (HloOp τ sig Val))) (r : PUnit × MemSt nD τ sig Val) : Prop :=
  ∀ c : Dev nD, (∀ w, r.2.mem (((cfgs p).spec w).arr.view.loc (c.tc : Thread nD τ)) = (dats p c).arrAt w (cfgs p).N)
    ∧ ∀ b ∈ restRefs sig (cfgs p).spec, r.2.mem ((c.tc : Thread nD τ).loc b) = StableHlo.after opss.flatten (E c) (Proc.devRef .tc b)

set_option backward.isDefEq.respectTransparency.types false in
theorem θ_run_frame_shared_around (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄) ⊢ (dats p c).arrays ((dats p c).arrAt · 0))
    (E : Dev nD → Valuation τ sig Val)
    (hE : ∀ c, ∀ b ∈ restRefs sig (cfgs p).spec, E c (Proc.devRef .tc b) = V₀ c (Proc.devRef .tc b))
    (hjoin : ∀ c, ((dats p c).arrays ((dats p c).arrAt · (cfgs p).N) : sProp 𝕄) ⊢ arrBufs (cfgs p).spec c (fun b => E c (Proc.devRef .tc b)))
    (hsplitN : ∀ c, (arrBufs (cfgs p).spec c (fun b => E c (Proc.devRef .tc b)) : sProp 𝕄) ⊢ (dats p c).arrays ((dats p c).arrAt · (cfgs p).N))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (SharedPost cfgs dats p E opss) := by
  classical
  exact θ_run_region_noSem_pf_tail (fun q => (cfgs q).toPCfg) (fun q => (cfgs q).toPCfg_adm) dats () hinj p hw (PreFacts.none _) emb₁ defs₀ 𝒱₀
    m g main (fun _ => chain (opss.map StableHlo.seq)) hbody hne harr hstage howed
    (u₀ := initOf (cells cfgs hinj) (launchToks cfgs hinj)) (hu₀ := .rfl)
    (V := fun c b => V₀ c (Proc.devRef .tc b)) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfgs p).spec c (fun b => V₀ c (Proc.devRef .tc b)))
    (Z' := fun c => unscopedRest (Ix := Unit) (Name := ℕ) (U := UR sig nD τ) (Lvl := ℕ) (cfgs p).spec c
      (fun b => StableHlo.after opss.flatten (E c) (Proc.devRef .tc b)))
    (hX := fun c => by
      rw [unscopedRestP_none]
      iintro H
      isplitr
      · iempintro
      · iexact H)
    (hin := fun c => (show _ ⊢ (scopedRest (cfgs p).spec c : sProp 𝕄) from by iintro ⟨-, -, HR⟩; iexact HR).trans (hin c))
    (hout := fun c => (hout c).trans (by
      iintro H
      isplitr
      · iempintro
      · iexact H))
    (htail := fun c Q' => by
      have hEZ : (unscopedRest (Ix := Unit) (Name := ℕ) (U := UR sig nD τ) (Lvl := ℕ) (cfgs p).spec c (fun b => V₀ c (Proc.devRef .tc b)) : sProp 𝕄)
          = unscopedRest (cfgs p).spec c (fun b => E c (Proc.devRef .tc b)) := by
        unfold unscopedRest
        exact bigSep_congr fun b hb => by dsimp only; rw [hE c b hb]
      have hkeepA : (arrBufs (cfgs p).spec c (fun b => StableHlo.after opss.flatten (E c) (Proc.devRef .tc b)) : sProp 𝕄)
          = arrBufs (cfgs p).spec c (fun b => E c (Proc.devRef .tc b)) := by
        unfold arrBufs
        exact bigSep_congr fun b hb => by
          obtain ⟨w, -, rfl⟩ := Finset.mem_image.mp hb
          dsimp only
          rw [StableHlo.after_of_forall_not_mem _ _ fun op hop => ?_]
          obtain ⟨ops, hops, hop'⟩ := List.mem_flatten.mp hop
          exact hkeep ops hops op hop' w
      have hheld : ∀ Wv : Valuation τ sig Val,
          (StableHlo.held (c.tc : Thread nD τ) (ucRefs τ sig) Wv : sProp 𝕄)
            = iprop(arrBufs (cfgs p).spec c (fun b => Wv (Proc.devRef .tc b)) ∗ unscopedRest (cfgs p).spec c (fun b => Wv (Proc.devRef .tc b))) := fun Wv => by
        rw [← unscopedBufs_held (Ix := Unit) (Name := ℕ) (U := UR sig nD τ) (Lvl := ℕ) c Wv]
        exact unscopedBufs_split₀ cfgs p hw.arr_unscoped c _
      have h1 : iprop(boundary (c.tc : Thread nD τ) ∗ (dats p c).arrays ((dats p c).arrAt · (cfgs p).N)
            ∗ (unscopedRest (cfgs p).spec c (fun b => V₀ c (Proc.devRef .tc b)) : sProp 𝕄))
          ⊢ iprop(boundary (c.tc : Thread nD τ) ∗ (StableHlo.held (c.tc : Thread nD τ) (ucRefs τ sig) (E c) : sProp 𝕄)) := by
        rw [hheld (E c), hEZ]
        iintro ⟨Hb, HA, HZ⟩
        isplitl [Hb]
        · iexact Hb
        isplitl [HA]
        · iapply (hjoin c) $$ HA
        · iexact HZ
      have h2 : iprop(boundary (c.tc : Thread nD τ) ∗ (StableHlo.held (c.tc : Thread nD τ) (ucRefs τ sig) (StableHlo.after opss.flatten (E c)) : sProp 𝕄))
          ⊢ iprop((dats p c).arrays ((dats p c).arrAt · (cfgs p).N)
            ∗ (unscopedRest (cfgs p).spec c (fun b => StableHlo.after opss.flatten (E c) (Proc.devRef .tc b)) : sProp 𝕄)) := by
        rw [hheld, hkeepA]
        iintro ⟨-, HA, HZ⟩
        isplitl [HA]
        · iapply (hsplitN c) $$ HA
        · iexact HZ
      have h3 := wp_seqs_then (Ix := Unit) (Name := ℕ) (U := UR sig nD τ) (Lvl := ℕ) (fun q => Cfg.toPCfg (Val := Val) (cfgs q)) defs₀ 𝒱₀ c (ucRefs τ sig) [] (K := Q') opss
        (fun ops ho op h => sub_ucRefs op (hsub ops ho op h)) hfresh (E c)
      rw [chain_nil, wp_pure, List.append_nil] at h3
      iintro ⟨Hk, Hrest⟩
      ihave H := h1 $$ Hrest
      iapply h3 $$ H
      iintro H
      ihave H := h2 $$ H
      imodintro
      iapply Hk
      iexact H)
    (QY := fun c s => ∀ b ∈ restRefs sig (cfgs p).spec, s.mem ((c.tc : Thread nD τ).loc b) = StableHlo.after opss.flatten (E c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (E c) (Proc.devRef .tc b)) s')
      isplitl [HU] <;> iassumption)
    (hQ := fun s h c => ⟨(h c).1, (h c).2.2⟩)

end Idealize.ShloMosaic.Pipeline

end
-- ==== Proof.BitsRun.lean ====
import proofs.«120329_j57647051047499_1_alg».proof.Proof.BitsObl
import proofs.«120329_j57647051047499_1_alg».proof.Proof.LibFrameSharedTail

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant at the region's two ends -/

theorem PhiS_pos (c : Dev nD) (n : ℕ) (h : n ≤ cfg0.N) (hz : n ≠ 0) :
    PhiS m c n h = iprop(owns (c : Thread nD τ) sc0 fullShare (accAt m c (n - 1) (by omega)).1 ∗ owns (c : Thread nD τ) sc1 fullShare (accAt m c (n - 1) (by omega)).2.1
      ∗ owns (c : Thread nD τ) sc2 fullShare (accAt m c (n - 1) (by omega)).2.2.1 ∗ owns (c : Thread nD τ) sc3 fullShare (accAt m c (n - 1) (by omega)).2.2.2) := by
  cases n with
  | zero => exact absurd rfl hz
  | succ n => rfl

/-- The launch hands the region the scratch buffers at anything: the invariant before the first point. -/
theorem hin (c : Dev nD) : (Pipeline.scopedRest spec0 c : sProp 𝕄) ⊢ (dats m 0 c).Φ 0 := by
  rw [show (dats m 0 c).Φ 0 = Pipeline.scopedRest spec0 c from rfl]
  try exact Idealize.SL.BI.Entails.refl _

/-- After the last point the scratch buffers are given back, their contents forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro ⟨H0, H1, H2, H3⟩
  isplitl [H0]; · iexists _; iexact H0
  isplitl [H1]; · iexists _; iexact H1
  isplitl [H2]; · iexists _; iexact H2
  iexists _; iexact H3

/-! ## The arrays at the region's two ends

The cast features (main_v0) are read through windows 0 and 1, the padded mask (main_v3) through windows 2 and 3: each
array is dealt to its two windows at half the share each, and collected again at the exit. -/

/-- The buffers as the region leaves them: the two result arrays at what the write-backs left, everything else as the
    region found it. -/
def Eexit (c : Dev nD) : Valuation τ sig (Elt F) :=
  Function.update (Function.update (V0 m c) (Proc.devRef .tc main_v4_0) ((dats m 0 c).arrAt 4 cfg0.N))
    (Proc.devRef .tc main_v4_1) ((dats m 0 c).arrAt 5 cfg0.N)

theorem Eexit_v4_1 (c : Dev nD) : Eexit m c (Proc.devRef .tc main_v4_1) = (dats m 0 c).arrAt 5 cfg0.N := by
  unfold Eexit; rw [Function.update_self]
theorem Eexit_v4_0 (c : Dev nD) : Eexit m c (Proc.devRef .tc main_v4_0) = (dats m 0 c).arrAt 4 cfg0.N := by
  unfold Eexit; rw [Function.update_of_ne (StableHlo.devRef_ne_of_ne (by decide)), Function.update_self]
theorem Eexit_of_ne (c : Dev nD) (b : Ref sig .tc) (h4 : b ≠ main_v4_0) (h5 : b ≠ main_v4_1) :
    Eexit m c (Proc.devRef .tc b) = V0 m c (Proc.devRef .tc b) := by
  unfold Eexit
  rw [Function.update_of_ne (StableHlo.devRef_ne_of_ne h5), Function.update_of_ne (StableHlo.devRef_ne_of_ne h4)]

theorem hE (c : Dev nD) : ∀ b ∈ Pipeline.restRefs sig spec0, Eexit m c (Proc.devRef .tc b) = V0 m c (Proc.devRef .tc b) := by
  intro b hb
  have hb' := (Finset.mem_sdiff.mp hb).2
  exact Eexit_of_ne m c b (fun h => hb' (Finset.mem_image.mpr ⟨4, Finset.mem_univ _, h.symm⟩))
    (fun h => hb' (Finset.mem_image.mpr ⟨5, Finset.mem_univ _, h.symm⟩))

/-- The distinct arrays behind the six windows, one by one. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_v0) ↦{fullShare} W main_v0) ∗ (((c.tc : Thread nD τ).loc main_v3) ↦{fullShare} W main_v3)
          ∗ (((c.tc : Thread nD τ).loc main_v4_0) ↦{fullShare} W main_v4_0) ∗ (((c.tc : Thread nD τ).loc main_v4_1) ↦{fullShare} W main_v4_1)) := by
  unfold Pipeline.arrBufs
  exact bigSep_eq_bigSepL_of_eq [main_v0, main_v3, main_v4_0, main_v4_1] (by decide) (by decide) _

/-- The windows' arrays at their shares, one by one. -/
theorem arrays_eq (c : Dev nD) (G : (w : Fin cfg0.W) → Buf (Elt F) ((cfg0.win w).arr.view.loc (c.tc : Thread nD τ))) :
    ((dats m 0 c).arrays G : sProp 𝕄)
      = iprop((((c.tc : Thread nD τ).loc main_v0) ↦{fullShare.left} G 0) ∗ (((c.tc : Thread nD τ).loc main_v0) ↦{fullShare.right} G 1)
          ∗ (((c.tc : Thread nD τ).loc main_v3) ↦{fullShare.left} G 2) ∗ (((c.tc : Thread nD τ).loc main_v3) ↦{fullShare.right} G 3)
          ∗ (((c.tc : Thread nD τ).loc main_v4_0) ↦{fullShare} G 4) ∗ (((c.tc : Thread nD τ).loc main_v4_1) ↦{fullShare} G 5)) := by
  unfold Dat.arrays
  rw [bigSep_W0]
  simp only [Memref.view_whole, View.set_whole]
  rfl

theorem halves {ℓ : Loc nD τ sig} (x : Buf (Elt F) ℓ) :
    (ℓ ↦{fullShare} x : sProp 𝕄) ⊣⊢ iprop((ℓ ↦{fullShare.left} x) ∗ (ℓ ↦{fullShare.right} x)) :=
  pointsTo_share (PosShare.mem_left_op_right _)

/-- At the region's entry each shared array is dealt to its two windows. -/
theorem hsplit (c : Dev nD) :
    (Pipeline.arrBufs spec0 c (fun b => V0 m c (Proc.devRef .tc b)) : sProp 𝕄) ⊢ (dats m 0 c).arrays ((dats m 0 c).arrAt · 0) := by
  rw [arrBufs_eq, arrays_eq]
  iintro ⟨Ha, Hb, Hc, Hd⟩
  ihave Ha := (halves (V0 m c (Proc.devRef .tc main_v0))).1 $$ Ha
  icases Ha with ⟨Ha1, Ha2⟩
  ihave Hb := (halves (V0 m c (Proc.devRef .tc main_v3))).1 $$ Hb
  icases Hb with ⟨Hb1, Hb2⟩
  isplitl [Ha1]; · iexact Ha1
  isplitl [Ha2]; · iexact Ha2
  isplitl [Hb1]; · iexact Hb1
  isplitl [Hb2]; · iexact Hb2
  isplitl [Hc]; · iexact Hc
  iexact Hd

theorem arrAt_in0 (c : Dev nD) (n : ℕ) : (dats m 0 c).arrAt 0 n = V0 m c (Proc.devRef .tc main_v0) := (dats m 0 c).arrAt_in 0 rfl n
theorem arrAt_in1 (c : Dev nD) (n : ℕ) : (dats m 0 c).arrAt 1 n = V0 m c (Proc.devRef .tc main_v0) := (dats m 0 c).arrAt_in 1 rfl n
theorem arrAt_in2 (c : Dev nD) (n : ℕ) : (dats m 0 c).arrAt 2 n = V0 m c (Proc.devRef .tc main_v3) := (dats m 0 c).arrAt_in 2 rfl n
theorem arrAt_in3 (c : Dev nD) (n : ℕ) : (dats m 0 c).arrAt 3 n = V0 m c (Proc.devRef .tc main_v3) := (dats m 0 c).arrAt_in 3 rfl n

/-- At its exit the halves are put together again (the inputs were never written), and the two results are whole. -/
theorem hjoin (c : Dev nD) :
    ((dats m 0 c).arrays ((dats m 0 c).arrAt · cfg0.N) : sProp 𝕄) ⊢ Pipeline.arrBufs spec0 c (fun b => Eexit m c (Proc.devRef .tc b)) := by
  rw [arrBufs_eq, arrays_eq]
  simp only [arrAt_in0, arrAt_in1, arrAt_in2, arrAt_in3, Eexit_v4_0, Eexit_v4_1,
    Eexit_of_ne m c main_v0 (by decide) (by decide), Eexit_of_ne m c main_v3 (by decide) (by decide)]
  iintro ⟨Ha1, Ha2, Hb1, Hb2, Hc, Hd⟩
  isplitl [Ha1 Ha2]
  · iapply (halves (V0 m c (Proc.devRef .tc main_v0))).2
    isplitl [Ha1]; · iexact Ha1
    iexact Ha2
  isplitl [Hb1 Hb2]
  · iapply (halves (V0 m c (Proc.devRef .tc main_v3))).2
    isplitl [Hb1]; · iexact Hb1
    iexact Hb2
  isplitl [Hc]; · iexact Hc
  iexact Hd

/-- And dealt once more after the lines that follow the region, which write none of them. -/
theorem hsplitN (c : Dev nD) :
    (Pipeline.arrBufs spec0 c (fun b => Eexit m c (Proc.devRef .tc b)) : sProp 𝕄) ⊢ (dats m 0 c).arrays ((dats m 0 c).arrAt · cfg0.N) := by
  rw [arrBufs_eq, arrays_eq]
  simp only [arrAt_in0, arrAt_in1, arrAt_in2, arrAt_in3, Eexit_v4_0, Eexit_v4_1,
    Eexit_of_ne m c main_v0 (by decide) (by decide), Eexit_of_ne m c main_v3 (by decide) (by decide)]
  iintro ⟨Ha, Hb, Hc, Hd⟩
  ihave Ha := (halves (V0 m c (Proc.devRef .tc main_v0))).1 $$ Ha
  icases Ha with ⟨Ha1, Ha2⟩
  ihave Hb := (halves (V0 m c (Proc.devRef .tc main_v3))).1 $$ Hb
  icases Hb with ⟨Hb1, Hb2⟩
  isplitl [Ha1]; · iexact Ha1
  isplitl [Ha2]; · iexact Ha2
  isplitl [Hb1]; · iexact Hb1
  isplitl [Hb2]; · iexact Hb2
  isplitl [Hc]; · iexact Hc
  iexact Hd

/-! ## The run -/

set_option backward.isDefEq.respectTransparency.types false in
/-- From any memory with zero counters every weakly fair execution of @main terminates without a fault; at the end the
    two result arrays hold what the write-backs left, the shared input arrays are unchanged, and every other unscoped
    buffer holds what the lines after the region compute from the exit contents. -/
theorem run_main : θ_run defs (onTc (τ := τ) (main (F := F))) (s₀ m ρ) (Pipeline.SharedPost cfgs (dats m) 0 (Eexit m) [hostOps1]) :=
  Pipeline.θ_run_frame_shared_around cfgs (dats m) (0 : Fin 1) cellOf_inj winFacts₀0 block_pos0 arr_whole0 stage_whole0 defs₀ Variants.none m ρ main
    (hbody := fun c => (body_obligation m c).loose) (howed := fun _ _ => rfl) (V₀ := V0 m) (opss := [hostOps1])
    (hsub := sfx_sub) (hfresh := sfx_fresh) (hkeep := sfx_keeps) (hmain := hmain m Variants.none)
    (hsplit := hsplit m) (E := Eexit m) (hE := hE m) (hjoin := hjoin m) (hsplitN := hsplitN m) (hin := hin m) (hout := hout m)

/-- A reference the lines after the region do not write, and that is no result of the region, ends as @main's first
    lines left it. -/
theorem tail_keeps (c : Dev nD) (b : Ref sig .tc) (h4 : b ≠ main_v4_0) (h5 : b ≠ main_v4_1)
    (hw : ∀ op ∈ (hostOps1 : List (HloOp τ sig (Elt F))), Proc.devRef .tc b ∉ op.writes) :
    StableHlo.after (List.flatten [hostOps1]) (Eexit m c) (Proc.devRef .tc b) = V0 m c (Proc.devRef .tc b) := by
  rw [show (List.flatten [hostOps1] : List (HloOp τ sig (Elt F))) = hostOps1 from by simp only [List.flatten_cons, List.flatten_nil, List.append_nil]]
  rw [StableHlo.after_of_forall_not_mem _ _ hw, Eexit_of_ne m c b h4 h5]

end Cert.Kernel.Hand

end
-- ==== Proof.BitsFrame.lean ====
import proofs.«120329_j57647051047499_1_alg».proof.Proof.BitsRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem flat1 : (List.flatten [hostOps1] : List (HloOp τ sig (Elt F))) = hostOps1 := by
  simp only [List.flatten_cons, List.flatten_nil, List.append_nil]

/-- The host lines before the region leave the two arguments as they were. -/
theorem V0_arg0 (c : Dev nD) : V0 m c (Proc.devRef .tc main_arg0) = m ((c : Thread nD τ).loc main_arg0) := by
  dsimp only [V0]
  simp only [hostOps0, hostOps0_1, List.flatten_cons, List.flatten_nil, List.append_nil, List.cons_append, List.nil_append]
  after_results_simp
  first | done | rfl
theorem V0_arg1 (c : Dev nD) : V0 m c (Proc.devRef .tc main_arg1) = m ((c : Thread nD τ).loc main_arg1) := by
  dsimp only [V0]
  simp only [hostOps0, hostOps0_1, List.flatten_cons, List.flatten_nil, List.append_nil, List.cons_append, List.nil_append]
  after_results_simp
  first | done | rfl

/-- Neither do the lines after it. -/
theorem kept_arg0 (c : Dev nD) :
    StableHlo.after (List.flatten [hostOps1]) (Eexit m c) (Proc.devRef .tc main_arg0) = m ((c : Thread nD τ).loc main_arg0) := by
  rw [flat1]
  dsimp only [hostOps1]
  after_results_simp
  rw [Eexit_of_ne m c main_arg0 (by decide) (by decide)]
  exact V0_arg0 m c
theorem kept_arg1 (c : Dev nD) :
    StableHlo.after (List.flatten [hostOps1]) (Eexit m c) (Proc.devRef .tc main_arg1) = m ((c : Thread nD τ).loc main_arg1) := by
  rw [flat1]
  dsimp only [hostOps1]
  after_results_simp
  rw [Eexit_of_ne m c main_arg1 (by decide) (by decide)]
  exact V0_arg1 m c

theorem mem_rest_arg0 : main_arg0 ∈ Pipeline.restRefs sig spec0 :=
  Pipeline.mem_restRefs_of main_arg0 rfl (by decide)
theorem mem_rest_arg1 : main_arg1 ∈ Pipeline.restRefs sig spec0 :=
  Pipeline.mem_restRefs_of main_arg1 rfl (by decide)
theorem mem_rest_v29 : main_v29 ∈ Pipeline.restRefs sig spec0 :=
  Pipeline.mem_restRefs_of main_v29 rfl (by decide)

/-- The frame: every weakly fair execution of @main terminates without a fault and leaves the two arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).2 main_arg0 mem_rest_arg0).trans (kept_arg0 m c),
      ((h c).2 main_arg1 mem_rest_arg1).trans (kept_arg1 m c)⟩) (run_main m ρ)

end Cert.Kernel.Hand

end
-- ==== Proof.IdealSetup.lean ====
/-
  What the proofs about the kernel share: the arrays as the region finds them, each window's block at a grid
  point, the four conditions the body branches on in closed form over the 64 grid points (b, pi, ni in
  row-major order: point t has ni = t mod 4 and pi = (t / 4) mod 4), where the two output windows are idle,
  and the memrefs the body is called with.
-/
import proofs.«120329_j57647051047499_1_alg».proof.Proof.Gen.KernelIdeal.Launch
import proofs.«120329_j57647051047499_1_alg».proof.Proof.Gen.KernelIdeal.Skeleton
import proofs.«120329_j57647051047499_1_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The four conditions of the body -/

/-- ni = 0: the two row accumulators are cleared. -/
abbrev cond1 (i : grid0.Coords) : Prop :=
  Scalar.cmpi .ne (Scalar.extui (Scalar.cmpi .eq (BitVec.ofNat 32 (i 2).val) 0#32)) 0#32 = 1#1
/-- pi = 0 and ni = 0: the two per-batch accumulators are cleared. -/
abbrev cond2 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- ni = 3: a row tile has met every column tile, its contribution is folded into the per-batch accumulators. -/
abbrev cond3 (i : grid0.Coords) : Prop :=
  Scalar.cmpi .ne (Scalar.extui (Scalar.cmpi .eq (BitVec.ofNat 32 (i 2).val) 3#32)) 0#32 = 1#1
/-- pi = 3 and ni = 3: the batch is done, the per-batch accumulators are stored to the outputs. -/
abbrev cond4 (i : grid0.Coords) : Prop := k0_cond4 i = 1#1

theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, cond2 (grid0.coords t) ↔ t.val % 16 = 0 :=
  (by decide +kernel : ∀ t : Fin grid0.N, cond2 (grid0.coords t) ↔ t.val % 16 = 0)
theorem hcond3 : ∀ t : Fin cfg0.N, cond3 (grid0.coords t) ↔ t.val % 4 = 3 :=
  (by decide +kernel : ∀ t : Fin grid0.N, cond3 (grid0.coords t) ↔ t.val % 4 = 3)
theorem hcond4 : ∀ t : Fin cfg0.N, cond4 (grid0.coords t) ↔ t.val % 16 = 15 :=
  (by decide +kernel : ∀ t : Fin grid0.N, cond4 (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, ¬cond4 (grid0.coords t) → cfg0.idle 4 (grid0.coords t) = true := by decide +kernel
theorem idle5 : ∀ t : Fin cfg0.N, ¬cond4 (grid0.coords t) → cfg0.idle 5 (grid0.coords t) = true := by decide +kernel
theorem noFlush4 : ∀ t : Fin cfg0.N, ¬cond4 (grid0.coords t) → (cfg0.win 4).flush t = false := by decide +kernel
theorem noFlush5 : ∀ t : Fin cfg0.N, ¬cond4 (grid0.coords t) → (cfg0.win 5).flush t = false := by decide +kernel
theorem live4 : ∀ t : Fin cfg0.N, cond4 (grid0.coords t) → cfg0.idle 4 (grid0.coords t) = false := by decide +kernel
theorem live5 : ∀ t : Fin cfg0.N, cond4 (grid0.coords t) → cfg0.idle 5 (grid0.coords t) = false := by decide +kernel

/-! ## The memrefs the body is called with -/

abbrev ms0 (t : Fin cfg0.N) : Memref sig .tc .vmem S1x1024x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x128 .f32 := win0_5.stage (cfg0.slots t 5)
abbrev hs5 (t : Fin cfg0.N) : (ms5 t).IsWhole := hstage0_5 ((cfg0.slots t 5).cast nbuf0_5)
abbrev sc0 : Memref sig .tc .vmem S1024x128 .f32 := Memref.whole cc0_scratch0
abbrev sc1 : Memref sig .tc .vmem S1024x128 .f32 := Memref.whole cc0_scratch1
abbrev sc2 : Memref sig .tc .vmem S1x128 .f32 := Memref.whole cc0_scratch2
abbrev sc3 : Memref sig .tc .vmem S1x128 .f32 := Memref.whole cc0_scratch3

/-- What a buffer reads after a run of stores whose LAST one went through the whole-shape rectangle at zero offsets:
    that store's payload, whatever the earlier stores and the prior contents were. -/
theorem read_writes_whole_cons {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons.mpr (Or.inl rfl), View.mem_set_unit_zero h inb y⟩),
    View.canon_cons_unit_zero h]

/-- The zero offsets of a rank-two whole-shape rectangle, as the constant function. -/
theorem hz2 : (![0, 0] : Fin 2 → ℕ) = fun _ => 0 := by
  funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

end Cert.KernelIdeal.Hand

end
-- ==== Proof.IdealBodyA.lean ====
import proofs.«120329_j57647051047499_1_alg».proof.Proof.IdealSetup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at a grid point of case A (cond1 i, cond2 i, ¬cond3 i, ¬cond4 i), called on whole memrefs holding the four input blocks, the
    two output staging buffers and the four scratch accumulators: it runs to the end without a fault and leaves the
    inputs as they were and each written buffer at the payload of its last whole-buffer store. -/
theorem runA (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole)
    (hc1 : cond1 i) (hc2 : cond2 i) (hc3 : ¬cond3 i) (hc4 : ¬cond4 i)
    (x0 x1 : Vec F S1x1024x64 .bf16) (x2 x3 : Vec F S1x1024x128 .bf16) (y4 y5 : Vec F S1x1x128 .f32)
    (a0 a1 : Vec F S1024x128 .f32) (a2 a3 : Vec F S1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare y4 ∗ owns (c : Thread nD τ) arg8 fullShare y5
        ∗ owns (c : Thread nD τ) arg9 fullShare a0 ∗ owns (c : Thread nD τ) arg10 fullShare a1 ∗ owns (c : Thread nD τ) arg11 fullShare a2 ∗ owns (c : Thread nD τ) arg12 fullShare a3
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (y4) ∗ owns (c : Thread nD τ) arg8 fullShare (y5)
            ∗ owns (c : Thread nD τ) arg9 fullShare (k0_pay1 (k0_pay15 x0 x1 x3) k0_pay8) ∗ owns (c : Thread nD τ) arg10 fullShare (k0_pay2 (k0_pay16 x0 x1 x3) k0_pay9)
            ∗ owns (c : Thread nD τ) arg11 fullShare (k0_pay10) ∗ owns (c : Thread nD τ) arg12 fullShare (k0_pay11)) -∗ K ⟨⟩))
      ⊢ wp frame (wpE (defs₀ (F := F)) Variants.none c none) E (cc0__mic_kernel i arg3 harg3 arg4 harg4 arg5 harg5 arg6 harg6 arg7 harg7 arg8 harg8 arg9 harg9 arg10 harg10 arg11 harg11 arg12 harg12) K := by
  simp only [cc0__mic_kernel_eq_skeleton]; unfold cc0__mic_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, G0⟩, ⟨%g1, %hg1, G1⟩, ⟨%g2, %hg2, G2⟩, ⟨%g3, %hg3, G3⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5
  obtain rfl := harg9.eq_unread hg0; obtain rfl := harg10.eq_unread hg1; obtain rfl := harg11.eq_unread hg2; obtain rfl := harg12.eq_unread hg3
  sl_exec (disch := first | exact hc1 | exact hc2 | exact hc3 | exact hc4)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    · ipureintro; exact harg7.read_unread _
    iexact H4
  isplitl [H5]
  · iexists _; isplitr
    · ipureintro; exact harg8.read_unread _
    iexact H5
  isplitl [G0]
  · iexists _; isplitr
    swap
    · iexact G0
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G1]
  · iexists _; isplitr
    swap
    · iexact G1
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G2]
  · iexists _; isplitr
    swap
    · iexact G2
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  iexists _; isplitr
  swap
  · iexact G3
  ipureintro
  sl_unfold_run_names
  rw [read_writes_whole_cons _ _ hz2]
  all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))

end Cert.KernelIdeal.Hand

end
-- ==== Proof.IdealBodyB.lean ====
import proofs.«120329_j57647051047499_1_alg».proof.Proof.IdealSetup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at a grid point of case B (cond1 i, ¬cond2 i, ¬cond3 i, ¬cond4 i), called on whole memrefs holding the four input blocks, the
    two output staging buffers and the four scratch accumulators: it runs to the end without a fault and leaves the
    inputs as they were and each written buffer at the payload of its last whole-buffer store. -/
theorem runB (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole)
    (hc1 : cond1 i) (hc2 : ¬cond2 i) (hc3 : ¬cond3 i) (hc4 : ¬cond4 i)
    (x0 x1 : Vec F S1x1024x64 .bf16) (x2 x3 : Vec F S1x1024x128 .bf16) (y4 y5 : Vec F S1x1x128 .f32)
    (a0 a1 : Vec F S1024x128 .f32) (a2 a3 : Vec F S1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare y4 ∗ owns (c : Thread nD τ) arg8 fullShare y5
        ∗ owns (c : Thread nD τ) arg9 fullShare a0 ∗ owns (c : Thread nD τ) arg10 fullShare a1 ∗ owns (c : Thread nD τ) arg11 fullShare a2 ∗ owns (c : Thread nD τ) arg12 fullShare a3
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (y4) ∗ owns (c : Thread nD τ) arg8 fullShare (y5)
            ∗ owns (c : Thread nD τ) arg9 fullShare (k0_pay1 (k0_pay15 x0 x1 x3) k0_pay8) ∗ owns (c : Thread nD τ) arg10 fullShare (k0_pay2 (k0_pay16 x0 x1 x3) k0_pay9)
            ∗ owns (c : Thread nD τ) arg11 fullShare (a2) ∗ owns (c : Thread nD τ) arg12 fullShare (a3)) -∗ K ⟨⟩))
      ⊢ wp frame (wpE (defs₀ (F := F)) Variants.none c none) E (cc0__mic_kernel i arg3 harg3 arg4 harg4 arg5 harg5 arg6 harg6 arg7 harg7 arg8 harg8 arg9 harg9 arg10 harg10 arg11 harg11 arg12 harg12) K := by
  simp only [cc0__mic_kernel_eq_skeleton]; unfold cc0__mic_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, G0⟩, ⟨%g1, %hg1, G1⟩, ⟨%g2, %hg2, G2⟩, ⟨%g3, %hg3, G3⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5
  obtain rfl := harg9.eq_unread hg0; obtain rfl := harg10.eq_unread hg1; obtain rfl := harg11.eq_unread hg2; obtain rfl := harg12.eq_unread hg3
  sl_exec (disch := first | exact hc1 | exact hc2 | exact hc3 | exact hc4)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    · ipureintro; exact harg7.read_unread _
    iexact H4
  isplitl [H5]
  · iexists _; isplitr
    · ipureintro; exact harg8.read_unread _
    iexact H5
  isplitl [G0]
  · iexists _; isplitr
    swap
    · iexact G0
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G1]
  · iexists _; isplitr
    swap
    · iexact G1
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G2]
  · iexists _; isplitr
    · ipureintro; exact harg11.read_unread _
    iexact G2
  iexists _; isplitr
  · ipureintro; exact harg12.read_unread _
  iexact G3

end Cert.KernelIdeal.Hand

end
-- ==== Proof.IdealBodyC.lean ====
import proofs.«120329_j57647051047499_1_alg».proof.Proof.IdealSetup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at a grid point of case C (¬cond1 i, ¬cond2 i, ¬cond3 i, ¬cond4 i), called on whole memrefs holding the four input blocks, the
    two output staging buffers and the four scratch accumulators: it runs to the end without a fault and leaves the
    inputs as they were and each written buffer at the payload of its last whole-buffer store. -/
theorem runC (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole)
    (hc1 : ¬cond1 i) (hc2 : ¬cond2 i) (hc3 : ¬cond3 i) (hc4 : ¬cond4 i)
    (x0 x1 : Vec F S1x1024x64 .bf16) (x2 x3 : Vec F S1x1024x128 .bf16) (y4 y5 : Vec F S1x1x128 .f32)
    (a0 a1 : Vec F S1024x128 .f32) (a2 a3 : Vec F S1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare y4 ∗ owns (c : Thread nD τ) arg8 fullShare y5
        ∗ owns (c : Thread nD τ) arg9 fullShare a0 ∗ owns (c : Thread nD τ) arg10 fullShare a1 ∗ owns (c : Thread nD τ) arg11 fullShare a2 ∗ owns (c : Thread nD τ) arg12 fullShare a3
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (y4) ∗ owns (c : Thread nD τ) arg8 fullShare (y5)
            ∗ owns (c : Thread nD τ) arg9 fullShare (k0_pay1 (k0_pay15 x0 x1 x3) a0) ∗ owns (c : Thread nD τ) arg10 fullShare (k0_pay2 (k0_pay16 x0 x1 x3) a1)
            ∗ owns (c : Thread nD τ) arg11 fullShare (a2) ∗ owns (c : Thread nD τ) arg12 fullShare (a3)) -∗ K ⟨⟩))
      ⊢ wp frame (wpE (defs₀ (F := F)) Variants.none c none) E (cc0__mic_kernel i arg3 harg3 arg4 harg4 arg5 harg5 arg6 harg6 arg7 harg7 arg8 harg8 arg9 harg9 arg10 harg10 arg11 harg11 arg12 harg12) K := by
  simp only [cc0__mic_kernel_eq_skeleton]; unfold cc0__mic_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, G0⟩, ⟨%g1, %hg1, G1⟩, ⟨%g2, %hg2, G2⟩, ⟨%g3, %hg3, G3⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5
  obtain rfl := harg9.eq_unread hg0; obtain rfl := harg10.eq_unread hg1; obtain rfl := harg11.eq_unread hg2; obtain rfl := harg12.eq_unread hg3
  sl_exec (disch := first | exact hc1 | exact hc2 | exact hc3 | exact hc4)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    · ipureintro; exact harg7.read_unread _
    iexact H4
  isplitl [H5]
  · iexists _; isplitr
    · ipureintro; exact harg8.read_unread _
    iexact H5
  isplitl [G0]
  · iexists _; isplitr
    swap
    · iexact G0
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G1]
  · iexists _; isplitr
    swap
    · iexact G1
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G2]
  · iexists _; isplitr
    · ipureintro; exact harg11.read_unread _
    iexact G2
  iexists _; isplitr
  · ipureintro; exact harg12.read_unread _
  iexact G3

end Cert.KernelIdeal.Hand

end
-- ==== Proof.IdealBodyD.lean ====
import proofs.«120329_j57647051047499_1_alg».proof.Proof.IdealSetup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at a grid point of case D (¬cond1 i, ¬cond2 i, cond3 i, ¬cond4 i), called on whole memrefs holding the four input blocks, the
    two output staging buffers and the four scratch accumulators: it runs to the end without a fault and leaves the
    inputs as they were and each written buffer at the payload of its last whole-buffer store. -/
theorem runD (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole)
    (hc1 : ¬cond1 i) (hc2 : ¬cond2 i) (hc3 : cond3 i) (hc4 : ¬cond4 i)
    (x0 x1 : Vec F S1x1024x64 .bf16) (x2 x3 : Vec F S1x1024x128 .bf16) (y4 y5 : Vec F S1x1x128 .f32)
    (a0 a1 : Vec F S1024x128 .f32) (a2 a3 : Vec F S1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare y4 ∗ owns (c : Thread nD τ) arg8 fullShare y5
        ∗ owns (c : Thread nD τ) arg9 fullShare a0 ∗ owns (c : Thread nD τ) arg10 fullShare a1 ∗ owns (c : Thread nD τ) arg11 fullShare a2 ∗ owns (c : Thread nD τ) arg12 fullShare a3
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (y4) ∗ owns (c : Thread nD τ) arg8 fullShare (y5)
            ∗ owns (c : Thread nD τ) arg9 fullShare (k0_pay1 (k0_pay15 x0 x1 x3) a0) ∗ owns (c : Thread nD τ) arg10 fullShare (k0_pay2 (k0_pay16 x0 x1 x3) a1)
            ∗ owns (c : Thread nD τ) arg11 fullShare (k0_pay4 (k0_pay12 x2) (k0_pay1 (k0_pay15 x0 x1 x3) a0) a2) ∗ owns (c : Thread nD τ) arg12 fullShare (k0_pay5 (k0_pay12 x2) (k0_pay2 (k0_pay16 x0 x1 x3) a1) a3)) -∗ K ⟨⟩))
      ⊢ wp frame (wpE (defs₀ (F := F)) Variants.none c none) E (cc0__mic_kernel i arg3 harg3 arg4 harg4 arg5 harg5 arg6 harg6 arg7 harg7 arg8 harg8 arg9 harg9 arg10 harg10 arg11 harg11 arg12 harg12) K := by
  simp only [cc0__mic_kernel_eq_skeleton]; unfold cc0__mic_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, G0⟩, ⟨%g1, %hg1, G1⟩, ⟨%g2, %hg2, G2⟩, ⟨%g3, %hg3, G3⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5
  obtain rfl := harg9.eq_unread hg0; obtain rfl := harg10.eq_unread hg1; obtain rfl := harg11.eq_unread hg2; obtain rfl := harg12.eq_unread hg3
  sl_exec (disch := first | exact hc1 | exact hc2 | exact hc3 | exact hc4)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    · ipureintro; exact harg7.read_unread _
    iexact H4
  isplitl [H5]
  · iexists _; isplitr
    · ipureintro; exact harg8.read_unread _
    iexact H5
  isplitl [G0]
  · iexists _; isplitr
    swap
    · iexact G0
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G1]
  · iexists _; isplitr
    swap
    · iexact G1
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G2]
  · iexists _; isplitr
    swap
    · iexact G2
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  iexists _; isplitr
  swap
  · iexact G3
  ipureintro
  sl_unfold_run_names
  rw [read_writes_whole_cons _ _ hz2]
  all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))

end Cert.KernelIdeal.Hand

end
-- ==== Proof.IdealBodyE.lean ====
import proofs.«120329_j57647051047499_1_alg».proof.Proof.IdealSetup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at a grid point of case E (¬cond1 i, ¬cond2 i, cond3 i, cond4 i), called on whole memrefs holding the four input blocks, the
    two output staging buffers and the four scratch accumulators: it runs to the end without a fault and leaves the
    inputs as they were and each written buffer at the payload of its last whole-buffer store. -/
theorem runE (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole)
    (hc1 : ¬cond1 i) (hc2 : ¬cond2 i) (hc3 : cond3 i) (hc4 : cond4 i)
    (x0 x1 : Vec F S1x1024x64 .bf16) (x2 x3 : Vec F S1x1024x128 .bf16) (y4 y5 : Vec F S1x1x128 .f32)
    (a0 a1 : Vec F S1024x128 .f32) (a2 a3 : Vec F S1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare y4 ∗ owns (c : Thread nD τ) arg8 fullShare y5
        ∗ owns (c : Thread nD τ) arg9 fullShare a0 ∗ owns (c : Thread nD τ) arg10 fullShare a1 ∗ owns (c : Thread nD τ) arg11 fullShare a2 ∗ owns (c : Thread nD τ) arg12 fullShare a3
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k0_pay6 (k0_pay4 (k0_pay12 x2) (k0_pay1 (k0_pay15 x0 x1 x3) a0) a2)) ∗ owns (c : Thread nD τ) arg8 fullShare (k0_pay7 (k0_pay5 (k0_pay12 x2) (k0_pay2 (k0_pay16 x0 x1 x3) a1) a3))
            ∗ owns (c : Thread nD τ) arg9 fullShare (k0_pay1 (k0_pay15 x0 x1 x3) a0) ∗ owns (c : Thread nD τ) arg10 fullShare (k0_pay2 (k0_pay16 x0 x1 x3) a1)
            ∗ owns (c : Thread nD τ) arg11 fullShare (k0_pay4 (k0_pay12 x2) (k0_pay1 (k0_pay15 x0 x1 x3) a0) a2) ∗ owns (c : Thread nD τ) arg12 fullShare (k0_pay5 (k0_pay12 x2) (k0_pay2 (k0_pay16 x0 x1 x3) a1) a3)) -∗ K ⟨⟩))
      ⊢ wp frame (wpE (defs₀ (F := F)) Variants.none c none) E (cc0__mic_kernel i arg3 harg3 arg4 harg4 arg5 harg5 arg6 harg6 arg7 harg7 arg8 harg8 arg9 harg9 arg10 harg10 arg11 harg11 arg12 harg12) K := by
  simp only [cc0__mic_kernel_eq_skeleton]; unfold cc0__mic_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, G0⟩, ⟨%g1, %hg1, G1⟩, ⟨%g2, %hg2, G2⟩, ⟨%g3, %hg3, G3⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5
  obtain rfl := harg9.eq_unread hg0; obtain rfl := harg10.eq_unread hg1; obtain rfl := harg11.eq_unread hg2; obtain rfl := harg12.eq_unread hg3
  sl_exec (disch := first | exact hc1 | exact hc2 | exact hc3 | exact hc4)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    swap
    · iexact H4
    ipureintro
    sl_unfold_run_names
    rw [read_writes_whole_cons _ _ hz3]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [H5]
  · iexists _; isplitr
    swap
    · iexact H5
    ipureintro
    sl_unfold_run_names
    rw [read_writes_whole_cons _ _ hz3]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G0]
  · iexists _; isplitr
    swap
    · iexact G0
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G1]
  · iexists _; isplitr
    swap
    · iexact G1
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  isplitl [G2]
  · iexists _; isplitr
    swap
    · iexact G2
    ipureintro
    sl_unfold_run_names
    rw [read_writes_whole_cons _ _ hz2]
    all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))
  iexists _; isplitr
  swap
  · iexact G3
  ipureintro
  sl_unfold_run_names
  rw [read_writes_whole_cons _ _ hz2]
  all_goals (first | rfl | ((simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x64) hz3, View.ld_unit_zero (S := S1x1024x128) hz3, View.ld_unit_zero (S := S1x1x128) hz3, View.ld_unit_zero (S := S1024x128) hz2, View.ld_unit_zero (S := S1x128) hz2, View.readCov_unit_zero (S := S1024x128) _ hz2, View.readCov_unit_zero (S := S1x128) _ hz2, View.readCov_unit_zero (S := S1x1x128) _ hz3]) <;> rfl))

end Cert.KernelIdeal.Hand

end
-- ==== Proof.IdealData.lean ====
import proofs.«120329_j57647051047499_1_alg».proof.Proof.IdealBodyA
import proofs.«120329_j57647051047499_1_alg».proof.Proof.IdealBodyB
import proofs.«120329_j57647051047499_1_alg».proof.Proof.IdealBodyC
import proofs.«120329_j57647051047499_1_alg».proof.Proof.IdealBodyD
import proofs.«120329_j57647051047499_1_alg».proof.Proof.IdealBodyE

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffers when the region is entered: after the host lines before it (the cast of the features, the
    transposed mask and its zero padding to 128 lanes). -/
abbrev V0 (c : Dev nD) : Valuation τ sig (Elt F) := StableHlo.after (List.flatten [hostOps0, hostOps0_1]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] ⟨hostOps0_sub, hostOps0_1_sub⟩
    ⟨hostOps0_fresh, hostOps0_1_fresh⟩ main_chain

theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- The lines after the region write only their own result buffers, none of which is an array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The accumulators, point by point -/

/-- The four scratch accumulators: the row sums of squares against the mask, the row sums of exponentials against the
    complement mask, and the two per-batch totals. -/
abbrev AccTy (F : FTy → Type) := Vec F S1024x128 .f32 × Vec F S1024x128 .f32 × Vec F S1x128 .f32 × Vec F S1x128 .f32

/-- One grid point's effect on the accumulators, by its position n in the grid: the row accumulators restart when a new
    row tile begins (n mod 4 = 0), the batch totals when a new batch begins (n mod 16 = 0), the column tile's two
    products are added, and when the row tile has met its last column tile (n mod 4 = 3) its masked column sums are
    added to the batch totals. -/
def stepN (n : ℕ) (x0 x1 : Vec F S1x1024x64 .bf16) (x2 x3 : Vec F S1x1024x128 .bf16) (a : AccTy F) : AccTy F :=
  (k0_pay1 (k0_pay15 x0 x1 x3) (if n % 4 = 0 then k0_pay8 else a.1),
   k0_pay2 (k0_pay16 x0 x1 x3) (if n % 4 = 0 then k0_pay9 else a.2.1),
   if n % 4 = 3 then k0_pay4 (k0_pay12 x2) (k0_pay1 (k0_pay15 x0 x1 x3) (if n % 4 = 0 then k0_pay8 else a.1)) (if n % 16 = 0 then k0_pay10 else a.2.2.1)
     else (if n % 16 = 0 then k0_pay10 else a.2.2.1),
   if n % 4 = 3 then k0_pay5 (k0_pay12 x2) (k0_pay2 (k0_pay16 x0 x1 x3) (if n % 4 = 0 then k0_pay9 else a.2.1)) (if n % 16 = 0 then k0_pay11 else a.2.2.2)
     else (if n % 16 = 0 then k0_pay11 else a.2.2.2))

theorem stepN_first (n : ℕ) (h : n % 16 = 0) (x0 x1 : Vec F S1x1024x64 .bf16) (x2 x3 : Vec F S1x1024x128 .bf16) (a a' : AccTy F) :
    stepN n x0 x1 x2 x3 a = stepN n x0 x1 x2 x3 a' := by
  have h4 : n % 4 = 0 := by omega
  unfold stepN; simp only [if_pos h, if_pos h4]

/-- Contents nobody names: what the scratch buffers hold before the first point. -/
def junkAcc : AccTy F := (k0_pay8, k0_pay9, k0_pay10, k0_pay11)

/-- What the four scratch accumulators hold after the body at position n. -/
def accAt (c : Dev nD) : (n : ℕ) → n < cfg0.N → AccTy F
  | 0, hn => stepN 0 (iblk m c 0 ⟨0, hn⟩) (iblk m c 1 ⟨0, hn⟩) (iblk m c 2 ⟨0, hn⟩) (iblk m c 3 ⟨0, hn⟩) junkAcc
  | n + 1, hn => stepN (n + 1) (iblk m c 0 ⟨n + 1, hn⟩) (iblk m c 1 ⟨n + 1, hn⟩) (iblk m c 2 ⟨n + 1, hn⟩) (iblk m c 3 ⟨n + 1, hn⟩)
      (accAt c n (Nat.lt_of_succ_lt hn))

/-- One step from whatever the scratch buffers held: at the first point the step does not look at it. -/
theorem accAt_step (c : Dev nD) (t : Fin cfg0.N) (a : AccTy F)
    (ha : ∀ h : t.val ≠ 0, a = accAt m c (t.val - 1) (Nat.lt_of_le_of_lt (Nat.sub_le _ _) t.isLt)) :
    accAt m c t.val t.isLt = stepN t.val (iblk m c 0 t) (iblk m c 1 t) (iblk m c 2 t) (iblk m c 3 t) a := by
  obtain ⟨n, hn⟩ := t
  cases n with
  | zero => exact stepN_first 0 rfl _ _ _ _ _ _
  | succ n => rw [ha (Nat.succ_ne_zero n)]; rfl

/-- The region invariant before position n: before the first point the scratch buffers at anything; afterwards at
    what the point before left. -/
def PhiS (c : Dev nD) : (n : ℕ) → n ≤ cfg0.N → sProp 𝕄
  | 0, _ => Pipeline.scopedRest spec0 c
  | n + 1, hn => iprop(owns (c : Thread nD τ) sc0 fullShare (accAt m c n hn).1 ∗ owns (c : Thread nD τ) sc1 fullShare (accAt m c n hn).2.1
      ∗ owns (c : Thread nD τ) sc2 fullShare (accAt m c n hn).2.2.1 ∗ owns (c : Thread nD τ) sc3 fullShare (accAt m c n hn).2.2.2)

theorem PhiS_succ (c : Dev nD) (n : ℕ) (hn : n < cfg0.N) :
    PhiS m c (n + 1) hn = iprop(owns (c : Thread nD τ) sc0 fullShare (accAt m c n hn).1 ∗ owns (c : Thread nD τ) sc1 fullShare (accAt m c n hn).2.1
      ∗ owns (c : Thread nD τ) sc2 fullShare (accAt m c n hn).2.2.1 ∗ owns (c : Thread nD τ) sc3 fullShare (accAt m c n hn).2.2.2) := rfl

/-- The scratch buffers owned at some contents. -/
theorem scoped_eq (c : Dev nD) :
    (Pipeline.scopedRest spec0 c : sProp 𝕄)
      = iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) := by
  rw [scopedRest0_eq]; simp only [sc0, sc1, sc2, sc3, owns_whole]; rfl

/-- Before any point the scratch buffers are owned at some contents, which after the first point are what the point
    before left. -/
theorem PhiS_open (c : Dev nD) (n : ℕ) (h : n ≤ cfg0.N) :
    PhiS m c n h ⊢ iprop(∃ a : AccTy F, ⌜∀ hz : n ≠ 0, a = accAt m c (n - 1) (by omega)⌝
      ∗ owns (c : Thread nD τ) sc0 fullShare a.1 ∗ owns (c : Thread nD τ) sc1 fullShare a.2.1
      ∗ owns (c : Thread nD τ) sc2 fullShare a.2.2.1 ∗ owns (c : Thread nD τ) sc3 fullShare a.2.2.2) := by
  cases n with
  | zero =>
    rw [show PhiS m c 0 h = Pipeline.scopedRest spec0 c from rfl, scoped_eq]
    iintro ⟨⟨%d0, H0⟩, ⟨%d1, H1⟩, ⟨%d2, H2⟩, ⟨%d3, H3⟩⟩
    iexists (d0, d1, d2, d3)
    isplitr; · ipureintro; intro hz; exact absurd rfl hz
    isplitl [H0]; · iexact H0
    isplitl [H1]; · iexact H1
    isplitl [H2]; · iexact H2
    iexact H3
  | succ n =>
    rw [PhiS_succ]
    iintro ⟨H0, H1, H2, H3⟩
    iexists accAt m c n h
    isplitr; · ipureintro; intro _; rfl
    isplitl [H0]; · iexact H0
    isplitl [H1]; · iexact H1
    isplitl [H2]; · iexact H2
    iexact H3

/-! ## The pipeline's proof data -/

/-- The proof data of the pipeline on core c: each input's buffer holds its block; the two output buffers hold, where
    the body stores into them (the last point of a batch), the two batch totals; the invariant is PhiS. The feature
    array and the mask array are each read through two windows, at half the share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay6 (accAt m c t.val t.isLt).2.2.1
    | ⟨5, _⟩ => k0_pay7 (accAt m c t.val t.isLt).2.2.2
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay6 (accAt m c t.val t.isLt).2.2.1 := by dsimp only [dats]
theorem after_5 (c : Dev nD) (t : Fin cfg0.N) : (dats m 0 c).after 5 t = k0_pay7 (accAt m c t.val t.isLt).2.2.2 := by dsimp only [dats]

/-- Input window 0's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's current staging buffer holds its block at every point, fetched there or not. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's current staging buffer holds its block at every point, fetched there or not. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input window 3's current staging buffer holds its block at every point, fetched there or not. -/
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

end Cert.KernelIdeal.Hand

end
-- ==== Proof.IdealObl.lean ====
import proofs.«120329_j57647051047499_1_alg».proof.Proof.IdealData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t: the invariant, nothing owed, each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- The body at any grid point. Its position in the grid decides which of the five cases it is in; the inputs' buffers
    hold their blocks, the scratch buffers what the point before left (anything at the first point, which clears
    them), and the case's run leaves the accumulators at this point's step. The output buffers are stored into only
    at the last point of a batch and are handed back untouched elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [Phi_castSucc]
  have hN : t.val < 64 := lt_of_lt_of_eq t.isLt (show cfg0.N = 64 from N_0)
  by_cases h4 : t.val % 16 = 15
  · have h1 : ¬t.val % 4 = 0 := by omega
    have h2 : ¬t.val % 16 = 0 := by omega
    have h3 : t.val % 4 = 3 := by omega
    rw [show (dats m 0 c).leavesExact 4 t = owns (c : Thread nD τ) (ms4 t) fullShare ((dats m 0 c).after 4 t) from by
      unfold Dat.leavesExact; rw [live4 t ((hcond4 t).mpr h4)], after_4]
    rw [show (dats m 0 c).leavesExact 5 t = owns (c : Thread nD τ) (ms5 t) fullShare ((dats m 0 c).after 5 t) from by
      unfold Dat.leavesExact; rw [live5 t ((hcond4 t).mpr h4)], after_5]
    iintro ⟨HΦ, Ho, ⟨%d0, H0⟩, ⟨%d1, H1⟩, ⟨%d2, H2⟩, ⟨%d3, H3⟩, ⟨%d4, H4⟩, ⟨%d5, H5⟩⟩
    ihave HΦ := (PhiS_open m c t.val (Nat.le_of_lt t.isLt)) $$ HΦ
    icases HΦ with ⟨%a, %ha, G0, G1, G2, G3⟩
    rw [accAt_step m c t a ha]
    simp only [stepN, if_neg h1, if_neg h2, if_pos h3]
    iapply (runE c (grid0.coords t) _ _ _ _ _ _ _ _ _ _ _ _ _ _ _ _ _ _ _ _ (fun h => h1 ((hcond1 t).mp h)) (fun h => h2 ((hcond2 t).mp h)) ((hcond3 t).mpr h3) ((hcond4 t).mpr h4) (iblk m c 0 t) (iblk m c 1 t) (iblk m c 2 t) (iblk m c 3 t) _ _ a.1 a.2.1 a.2.2.1 a.2.2.2 Set.univ _)
    isplitl [H0]; · iexact H0
    isplitl [H1]; · iexact H1
    isplitl [H2]; · iexact H2
    isplitl [H3]; · iexact H3
    isplitl [H4]; · iexact H4
    isplitl [H5]; · iexact H5
    isplitl [G0]; · iexact G0
    isplitl [G1]; · iexact G1
    isplitl [G2]; · iexact G2
    isplitl [G3]; · iexact G3
    iintro ⟨H0, H1, H2, H3, H4, H5, G0, G1, G2, G3⟩
    isplitl [G0 G1 G2 G3]
    · isplitl [G0]; · iexact G0
      isplitl [G1]; · iexact G1
      isplitl [G2]; · iexact G2
      iexact G3
    isplitl [Ho]; · iexact Ho
    isplitl [H0]; · iexact H0
    isplitl [H1]; · iexact H1
    isplitl [H2]; · iexact H2
    isplitl [H3]; · iexact H3
    isplitl [H4]; · iexact H4
    iexact H5

  by_cases h3 : t.val % 4 = 3
  · have h1 : ¬t.val % 4 = 0 := by omega
    have h2 : ¬t.val % 16 = 0 := by omega
    rw [Dat.leavesExact_idle (dats m 0 c) 4 t (idle4 t (fun h => h4 ((hcond4 t).mp h))) (noFlush4 t (fun h => h4 ((hcond4 t).mp h)))]
    rw [Dat.leavesExact_idle (dats m 0 c) 5 t (idle5 t (fun h => h4 ((hcond4 t).mp h))) (noFlush5 t (fun h => h4 ((hcond4 t).mp h)))]
    iintro ⟨HΦ, Ho, ⟨%d0, H0⟩, ⟨%d1, H1⟩, ⟨%d2, H2⟩, ⟨%d3, H3⟩, ⟨%d4, H4⟩, ⟨%d5, H5⟩⟩
    ihave HΦ := (PhiS_open m c t.val (Nat.le_of_lt t.isLt)) $$ HΦ
    icases HΦ with ⟨%a, %ha, G0, G1, G2, G3⟩
    rw [accAt_step m c t a ha]
    simp only [stepN, if_neg h1, if_neg h2, if_pos h3]
    iapply (runD c (grid0.coords t) _ _ _ _ _ _ _ _ _ _ _ _ _ _ _ _ _ _ _ _ (fun h => h1 ((hcond1 t).mp h)) (fun h => h2 ((hcond2 t).mp h)) ((hcond3 t).mpr h3) (fun h => h4 ((hcond4 t).mp h)) (iblk m c 0 t) (iblk m c 1 t) (iblk m c 2 t) (iblk m c 3 t) _ _ a.1 a.2.1 a.2.2.1 a.2.2.2 Set.univ _)
    isplitl [H0]; · iexact H0
    isplitl [H1]; · iexact H1
    isplitl [H2]; · iexact H2
    isplitl [H3]; · iexact H3
    isplitl [H4]; · iexact H4
    isplitl [H5]; · iexact H5
    isplitl [G0]; · iexact G0
    isplitl [G1]; · iexact G1
    isplitl [G2]; · iexact G2
    isplitl [G3]; · iexact G3
    iintro ⟨H0, H1, H2, H3, H4, H5, G0, G1, G2, G3⟩
    isplitl [G0 G1 G2 G3]
    · isplitl [G0]; · iexact G0
      isplitl [G1]; · iexact G1
      isplitl [G2]; · iexact G2
      iexact G3
    isplitl [Ho]; · iexact Ho
    isplitl [H0]; · iexact H0
    isplitl [H1]; · iexact H1
    isplitl [H2]; · iexact H2
    isplitl [H3]; · iexact H3
    isplitl [H4]; · iexists _; iexact H4
    iexists _; iexact H5

  by_cases h2 : t.val % 16 = 0
  · have h1 : t.val % 4 = 0 := by omega
    rw [Dat.leavesExact_idle (dats m 0 c) 4 t (idle4 t (fun h => h4 ((hcond4 t).mp h))) (noFlush4 t (fun h => h4 ((hcond4 t).mp h)))]
    rw [Dat.leavesExact_idle (dats m 0 c) 5 t (idle5 t (fun h => h4 ((hcond4 t).mp h))) (noFlush5 t (fun h => h4 ((hcond4 t).mp h)))]
    iintro ⟨HΦ, Ho, ⟨%d0, H0⟩, ⟨%d1, H1⟩, ⟨%d2, H2⟩, ⟨%d3, H3⟩, ⟨%d4, H4⟩, ⟨%d5, H5⟩⟩
    ihave HΦ := (PhiS_open m c t.val (Nat.le_of_lt t.isLt)) $$ HΦ
    icases HΦ with ⟨%a, %ha, G0, G1, G2, G3⟩
    rw [accAt_step m c t a ha]
    simp only [stepN, if_pos h1, if_pos h2, if_neg h3]
    iapply (runA c (grid0.coords t) _ _ _ _ _ _ _ _ _ _ _ _ _ _ _ _ _ _ _ _ ((hcond1 t).mpr h1) ((hcond2 t).mpr h2) (fun h => h3 ((hcond3 t).mp h)) (fun h => h4 ((hcond4 t).mp h)) (iblk m c 0 t) (iblk m c 1 t) (iblk m c 2 t) (iblk m c 3 t) _ _ a.1 a.2.1 a.2.2.1 a.2.2.2 Set.univ _)
    isplitl [H0]; · iexact H0
    isplitl [H1]; · iexact H1
    isplitl [H2]; · iexact H2
    isplitl [H3]; · iexact H3
    isplitl [H4]; · iexact H4
    isplitl [H5]; · iexact H5
    isplitl [G0]; · iexact G0
    isplitl [G1]; · iexact G1
    isplitl [G2]; · iexact G2
    isplitl [G3]; · iexact G3
    iintro ⟨H0, H1, H2, H3, H4, H5, G0, G1, G2, G3⟩
    isplitl [G0 G1 G2 G3]
    · isplitl [G0]; · iexact G0
      isplitl [G1]; · iexact G1
      isplitl [G2]; · iexact G2
      iexact G3
    isplitl [Ho]; · iexact Ho
    isplitl [H0]; · iexact H0
    isplitl [H1]; · iexact H1
    isplitl [H2]; · iexact H2
    isplitl [H3]; · iexact H3
    isplitl [H4]; · iexists _; iexact H4
    iexists _; iexact H5

  by_cases h1 : t.val % 4 = 0
  · skip
    rw [Dat.leavesExact_idle (dats m 0 c) 4 t (idle4 t (fun h => h4 ((hcond4 t).mp h))) (noFlush4 t (fun h => h4 ((hcond4 t).mp h)))]
    rw [Dat.leavesExact_idle (dats m 0 c) 5 t (idle5 t (fun h => h4 ((hcond4 t).mp h))) (noFlush5 t (fun h => h4 ((hcond4 t).mp h)))]
    iintro ⟨HΦ, Ho, ⟨%d0, H0⟩, ⟨%d1, H1⟩, ⟨%d2, H2⟩, ⟨%d3, H3⟩, ⟨%d4, H4⟩, ⟨%d5, H5⟩⟩
    ihave HΦ := (PhiS_open m c t.val (Nat.le_of_lt t.isLt)) $$ HΦ
    icases HΦ with ⟨%a, %ha, G0, G1, G2, G3⟩
    rw [accAt_step m c t a ha]
    simp only [stepN, if_pos h1, if_neg h2, if_neg h3]
    iapply (runB c (grid0.coords t) _ _ _ _ _ _ _ _ _ _ _ _ _ _ _ _ _ _ _ _ ((hcond1 t).mpr h1) (fun h => h2 ((hcond2 t).mp h)) (fun h => h3 ((hcond3 t).mp h)) (fun h => h4 ((hcond4 t).mp h)) (iblk m c 0 t) (iblk m c 1 t) (iblk m c 2 t) (iblk m c 3 t) _ _ a.1 a.2.1 a.2.2.1 a.2.2.2 Set.univ _)
    isplitl [H0]; · iexact H0
    isplitl [H1]; · iexact H1
    isplitl [H2]; · iexact H2
    isplitl [H3]; · iexact H3
    isplitl [H4]; · iexact H4
    isplitl [H5]; · iexact H5
    isplitl [G0]; · iexact G0
    isplitl [G1]; · iexact G1
    isplitl [G2]; · iexact G2
    isplitl [G3]; · iexact G3
    iintro ⟨H0, H1, H2, H3, H4, H5, G0, G1, G2, G3⟩
    isplitl [G0 G1 G2 G3]
    · isplitl [G0]; · iexact G0
      isplitl [G1]; · iexact G1
      isplitl [G2]; · iexact G2
      iexact G3
    isplitl [Ho]; · iexact Ho
    isplitl [H0]; · iexact H0
    isplitl [H1]; · iexact H1
    isplitl [H2]; · iexact H2
    isplitl [H3]; · iexact H3
    isplitl [H4]; · iexists _; iexact H4
    iexists _; iexact H5

  · skip
    rw [Dat.leavesExact_idle (dats m 0 c) 4 t (idle4 t (fun h => h4 ((hcond4 t).mp h))) (noFlush4 t (fun h => h4 ((hcond4 t).mp h)))]
    rw [Dat.leavesExact_idle (dats m 0 c) 5 t (idle5 t (fun h => h4 ((hcond4 t).mp h))) (noFlush5 t (fun h => h4 ((hcond4 t).mp h)))]
    iintro ⟨HΦ, Ho, ⟨%d0, H0⟩, ⟨%d1, H1⟩, ⟨%d2, H2⟩, ⟨%d3, H3⟩, ⟨%d4, H4⟩, ⟨%d5, H5⟩⟩
    ihave HΦ := (PhiS_open m c t.val (Nat.le_of_lt t.isLt)) $$ HΦ
    icases HΦ with ⟨%a, %ha, G0, G1, G2, G3⟩
    rw [accAt_step m c t a ha]
    simp only [stepN, if_neg h1, if_neg h2, if_neg h3]
    iapply (runC c (grid0.coords t) _ _ _ _ _ _ _ _ _ _ _ _ _ _ _ _ _ _ _ _ (fun h => h1 ((hcond1 t).mp h)) (fun h => h2 ((hcond2 t).mp h)) (fun h => h3 ((hcond3 t).mp h)) (fun h => h4 ((hcond4 t).mp h)) (iblk m c 0 t) (iblk m c 1 t) (iblk m c 2 t) (iblk m c 3 t) _ _ a.1 a.2.1 a.2.2.1 a.2.2.2 Set.univ _)
    isplitl [H0]; · iexact H0
    isplitl [H1]; · iexact H1
    isplitl [H2]; · iexact H2
    isplitl [H3]; · iexact H3
    isplitl [H4]; · iexact H4
    isplitl [H5]; · iexact H5
    isplitl [G0]; · iexact G0
    isplitl [G1]; · iexact G1
    isplitl [G2]; · iexact G2
    isplitl [G3]; · iexact G3
    iintro ⟨H0, H1, H2, H3, H4, H5, G0, G1, G2, G3⟩
    isplitl [G0 G1 G2 G3]
    · isplitl [G0]; · iexact G0
      isplitl [G1]; · iexact G1
      isplitl [G2]; · iexact G2
      iexact G3
    isplitl [Ho]; · iexact Ho
    isplitl [H0]; · iexact H0
    isplitl [H1]; · iexact H1
    isplitl [H2]; · iexact H2
    isplitl [H3]; · iexact H3
    isplitl [H4]; · iexists _; iexact H4
    iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealRun.lean ====
import proofs.«120329_j57647051047499_1_alg».proof.Proof.IdealObl
import proofs.«120329_j57647051047499_1_alg».proof.Proof.LibFrameSharedTail

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant at the region's two ends -/

theorem PhiS_pos (c : Dev nD) (n : ℕ) (h : n ≤ cfg0.N) (hz : n ≠ 0) :
    PhiS m c n h = iprop(owns (c : Thread nD τ) sc0 fullShare (accAt m c (n - 1) (by omega)).1 ∗ owns (c : Thread nD τ) sc1 fullShare (accAt m c (n - 1) (by omega)).2.1
      ∗ owns (c : Thread nD τ) sc2 fullShare (accAt m c (n - 1) (by omega)).2.2.1 ∗ owns (c : Thread nD τ) sc3 fullShare (accAt m c (n - 1) (by omega)).2.2.2) := by
  cases n with
  | zero => exact absurd rfl hz
  | succ n => rfl

/-- The launch hands the region the scratch buffers at anything: the invariant before the first point. -/
theorem hin (c : Dev nD) : (Pipeline.scopedRest spec0 c : sProp 𝕄) ⊢ (dats m 0 c).Φ 0 := by
  rw [show (dats m 0 c).Φ 0 = Pipeline.scopedRest spec0 c from rfl]
  try exact Idealize.SL.BI.Entails.refl _

/-- After the last point the scratch buffers are given back, their contents forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro ⟨H0, H1, H2, H3⟩
  isplitl [H0]; · iexists _; iexact H0
  isplitl [H1]; · iexists _; iexact H1
  isplitl [H2]; · iexists _; iexact H2
  iexists _; iexact H3

/-! ## The arrays at the region's two ends

The cast features (main_v0) are read through windows 0 and 1, the padded mask (main_v3) through windows 2 and 3: each
array is dealt to its two windows at half the share each, and collected again at the exit. -/

/-- The buffers as the region leaves them: the two result arrays at what the write-backs left, everything else as the
    region found it. -/
def Eexit (c : Dev nD) : Valuation τ sig (Elt F) :=
  Function.update (Function.update (V0 m c) (Proc.devRef .tc main_v4_0) ((dats m 0 c).arrAt 4 cfg0.N))
    (Proc.devRef .tc main_v4_1) ((dats m 0 c).arrAt 5 cfg0.N)

theorem Eexit_v4_1 (c : Dev nD) : Eexit m c (Proc.devRef .tc main_v4_1) = (dats m 0 c).arrAt 5 cfg0.N := by
  unfold Eexit; rw [Function.update_self]
theorem Eexit_v4_0 (c : Dev nD) : Eexit m c (Proc.devRef .tc main_v4_0) = (dats m 0 c).arrAt 4 cfg0.N := by
  unfold Eexit; rw [Function.update_of_ne (StableHlo.devRef_ne_of_ne (by decide)), Function.update_self]
theorem Eexit_of_ne (c : Dev nD) (b : Ref sig .tc) (h4 : b ≠ main_v4_0) (h5 : b ≠ main_v4_1) :
    Eexit m c (Proc.devRef .tc b) = V0 m c (Proc.devRef .tc b) := by
  unfold Eexit
  rw [Function.update_of_ne (StableHlo.devRef_ne_of_ne h5), Function.update_of_ne (StableHlo.devRef_ne_of_ne h4)]

theorem hE (c : Dev nD) : ∀ b ∈ Pipeline.restRefs sig spec0, Eexit m c (Proc.devRef .tc b) = V0 m c (Proc.devRef .tc b) := by
  intro b hb
  have hb' := (Finset.mem_sdiff.mp hb).2
  exact Eexit_of_ne m c b (fun h => hb' (Finset.mem_image.mpr ⟨4, Finset.mem_univ _, h.symm⟩))
    (fun h => hb' (Finset.mem_image.mpr ⟨5, Finset.mem_univ _, h.symm⟩))

/-- The distinct arrays behind the six windows, one by one. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_v0) ↦{fullShare} W main_v0) ∗ (((c.tc : Thread nD τ).loc main_v3) ↦{fullShare} W main_v3)
          ∗ (((c.tc : Thread nD τ).loc main_v4_0) ↦{fullShare} W main_v4_0) ∗ (((c.tc : Thread nD τ).loc main_v4_1) ↦{fullShare} W main_v4_1)) := by
  unfold Pipeline.arrBufs
  exact bigSep_eq_bigSepL_of_eq [main_v0, main_v3, main_v4_0, main_v4_1] (by decide) (by decide) _

/-- The windows' arrays at their shares, one by one. -/
theorem arrays_eq (c : Dev nD) (G : (w : Fin cfg0.W) → Buf (Elt F) ((cfg0.win w).arr.view.loc (c.tc : Thread nD τ))) :
    ((dats m 0 c).arrays G : sProp 𝕄)
      = iprop((((c.tc : Thread nD τ).loc main_v0) ↦{fullShare.left} G 0) ∗ (((c.tc : Thread nD τ).loc main_v0) ↦{fullShare.right} G 1)
          ∗ (((c.tc : Thread nD τ).loc main_v3) ↦{fullShare.left} G 2) ∗ (((c.tc : Thread nD τ).loc main_v3) ↦{fullShare.right} G 3)
          ∗ (((c.tc : Thread nD τ).loc main_v4_0) ↦{fullShare} G 4) ∗ (((c.tc : Thread nD τ).loc main_v4_1) ↦{fullShare} G 5)) := by
  unfold Dat.arrays
  rw [bigSep_W0]
  simp only [Memref.view_whole, View.set_whole]
  rfl

theorem halves {ℓ : Loc nD τ sig} (x : Buf (Elt F) ℓ) :
    (ℓ ↦{fullShare} x : sProp 𝕄) ⊣⊢ iprop((ℓ ↦{fullShare.left} x) ∗ (ℓ ↦{fullShare.right} x)) :=
  pointsTo_share (PosShare.mem_left_op_right _)

/-- At the region's entry each shared array is dealt to its two windows. -/
theorem hsplit (c : Dev nD) :
    (Pipeline.arrBufs spec0 c (fun b => V0 m c (Proc.devRef .tc b)) : sProp 𝕄) ⊢ (dats m 0 c).arrays ((dats m 0 c).arrAt · 0) := by
  rw [arrBufs_eq, arrays_eq]
  iintro ⟨Ha, Hb, Hc, Hd⟩
  ihave Ha := (halves (V0 m c (Proc.devRef .tc main_v0))).1 $$ Ha
  icases Ha with ⟨Ha1, Ha2⟩
  ihave Hb := (halves (V0 m c (Proc.devRef .tc main_v3))).1 $$ Hb
  icases Hb with ⟨Hb1, Hb2⟩
  isplitl [Ha1]; · iexact Ha1
  isplitl [Ha2]; · iexact Ha2
  isplitl [Hb1]; · iexact Hb1
  isplitl [Hb2]; · iexact Hb2
  isplitl [Hc]; · iexact Hc
  iexact Hd

theorem arrAt_in0 (c : Dev nD) (n : ℕ) : (dats m 0 c).arrAt 0 n = V0 m c (Proc.devRef .tc main_v0) := (dats m 0 c).arrAt_in 0 rfl n
theorem arrAt_in1 (c : Dev nD) (n : ℕ) : (dats m 0 c).arrAt 1 n = V0 m c (Proc.devRef .tc main_v0) := (dats m 0 c).arrAt_in 1 rfl n
theorem arrAt_in2 (c : Dev nD) (n : ℕ) : (dats m 0 c).arrAt 2 n = V0 m c (Proc.devRef .tc main_v3) := (dats m 0 c).arrAt_in 2 rfl n
theorem arrAt_in3 (c : Dev nD) (n : ℕ) : (dats m 0 c).arrAt 3 n = V0 m c (Proc.devRef .tc main_v3) := (dats m 0 c).arrAt_in 3 rfl n

/-- At its exit the halves are put together again (the inputs were never written), and the two results are whole. -/
theorem hjoin (c : Dev nD) :
    ((dats m 0 c).arrays ((dats m 0 c).arrAt · cfg0.N) : sProp 𝕄) ⊢ Pipeline.arrBufs spec0 c (fun b => Eexit m c (Proc.devRef .tc b)) := by
  rw [arrBufs_eq, arrays_eq]
  simp only [arrAt_in0, arrAt_in1, arrAt_in2, arrAt_in3, Eexit_v4_0, Eexit_v4_1,
    Eexit_of_ne m c main_v0 (by decide) (by decide), Eexit_of_ne m c main_v3 (by decide) (by decide)]
  iintro ⟨Ha1, Ha2, Hb1, Hb2, Hc, Hd⟩
  isplitl [Ha1 Ha2]
  · iapply (halves (V0 m c (Proc.devRef .tc main_v0))).2
    isplitl [Ha1]; · iexact Ha1
    iexact Ha2
  isplitl [Hb1 Hb2]
  · iapply (halves (V0 m c (Proc.devRef .tc main_v3))).2
    isplitl [Hb1]; · iexact Hb1
    iexact Hb2
  isplitl [Hc]; · iexact Hc
  iexact Hd

/-- And dealt once more after the lines that follow the region, which write none of them. -/
theorem hsplitN (c : Dev nD) :
    (Pipeline.arrBufs spec0 c (fun b => Eexit m c (Proc.devRef .tc b)) : sProp 𝕄) ⊢ (dats m 0 c).arrays ((dats m 0 c).arrAt · cfg0.N) := by
  rw [arrBufs_eq, arrays_eq]
  simp only [arrAt_in0, arrAt_in1, arrAt_in2, arrAt_in3, Eexit_v4_0, Eexit_v4_1,
    Eexit_of_ne m c main_v0 (by decide) (by decide), Eexit_of_ne m c main_v3 (by decide) (by decide)]
  iintro ⟨Ha, Hb, Hc, Hd⟩
  ihave Ha := (halves (V0 m c (Proc.devRef .tc main_v0))).1 $$ Ha
  icases Ha with ⟨Ha1, Ha2⟩
  ihave Hb := (halves (V0 m c (Proc.devRef .tc main_v3))).1 $$ Hb
  icases Hb with ⟨Hb1, Hb2⟩
  isplitl [Ha1]; · iexact Ha1
  isplitl [Ha2]; · iexact Ha2
  isplitl [Hb1]; · iexact Hb1
  isplitl [Hb2]; · iexact Hb2
  isplitl [Hc]; · iexact Hc
  iexact Hd

/-! ## The run -/

set_option backward.isDefEq.respectTransparency.types false in
/-- From any memory with zero counters every weakly fair execution of @main terminates without a fault; at the end the
    two result arrays hold what the write-backs left, the shared input arrays are unchanged, and every other unscoped
    buffer holds what the lines after the region compute from the exit contents. -/
theorem run_main : θ_run defs (onTc (τ := τ) (main (F := F))) (s₀ m ρ) (Pipeline.SharedPost cfgs (dats m) 0 (Eexit m) [hostOps1]) :=
  Pipeline.θ_run_frame_shared_around cfgs (dats m) (0 : Fin 1) cellOf_inj winFacts₀0 block_pos0 arr_whole0 stage_whole0 defs₀ Variants.none m ρ main
    (hbody := fun c => (body_obligation m c).loose) (howed := fun _ _ => rfl) (V₀ := V0 m) (opss := [hostOps1])
    (hsub := sfx_sub) (hfresh := sfx_fresh) (hkeep := sfx_keeps) (hmain := hmain m Variants.none)
    (hsplit := hsplit m) (E := Eexit m) (hE := hE m) (hjoin := hjoin m) (hsplitN := hsplitN m) (hin := hin m) (hout := hout m)

/-- A reference the lines after the region do not write, and that is no result of the region, ends as @main's first
    lines left it. -/
theorem tail_keeps (c : Dev nD) (b : Ref sig .tc) (h4 : b ≠ main_v4_0) (h5 : b ≠ main_v4_1)
    (hw : ∀ op ∈ (hostOps1 : List (HloOp τ sig (Elt F))), Proc.devRef .tc b ∉ op.writes) :
    StableHlo.after (List.flatten [hostOps1]) (Eexit m c) (Proc.devRef .tc b) = V0 m c (Proc.devRef .tc b) := by
  rw [show (List.flatten [hostOps1] : List (HloOp τ sig (Elt F))) = hostOps1 from by simp only [List.flatten_cons, List.flatten_nil, List.append_nil]]
  rw [StableHlo.after_of_forall_not_mem _ _ hw, Eexit_of_ne m c b h4 h5]

end Cert.KernelIdeal.Hand

end
-- ==== Proof.IdealFrame.lean ====
import proofs.«120329_j57647051047499_1_alg».proof.Proof.IdealRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem flat1 : (List.flatten [hostOps1] : List (HloOp τ sig (Elt F))) = hostOps1 := by
  simp only [List.flatten_cons, List.flatten_nil, List.append_nil]

/-- The host lines before the region leave the two arguments as they were. -/
theorem V0_arg0 (c : Dev nD) : V0 m c (Proc.devRef .tc main_arg0) = m ((c : Thread nD τ).loc main_arg0) := by
  dsimp only [V0]
  simp only [hostOps0, hostOps0_1, List.flatten_cons, List.flatten_nil, List.append_nil, List.cons_append, List.nil_append]
  after_results_simp
  first | done | rfl
theorem V0_arg1 (c : Dev nD) : V0 m c (Proc.devRef .tc main_arg1) = m ((c : Thread nD τ).loc main_arg1) := by
  dsimp only [V0]
  simp only [hostOps0, hostOps0_1, List.flatten_cons, List.flatten_nil, List.append_nil, List.cons_append, List.nil_append]
  after_results_simp
  first | done | rfl

/-- Neither do the lines after it. -/
theorem kept_arg0 (c : Dev nD) :
    StableHlo.after (List.flatten [hostOps1]) (Eexit m c) (Proc.devRef .tc main_arg0) = m ((c : Thread nD τ).loc main_arg0) := by
  rw [flat1]
  dsimp only [hostOps1]
  after_results_simp
  rw [Eexit_of_ne m c main_arg0 (by decide) (by decide)]
  exact V0_arg0 m c
theorem kept_arg1 (c : Dev nD) :
    StableHlo.after (List.flatten [hostOps1]) (Eexit m c) (Proc.devRef .tc main_arg1) = m ((c : Thread nD τ).loc main_arg1) := by
  rw [flat1]
  dsimp only [hostOps1]
  after_results_simp
  rw [Eexit_of_ne m c main_arg1 (by decide) (by decide)]
  exact V0_arg1 m c

theorem mem_rest_arg0 : main_arg0 ∈ Pipeline.restRefs sig spec0 :=
  Pipeline.mem_restRefs_of main_arg0 rfl (by decide)
theorem mem_rest_arg1 : main_arg1 ∈ Pipeline.restRefs sig spec0 :=
  Pipeline.mem_restRefs_of main_arg1 rfl (by decide)
theorem mem_rest_v29 : main_v29 ∈ Pipeline.restRefs sig spec0 :=
  Pipeline.mem_restRefs_of main_v29 rfl (by decide)

/-- The frame: every weakly fair execution of @main terminates without a fault and leaves the two arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).2 main_arg0 mem_rest_arg0).trans (kept_arg0 m c),
      ((h c).2 main_arg1 mem_rest_arg1).trans (kept_arg1 m c)⟩) (run_main m ρ)

end Cert.KernelIdeal.Hand

end
-- ==== Proof.IdealBlocks.lean ====
/-
  The two arrays the region reads, at the extended reals, and each window's block at a grid point read at an index.
  The features are the argument itself (a change of float format is the identity); the mask array holds, at
  (b, r, i) with i < 32, the label bit of instance i at position r of batch b as 0 or 1 (lanes 32 to 127 are padding).
  Point t of the grid is batch t / 16, row tile (t / 4) mod 4, column tile t mod 4; windows 0 and 2 stage the row
  tile's 1024 rows, windows 1 and 3 the column tile's.
-/
import proofs.«120329_j57647051047499_1_alg».proof.Proof.IdealData
import Idealize.ShloMosaic.Lib.ValueLayout
import Idealize.ShloMosaic.Lib.KernelVsHost
import Idealize.ShloMosaic.Lib.StableHlo.Run

set_option maxRecDepth 16384

noncomputable section

open scoped BigOperators

namespace Cert.KernelIdeal.HandV

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-! ## The arrays -/

theorem V_v0 (c : Dev nD) :
    (V m c main_v0 : S4x4096x64.Idx → EReal) = (m ((c : Thread nD τ).loc main_arg0) : S4x4096x64.Idx → EReal) := by
  dsimp only [V, V0]
  simp only [hostOps0, hostOps0_1, List.flatten_cons, List.flatten_nil, List.append_nil, List.cons_append, List.nil_append]
  after_results
  rfl

theorem V_v3 (c : Dev nD) :
    (V m c main_v3 : S4x4096x128.Idx → EReal)
      = pad S4x4096x128 ![0, 0, 0] ![0, 0, 96] ![0, 0, 0]
          (uitofp (F := Ideal) .bf16 (transpose S4x4096x32 [0, 2, 1] (m ((c : Thread nD τ).loc main_arg1) : S4x32x4096.Idx → BitVec 1) transposes_S4x32x4096_S4x4096x32_0_2_1))
          (sitofp (F := Ideal) .bf16 (constantI S_ 32 0#32)) pads_S4x4096x32_S4x4096x128_000_000_0960 h_S_ := by
  dsimp only [V, V0]
  simp only [hostOps0, hostOps0_1, List.flatten_cons, List.flatten_nil, List.append_nil, List.cons_append, List.nil_append]
  after_results
  rfl

/-- The mask array at a real lane: the label bit, as 0 or 1. -/
theorem mask_apply (c : Dev nD) (b : Fin 4) (r : Fin 4096) (i : Fin 32) :
    (V m c main_v3 : S4x4096x128.Idx → EReal) (ix3 b r ⟨i.val, by omega⟩)
      = ((((m ((c : Thread nD τ).loc main_arg1) : S4x32x4096.Idx → BitVec 1) (ix3 b i r)).toNat : ℝ) : EReal) := by
  rw [V_v3]
  refine (pad_apply_of_inside _ _ _ _ _ _ _ _ (ix3 b r i) (fun a => ?_)).trans ?_
  · match a with
    | ⟨0, _⟩ => show b.val = 0 + b.val * (0 + 1); omega
    | ⟨1, _⟩ => show r.val = 0 + r.val * (0 + 1); omega
    | ⟨2, _⟩ => show i.val = 0 + i.val * (0 + 1); omega
  · show FloatOps.uitofp (F := Ideal) .bf16 (transpose S4x4096x32 [0, 2, 1] _ _ (ix3 b r i)) = _
    rw [transpose_ix3_021_apply]
    rfl

/-! ## The grid point's coordinates -/

theorem N64 : cfg0.N = 64 := N_0

/-- Position n of the grid is batch n / 16, row tile (n / 4) mod 4, column tile n mod 4. -/
def tileB (n : ℕ) : Fin 4 := ⟨n / 16 % 4, Nat.mod_lt _ (by decide)⟩
def tileP (n : ℕ) : Fin 4 := ⟨n / 4 % 4, Nat.mod_lt _ (by decide)⟩
def tileN (n : ℕ) : Fin 4 := ⟨n % 4, Nat.mod_lt _ (by decide)⟩
abbrev batchOf (t : Fin cfg0.N) : Fin 4 := tileB t.val
abbrev piOf (t : Fin cfg0.N) : Fin 4 := tileP t.val
abbrev niOf (t : Fin cfg0.N) : Fin 4 := tileN t.val
/-- Row p of tile J of the 4096 positions. -/
def rowAt (J : Fin 4) (p : Fin 1024) : Fin 4096 := ⟨1024 * J.val + p.val, by have := J.isLt; have := p.isLt; omega⟩

theorem idx0 : ∀ t : Fin cfg0.N, (cfg0.win 0).index t 0 = t.val / 16 ∧ (cfg0.win 0).index t 1 = t.val / 4 % 4 ∧ (cfg0.win 0).index t 2 = 0 :=
  (by decide +kernel : ∀ t : Fin grid0.N, win0_0.index t 0 = t.val / 16 ∧ win0_0.index t 1 = t.val / 4 % 4 ∧ win0_0.index t 2 = 0)
theorem idx1 : ∀ t : Fin cfg0.N, (cfg0.win 1).index t 0 = t.val / 16 ∧ (cfg0.win 1).index t 1 = t.val % 4 ∧ (cfg0.win 1).index t 2 = 0 :=
  (by decide +kernel : ∀ t : Fin grid0.N, win0_1.index t 0 = t.val / 16 ∧ win0_1.index t 1 = t.val % 4 ∧ win0_1.index t 2 = 0)
theorem idx2 : ∀ t : Fin cfg0.N, (cfg0.win 2).index t 0 = t.val / 16 ∧ (cfg0.win 2).index t 1 = t.val / 4 % 4 ∧ (cfg0.win 2).index t 2 = 0 :=
  (by decide +kernel : ∀ t : Fin grid0.N, win0_2.index t 0 = t.val / 16 ∧ win0_2.index t 1 = t.val / 4 % 4 ∧ win0_2.index t 2 = 0)
theorem idx3 : ∀ t : Fin cfg0.N, (cfg0.win 3).index t 0 = t.val / 16 ∧ (cfg0.win 3).index t 1 = t.val % 4 ∧ (cfg0.win 3).index t 2 = 0 :=
  (by decide +kernel : ∀ t : Fin grid0.N, win0_3.index t 0 = t.val / 16 ∧ win0_3.index t 1 = t.val % 4 ∧ win0_3.index t 2 = 0)
theorem idx4 : ∀ t : Fin cfg0.N, (cfg0.win 4).index t 0 = t.val / 16 ∧ (cfg0.win 4).index t 1 = 0 ∧ (cfg0.win 4).index t 2 = 0 :=
  (by decide +kernel : ∀ t : Fin grid0.N, win0_4.index t 0 = t.val / 16 ∧ win0_4.index t 1 = 0 ∧ win0_4.index t 2 = 0)
theorem idx5 : ∀ t : Fin cfg0.N, (cfg0.win 5).index t 0 = t.val / 16 ∧ (cfg0.win 5).index t 1 = 0 ∧ (cfg0.win 5).index t 2 = 0 :=
  (by decide +kernel : ∀ t : Fin grid0.N, win0_5.index t 0 = t.val / 16 ∧ win0_5.index t 1 = 0 ∧ win0_5.index t 2 = 0)

/-! ## The input blocks read at an index -/

theorem iblk0_apply (c : Dev nD) (t : Fin cfg0.N) (p : Fin 1024) (d : Fin 64) :
    (iblk m c 0 t : S1x1024x64.Idx → EReal) (ix3 0 p d) = (V m c main_v0 : S4x4096x64.Idx → EReal) (ix3 (batchOf t) (rowAt (piOf t) p) d) := by
  show (V m c main_v0 : S4x4096x64.Idx → EReal) (((cfg0.win 0).blk t).view.emb (ix3 0 p d)) = _
  refine congrArg _ (funext fun a => Fin.ext ?_)
  have hi := idx0 t
  match a with
  | ⟨0, _⟩ => show (cfg0.win 0).index t 0 * 1 + 1 * (0 : Fin 1).val = t.val / 16 % 4; rw [hi.1]; have := t.isLt; have := N64; omega
  | ⟨1, _⟩ => show (cfg0.win 0).index t 1 * 1024 + 1 * p.val = 1024 * (t.val / 4 % 4) + p.val; rw [hi.2.1]; omega
  | ⟨2, _⟩ => show (cfg0.win 0).index t 2 * 64 + 1 * d.val = d.val; rw [hi.2.2]; omega

theorem iblk1_apply (c : Dev nD) (t : Fin cfg0.N) (n : Fin 1024) (d : Fin 64) :
    (iblk m c 1 t : S1x1024x64.Idx → EReal) (ix3 0 n d) = (V m c main_v0 : S4x4096x64.Idx → EReal) (ix3 (batchOf t) (rowAt (niOf t) n) d) := by
  show (V m c main_v0 : S4x4096x64.Idx → EReal) (((cfg0.win 1).blk t).view.emb (ix3 0 n d)) = _
  refine congrArg _ (funext fun a => Fin.ext ?_)
  have hi := idx1 t
  match a with
  | ⟨0, _⟩ => show (cfg0.win 1).index t 0 * 1 + 1 * (0 : Fin 1).val = t.val / 16 % 4; rw [hi.1]; have := t.isLt; have := N64; omega
  | ⟨1, _⟩ => show (cfg0.win 1).index t 1 * 1024 + 1 * n.val = 1024 * (t.val % 4) + n.val; rw [hi.2.1]; omega
  | ⟨2, _⟩ => show (cfg0.win 1).index t 2 * 64 + 1 * d.val = d.val; rw [hi.2.2]; omega

theorem iblk2_apply (c : Dev nD) (t : Fin cfg0.N) (p : Fin 1024) (i : Fin 128) :
    (iblk m c 2 t : S1x1024x128.Idx → EReal) (ix3 0 p i) = (V m c main_v3 : S4x4096x128.Idx → EReal) (ix3 (batchOf t) (rowAt (piOf t) p) i) := by
  show (V m c main_v3 : S4x4096x128.Idx → EReal) (((cfg0.win 2).blk t).view.emb (ix3 0 p i)) = _
  refine congrArg _ (funext fun a => Fin.ext ?_)
  have hi := idx2 t
  match a with
  | ⟨0, _⟩ => show (cfg0.win 2).index t 0 * 1 + 1 * (0 : Fin 1).val = t.val / 16 % 4; rw [hi.1]; have := t.isLt; have := N64; omega
  | ⟨1, _⟩ => show (cfg0.win 2).index t 1 * 1024 + 1 * p.val = 1024 * (t.val / 4 % 4) + p.val; rw [hi.2.1]; omega
  | ⟨2, _⟩ => show (cfg0.win 2).index t 2 * 128 + 1 * i.val = i.val; rw [hi.2.2]; omega

theorem iblk3_apply (c : Dev nD) (t : Fin cfg0.N) (n : Fin 1024) (i : Fin 128) :
    (iblk m c 3 t : S1x1024x128.Idx → EReal) (ix3 0 n i) = (V m c main_v3 : S4x4096x128.Idx → EReal) (ix3 (batchOf t) (rowAt (niOf t) n) i) := by
  show (V m c main_v3 : S4x4096x128.Idx → EReal) (((cfg0.win 3).blk t).view.emb (ix3 0 n i)) = _
  refine congrArg _ (funext fun a => Fin.ext ?_)
  have hi := idx3 t
  match a with
  | ⟨0, _⟩ => show (cfg0.win 3).index t 0 * 1 + 1 * (0 : Fin 1).val = t.val / 16 % 4; rw [hi.1]; have := t.isLt; have := N64; omega
  | ⟨1, _⟩ => show (cfg0.win 3).index t 1 * 1024 + 1 * n.val = 1024 * (t.val % 4) + n.val; rw [hi.2.1]; omega
  | ⟨2, _⟩ => show (cfg0.win 3).index t 2 * 128 + 1 * i.val = i.val; rw [hi.2.2]; omega

end Cert.KernelIdeal.HandV

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibRowReduce.lean ====
/-
  Reductions down the rows of an `[m, N]` array, read at a column.

  A kernel that keeps the batch on the lanes reduces over the few rows of an `[m, N]` value (axis 0), obtaining a vector of
  length `N`, and views it as the one row of a `[1, N]` array (a sum or a maximum taken with the axis kept).  At the extended
  reals the entry of that row at column `q` is the sum, or the fold of `max` from the accumulator's value, over the `m` entries
  of column `q`.  General in both extents.
-/
import Idealize.ShloMosaic.PureOps.Ideal.Laws
import Idealize.ShloMosaic.Lib.ValueIdx
import Idealize.ShloMosaic.Lib.ValueLayout

noncomputable section

open scoped BigOperators

namespace LibRowReduce

open Idealize.ShloMosaic Idealize.ShloMosaic.ValueIdx

variable {m N : Nat}

/-- The reduced index `q` with row `k` put back is `(k, q)`. -/
theorem lift_rows (h : (⟨2, ![m, N]⟩ : Shape).Reduces [0] (⟨1, ![N]⟩ : Shape)) (q : Fin N)
    (k : Fin ((⟨2, ![m, N]⟩ : Shape).size 0)) : h.lift (ix1 q) k = ix2 (⟨k.val, k.isLt⟩ : Fin m) q := by
  funext c; apply Fin.ext
  fin_cases c <;> rfl

/-- The sum down the rows, kept as one row: at column `q` it is the sum of column `q`'s entries. -/
theorem sumRows_apply (V : FVec Ideal ⟨2, ![m, N]⟩ .f32) (h : (⟨2, ![m, N]⟩ : Shape).Reduces [0] (⟨1, ![N]⟩ : Shape))
    (hφ : FKind.Formats .f32) (hacc : (0x00000000#32 : BitVec 32) = 0x00000000#32)
    (hs : (⟨1, ![N]⟩ : Shape).ShapeCasts ⟨2, ![1, N]⟩) (u : Fin 1) (q : Fin N) :
    shapeCast ⟨2, ![1, N]⟩ (multiReduction .add [0] ⟨1, ![N]⟩ V 0x00000000#32 h hφ hacc) hs (ix2 u q)
      = ∑ a : Fin m, V (ix2 a q) := by
  refine (shapeCast_a_1a_apply _ hs u q).trans ?_
  refine (Ideal.multiReduction_add_single V 0x00000000#32 h hφ hacc (ix1 q)).trans ?_
  exact Finset.sum_congr rfl fun k _ => congrArg V (lift_rows h q k)

/-- The maximum down the rows from the accumulator's value, kept as one row: at column `q` it is the fold of `max` over
    column `q`'s entries. -/
theorem maxRows_apply (V : FVec Ideal ⟨2, ![m, N]⟩ .f32) (acc : BitVec 32) (h : (⟨2, ![m, N]⟩ : Shape).Reduces [0] (⟨1, ![N]⟩ : Shape))
    (hφ : FKind.Formats .f32) (hacc' : acc = FKind.maximumf.neutral .f32 hφ)
    (hs : (⟨1, ![N]⟩ : Shape).ShapeCasts ⟨2, ![1, N]⟩) (u : Fin 1) (q : Fin N) :
    shapeCast ⟨2, ![1, N]⟩ (multiReduction .maximumf [0] ⟨1, ![N]⟩ V acc h hφ hacc') hs (ix2 u q)
      = (Finset.univ : Finset (Fin m)).fold max (Ideal.ofBits .f32 acc) (fun a => V (ix2 a q)) := by
  refine (shapeCast_a_1a_apply _ hs u q).trans ?_
  refine (Ideal.multiReduction_maximumf_single V acc h hφ hacc' (ix1 q)).trans ?_
  exact congrArg (fun f => Finset.fold max (Ideal.ofBits .f32 acc) f (Finset.univ : Finset (Fin m)))
    (funext fun k => congrArg V (lift_rows h q k))

end LibRowReduce

end
-- ==== Proof.IdealPay.lean ====
/-
  The body's arithmetic at the extended reals, read at an index. One grid point takes a tile of 1024 rows p and a
  tile of 1024 columns n of one batch: sim[p, n] is the inner product of feature rows p and n; the point adds to the
  row accumulators the sums over the column tile of (sim - 1)² against the mask column, and of exp(sim / 1) against
  one minus the mask column; a row tile's last point adds to the batch totals the sums over its rows of the row
  accumulator (or of log(max(accumulator, 1e-30))) against the mask.
-/
import proofs.«120329_j57647051047499_1_alg».proof.Proof.Gen.KernelIdeal.Skeleton
import proofs.«120329_j57647051047499_1_alg».proof.Proof.LibMatmulNN
import proofs.«120329_j57647051047499_1_alg».proof.Proof.LibRowReduce
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HandV

open Idealize.ShloMosaic Idealize.ShloMosaic.ValueIdx Cert.KernelIdeal Cert.KernelIdeal.Gen

/-- The literal 1.0 and the literal 1e-30 of the programs, as extended reals. -/
abbrev one32 : EReal := Ideal.ofBits .f32 0x3F800000#32
abbrev eps32 : EReal := Ideal.ofBits .f32 0x0DA24260#32
abbrev zero32 : EReal := Ideal.ofBits .f32 0x00000000#32

/-- The similarity of row p of one feature tile and row n of another. -/
def simT (x0 x1 : Vec Ideal S1x1024x64 .bf16) (p n : Fin 1024) : EReal := ∑ d : Fin 64, x0 (ix3 0 p d) * x1 (ix3 0 n d)

theorem pay14_apply (x0 x1 : Vec Ideal S1x1024x64 .bf16) (p n : Fin 1024) :
    k0_pay14 (F := Ideal) x0 x1 (ix2 p n) = simT x0 x1 p n := by
  unfold k0_pay14 simT
  refine (LibMatmulNN.matmul_zero_apply 1024 64 1024 none _ _ p n).trans ?_
  refine Finset.sum_congr rfl fun d _ => ?_
  refine congrArg₂ (· * ·) ?_ ?_
  · exact shapeCast_1ab_ab_apply _ _ p d
  · refine (transpose_ix2_apply _ _ d n).trans ?_
    exact shapeCast_1ab_ab_apply _ _ n d

/-- The point's share of the first row accumulator. -/
def tT (x0 x1 : Vec Ideal S1x1024x64 .bf16) (x3 : Vec Ideal S1x1024x128 .bf16) (p : Fin 1024) (i : Fin 128) : EReal :=
  ∑ n : Fin 1024, ((simT x0 x1 p n - one32) * (simT x0 x1 p n - one32)) * x3 (ix3 0 n i)

theorem pay15_apply (x0 x1 : Vec Ideal S1x1024x64 .bf16) (x3 : Vec Ideal S1x1024x128 .bf16) (p : Fin 1024) (i : Fin 128) :
    k0_pay15 (F := Ideal) x0 x1 x3 (ix2 p i) = tT x0 x1 x3 p i := by
  unfold k0_pay15 tT
  refine (LibMatmulNN.matmul_zero_apply 1024 1024 128 none _ _ p i).trans ?_
  refine Finset.sum_congr rfl fun n _ => ?_
  refine congrArg₂ (· * ·) ?_ ?_
  · show (k0_pay14 (F := Ideal) x0 x1 (ix2 p n) - _) * (k0_pay14 (F := Ideal) x0 x1 (ix2 p n) - _) = _
    rw [pay14_apply]; rfl
  · unfold k0_pay13; exact shapeCast_1ab_ab_apply _ _ n i

/-- The point's share of the second row accumulator. -/
def sT (x0 x1 : Vec Ideal S1x1024x64 .bf16) (x3 : Vec Ideal S1x1024x128 .bf16) (p : Fin 1024) (i : Fin 128) : EReal :=
  ∑ n : Fin 1024, Ideal.exp (Ideal.div (simT x0 x1 p n) one32) * (one32 - x3 (ix3 0 n i))

theorem pay16_apply (x0 x1 : Vec Ideal S1x1024x64 .bf16) (x3 : Vec Ideal S1x1024x128 .bf16) (p : Fin 1024) (i : Fin 128) :
    k0_pay16 (F := Ideal) x0 x1 x3 (ix2 p i) = sT x0 x1 x3 p i := by
  unfold k0_pay16 sT
  refine (LibMatmulNN.matmul_zero_apply 1024 1024 128 none _ _ p i).trans ?_
  refine Finset.sum_congr rfl fun n _ => ?_
  refine congrArg₂ (· * ·) ?_ ?_
  · show Ideal.exp (Ideal.div (k0_pay14 (F := Ideal) x0 x1 (ix2 p n)) _) = _
    rw [pay14_apply]; rfl
  · show _ - k0_pay13 (F := Ideal) x3 (ix2 n i) = _
    unfold k0_pay13
    refine congrArg (_ - ·) ?_
    exact shapeCast_1ab_ab_apply _ _ n i

theorem pay1_apply (T : FVec Ideal S1024x128 .f32) (a : Vec Ideal S1024x128 .f32) (j : S1024x128.Idx) :
    k0_pay1 (F := Ideal) T a j = a j + T j := by
  unfold k0_pay1; exact congrFun (shapeCast_self _ _) j
theorem pay2_apply (T : FVec Ideal S1024x128 .f32) (a : Vec Ideal S1024x128 .f32) (j : S1024x128.Idx) :
    k0_pay2 (F := Ideal) T a j = a j + T j := by
  unfold k0_pay2; exact congrFun (shapeCast_self _ _) j
theorem pay8_apply (j : S1024x128.Idx) : k0_pay8 (F := Ideal) j = zero32 := by
  unfold k0_pay8; exact congrFun (shapeCast_self _ _) j
theorem pay9_apply (j : S1024x128.Idx) : k0_pay9 (F := Ideal) j = zero32 := by
  unfold k0_pay9; exact congrFun (shapeCast_self _ _) j
theorem pay10_apply (j : S1x128.Idx) : k0_pay10 (F := Ideal) j = zero32 := by
  unfold k0_pay10; exact congrFun (shapeCast_self _ _) j
theorem pay11_apply (j : S1x128.Idx) : k0_pay11 (F := Ideal) j = zero32 := by
  unfold k0_pay11; exact congrFun (shapeCast_self _ _) j

theorem pay12_apply (x2 : Vec Ideal S1x1024x128 .bf16) (p : Fin 1024) (i : Fin 128) :
    k0_pay12 (F := Ideal) x2 (ix2 p i) = x2 (ix3 0 p i) := by
  unfold k0_pay12; exact shapeCast_1ab_ab_apply _ _ p i

/-- A finished row tile's share of the first batch total: its rows' accumulators against the mask, summed. -/
theorem pay4_apply (x2 : Vec Ideal S1x1024x128 .bf16) (b : Vec Ideal S1024x128 .f32) (l : Vec Ideal S1x128 .f32) (u : Fin 1) (i : Fin 128) :
    k0_pay4 (F := Ideal) (k0_pay12 (F := Ideal) x2) b l (ix2 u i) = l (ix2 u i) + ∑ p : Fin 1024, b (ix2 p i) * x2 (ix3 0 p i) := by
  unfold k0_pay4
  refine (congrFun (shapeCast_self _ _) (ix2 u i)).trans ?_
  show l (ix2 u i) + _ = _
  refine congrArg (l (ix2 u i) + ·) ?_
  refine (LibRowReduce.sumRows_apply _ _ _ _ _ u i).trans ?_
  refine Finset.sum_congr rfl fun p _ => ?_
  show b (ix2 p i) * k0_pay12 (F := Ideal) x2 (ix2 p i) = _
  rw [pay12_apply]

/-- A finished row tile's share of the second batch total. -/
theorem pay5_apply (x2 : Vec Ideal S1x1024x128 .bf16) (b : Vec Ideal S1024x128 .f32) (l : Vec Ideal S1x128 .f32) (u : Fin 1) (i : Fin 128) :
    k0_pay5 (F := Ideal) (k0_pay12 (F := Ideal) x2) b l (ix2 u i)
      = l (ix2 u i) + ∑ p : Fin 1024, Ideal.log (max (b (ix2 p i)) eps32) * x2 (ix3 0 p i) := by
  unfold k0_pay5
  refine (congrFun (shapeCast_self _ _) (ix2 u i)).trans ?_
  show l (ix2 u i) + _ = _
  refine congrArg (l (ix2 u i) + ·) ?_
  refine (LibRowReduce.sumRows_apply _ _ _ _ _ u i).trans ?_
  refine Finset.sum_congr rfl fun p _ => ?_
  show Ideal.log (max (b (ix2 p i)) _) * k0_pay12 (F := Ideal) x2 (ix2 p i) = _
  rw [pay12_apply]; rfl

theorem pay6_apply (l : Vec Ideal S1x128 .f32) (u v : Fin 1) (i : Fin 128) :
    k0_pay6 (F := Ideal) l (ix3 u v i) = l (ix2 v i) := by
  unfold k0_pay6; exact shapeCast_ab_1ab_apply _ _ u v i
theorem pay7_apply (l : Vec Ideal S1x128 .f32) (u v : Fin 1) (i : Fin 128) :
    k0_pay7 (F := Ideal) l (ix3 u v i) = l (ix2 v i) := by
  unfold k0_pay7; exact shapeCast_ab_1ab_apply _ _ u v i

end Cert.KernelIdeal.HandV

end
-- ==== Proof.IdealAcc.lean ====
/-
  The four accumulators in closed form at the extended reals. For batch b write sim[r, r'] for the inner product of
  feature rows r and r', sq = (sim - 1)², ex = exp(sim / 1), and K[r, i] for the mask. A row tile's accumulators,
  once its last column tile is done, hold for each of its rows r the full sums over all 4096 columns of sq[r, ·]·K[·, i]
  and of ex[r, ·]·(1 - K[·, i]); a batch's totals, once its last row tile is done, hold the sums over all 4096 rows of
  those row sums (or of the logarithm of the second, floored at 1e-30) against K[r, i].
-/
import proofs.«120329_j57647051047499_1_alg».proof.Proof.IdealBlocks
import proofs.«120329_j57647051047499_1_alg».proof.Proof.IdealPay

set_option maxRecDepth 16384

noncomputable section

open scoped BigOperators

namespace Cert.KernelIdeal.HandV

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

variable (c : Dev nD)

/-! ## The arrays and the quantities of one batch -/

abbrev Xf : S4x4096x64.Idx → EReal := V m c main_v0
abbrev Kf : S4x4096x128.Idx → EReal := V m c main_v3

def simG (b : Fin 4) (r r' : Fin 4096) : EReal := ∑ d : Fin 64, Xf m c (ix3 b r d) * Xf m c (ix3 b r' d)
def sqG (b : Fin 4) (r r' : Fin 4096) : EReal := (simG m c b r r' - one32) * (simG m c b r r' - one32)
def exG (b : Fin 4) (r r' : Fin 4096) : EReal := Ideal.exp (Ideal.div (simG m c b r r') one32)
/-- Column tile J's share of row r's two sums. -/
def tG (b J : Fin 4) (r : Fin 4096) (i : Fin 128) : EReal := ∑ n : Fin 1024, sqG m c b r (rowAt J n) * Kf m c (ix3 b (rowAt J n) i)
def sG (b J : Fin 4) (r : Fin 4096) (i : Fin 128) : EReal := ∑ n : Fin 1024, exG m c b r (rowAt J n) * (one32 - Kf m c (ix3 b (rowAt J n) i))

theorem tT_eq (t : Fin cfg0.N) (p : Fin 1024) (i : Fin 128) :
    tT (iblk m c 0 t) (iblk m c 1 t) (iblk m c 3 t) p i = tG m c (batchOf t) (niOf t) (rowAt (piOf t) p) i := by
  unfold tT tG sqG simT simG Xf Kf
  simp only [iblk0_apply, iblk1_apply, iblk3_apply]

theorem sT_eq (t : Fin cfg0.N) (p : Fin 1024) (i : Fin 128) :
    sT (iblk m c 0 t) (iblk m c 1 t) (iblk m c 3 t) p i = sG m c (batchOf t) (niOf t) (rowAt (piOf t) p) i := by
  unfold sT sG exG simT simG Xf Kf
  simp only [iblk0_apply, iblk1_apply, iblk3_apply]

/-! ## The accumulators, one step at a time -/

/-- The accumulators after position n (anything past the grid). -/
def accN (n : ℕ) : AccTy Ideal := if h : n < cfg0.N then accAt m c n h else junkAcc

theorem accN_of_lt (n : ℕ) (h : n < cfg0.N) : accN m c n = accAt m c n h := dif_pos h

/-- What the scratch buffers hold when point t begins. -/
def prevAcc (t : Fin cfg0.N) : AccTy Ideal := if t.val = 0 then junkAcc else accN m c (t.val - 1)

theorem accAt_prev (t : Fin cfg0.N) :
    accAt m c t.val t.isLt = stepN t.val (iblk m c 0 t) (iblk m c 1 t) (iblk m c 2 t) (iblk m c 3 t) (prevAcc m c t) :=
  accAt_step m c t _ (fun h => by
    unfold prevAcc; rw [if_neg h]; exact accN_of_lt m c _ _)

theorem prevAcc_pos (t : Fin cfg0.N) (h : t.val ≠ 0) : prevAcc m c t = accN m c (t.val - 1) := if_neg h

theorem acc1_first (t : Fin cfg0.N) (h : t.val % 4 = 0) (p : Fin 1024) (i : Fin 128) :
    (accAt m c t.val t.isLt).1 (ix2 p i) = zero32 + tG m c (batchOf t) (niOf t) (rowAt (piOf t) p) i := by
  rw [accAt_prev]; unfold stepN; dsimp only; rw [if_pos h, pay1_apply, pay8_apply, pay15_apply, tT_eq]

theorem acc1_next (t : Fin cfg0.N) (h : ¬t.val % 4 = 0) (p : Fin 1024) (i : Fin 128) :
    (accAt m c t.val t.isLt).1 (ix2 p i) = (accN m c (t.val - 1)).1 (ix2 p i) + tG m c (batchOf t) (niOf t) (rowAt (piOf t) p) i := by
  rw [accAt_prev]; unfold stepN; dsimp only; rw [if_neg h, pay1_apply, pay15_apply, tT_eq, prevAcc_pos m c t (by omega)]

theorem acc2_first (t : Fin cfg0.N) (h : t.val % 4 = 0) (p : Fin 1024) (i : Fin 128) :
    (accAt m c t.val t.isLt).2.1 (ix2 p i) = zero32 + sG m c (batchOf t) (niOf t) (rowAt (piOf t) p) i := by
  rw [accAt_prev]; unfold stepN; dsimp only; rw [if_pos h, pay2_apply, pay9_apply, pay16_apply, sT_eq]

theorem acc2_next (t : Fin cfg0.N) (h : ¬t.val % 4 = 0) (p : Fin 1024) (i : Fin 128) :
    (accAt m c t.val t.isLt).2.1 (ix2 p i) = (accN m c (t.val - 1)).2.1 (ix2 p i) + sG m c (batchOf t) (niOf t) (rowAt (piOf t) p) i := by
  rw [accAt_prev]; unfold stepN; dsimp only; rw [if_neg h, pay2_apply, pay16_apply, sT_eq, prevAcc_pos m c t (by omega)]

theorem acc3_reset (t : Fin cfg0.N) (h16 : t.val % 16 = 0) (u : Fin 1) (i : Fin 128) :
    (accAt m c t.val t.isLt).2.2.1 (ix2 u i) = zero32 := by
  have h3 : ¬t.val % 4 = 3 := by omega
  rw [accAt_prev]; unfold stepN; dsimp only; rw [if_neg h3, if_pos h16, pay10_apply]

theorem acc3_keep (t : Fin cfg0.N) (h3 : ¬t.val % 4 = 3) (h16 : ¬t.val % 16 = 0) :
    (accAt m c t.val t.isLt).2.2.1 = (accN m c (t.val - 1)).2.2.1 := by
  rw [accAt_prev]; unfold stepN; dsimp only; rw [if_neg h3, if_neg h16, prevAcc_pos m c t (by omega)]

theorem acc3_fold (t : Fin cfg0.N) (h3 : t.val % 4 = 3) (u : Fin 1) (i : Fin 128) :
    (accAt m c t.val t.isLt).2.2.1 (ix2 u i)
      = (accN m c (t.val - 1)).2.2.1 (ix2 u i) + ∑ p : Fin 1024, (accAt m c t.val t.isLt).1 (ix2 p i) * Kf m c (ix3 (batchOf t) (rowAt (piOf t) p) i) := by
  have h16 : ¬t.val % 16 = 0 := by omega
  have h4 : ¬t.val % 4 = 0 := by omega
  conv_lhs => rw [accAt_prev]; unfold stepN; dsimp only
  rw [if_pos h3, if_neg h16, if_neg h4, pay4_apply, prevAcc_pos m c t (by omega)]
  refine congrArg (_ + ·) (Finset.sum_congr rfl fun p _ => ?_)
  rw [iblk2_apply]
  refine congrArg (· * _) ?_
  conv_rhs => rw [accAt_prev]; unfold stepN; dsimp only
  rw [if_neg h4, prevAcc_pos m c t (by omega)]

theorem acc4_reset (t : Fin cfg0.N) (h16 : t.val % 16 = 0) (u : Fin 1) (i : Fin 128) :
    (accAt m c t.val t.isLt).2.2.2 (ix2 u i) = zero32 := by
  have h3 : ¬t.val % 4 = 3 := by omega
  rw [accAt_prev]; unfold stepN; dsimp only; rw [if_neg h3, if_pos h16, pay11_apply]

theorem acc4_keep (t : Fin cfg0.N) (h3 : ¬t.val % 4 = 3) (h16 : ¬t.val % 16 = 0) :
    (accAt m c t.val t.isLt).2.2.2 = (accN m c (t.val - 1)).2.2.2 := by
  rw [accAt_prev]; unfold stepN; dsimp only; rw [if_neg h3, if_neg h16, prevAcc_pos m c t (by omega)]

theorem acc4_fold (t : Fin cfg0.N) (h3 : t.val % 4 = 3) (u : Fin 1) (i : Fin 128) :
    (accAt m c t.val t.isLt).2.2.2 (ix2 u i)
      = (accN m c (t.val - 1)).2.2.2 (ix2 u i)
        + ∑ p : Fin 1024, Ideal.log (max ((accAt m c t.val t.isLt).2.1 (ix2 p i)) eps32) * Kf m c (ix3 (batchOf t) (rowAt (piOf t) p) i) := by
  have h16 : ¬t.val % 16 = 0 := by omega
  have h4 : ¬t.val % 4 = 0 := by omega
  conv_lhs => rw [accAt_prev]; unfold stepN; dsimp only
  rw [if_pos h3, if_neg h16, if_neg h4, pay5_apply, prevAcc_pos m c t (by omega)]
  refine congrArg (_ + ·) (Finset.sum_congr rfl fun p _ => ?_)
  rw [iblk2_apply]
  refine congrArg (fun z => Ideal.log (max z eps32) * _) ?_
  conv_rhs => rw [accAt_prev]; unfold stepN; dsimp only
  rw [if_neg h4, prevAcc_pos m c t (by omega)]

end Cert.KernelIdeal.HandV

end
-- ==== Proof.LibMaskedSums.lean ====
/-
  The laws of finite sums over the extended reals that join the kernel's arrangement to the reference's.

  A factor that is 0 or 1 may be moved into a finite sum whatever the summands are (infinite ones included): times 1
  changes nothing and times 0 makes both sides 0. With that, a sum over rows r of (sum over columns r' of
  sq[r, r']·M[r'])·M[r] is the double sum of sq[r, r']·M[r']·M[r], which after exchanging the two sums is the sum over
  columns of (sum over rows of M[r]·sq[r, r'])·M[r']. The four tiles of 1024 indices are the 4096 indices.
-/
import Mathlib.Data.EReal.Basic
import Mathlib.Data.EReal.Operations
import Mathlib.Data.EReal.Inv
import Mathlib.Algebra.BigOperators.Group.Finset.Basic
import Mathlib.Algebra.BigOperators.Fin
import Mathlib.Logic.Equiv.Fin.Basic

open scoped BigOperators

namespace LibMaskedSums

/-- A factor that is 0 or 1 distributes over any finite sum of extended reals. -/
theorem sum_mul_bit {ι : Type*} (s : Finset ι) (a : ι → EReal) (c : EReal) (hc : c = 0 ∨ c = 1) :
    (∑ j ∈ s, a j) * c = ∑ j ∈ s, a j * c := by
  rcases hc with rfl | rfl
  · simp only [mul_zero, Finset.sum_const_zero]
  · simp only [mul_one]

/-- Rows against columns: the masked double sum taken rows first is the one taken columns first. -/
theorem masked_swap {R : Type*} [Fintype R] (sq : R → R → EReal) (M : R → EReal) (hM : ∀ r, M r = 0 ∨ M r = 1) :
    ∑ r, (∑ r', sq r r' * M r') * M r = ∑ k, (∑ p, M p * sq p k) * M k := by
  have hL : ∀ r, (∑ r', sq r r' * M r') * M r = ∑ r', sq r r' * M r' * M r := fun r => sum_mul_bit _ _ _ (hM r)
  have hR : ∀ k, (∑ p, M p * sq p k) * M k = ∑ p, M p * sq p k * M k := fun k => sum_mul_bit _ _ _ (hM k)
  simp only [hL, hR]
  rw [Finset.sum_comm]
  refine Finset.sum_congr rfl fun k _ => Finset.sum_congr rfl fun p _ => ?_
  rw [mul_comm (sq p k) (M k), mul_comm (M p) (sq p k), mul_assoc, mul_comm (M k) (sq p k * M p), mul_assoc]

/-- Four tiles of 1024 indices, one after the other, are the 4096 indices. -/
theorem tile_sum {M : Type*} [AddCommMonoid M] (g : Fin 4 → Fin 1024 → Fin 4096) (hg : ∀ J p, (g J p).val = 1024 * J.val + p.val)
    (f : Fin 4096 → M) : ∑ J : Fin 4, ∑ p : Fin 1024, f (g J p) = ∑ r : Fin 4096, f r := by
  rw [← Fintype.sum_prod_type' (f := fun J p => f (g J p))]
  refine Fintype.sum_equiv (finProdFinEquiv (m := 4) (n := 1024)) _ _ fun x => ?_
  refine congrArg f (Fin.ext ?_)
  rw [hg]
  show 1024 * x.1.val + x.2.val = x.2.val + 1024 * x.1.val
  omega

end LibMaskedSums
-- ==== Proof.IdealTotals.lean ====
/-
  The accumulators at the points that matter. When a row tile meets its last column tile (position n with n mod 4 = 3)
  its two row accumulators hold, for each of its rows, the sums over all 4096 columns; when a batch meets its last
  point (n mod 16 = 15) its two totals hold the sums over all 4096 rows of the batch.
-/
import proofs.«120329_j57647051047499_1_alg».proof.Proof.IdealAcc
import proofs.«120329_j57647051047499_1_alg».proof.Proof.LibMaskedSums

set_option maxRecDepth 16384

noncomputable section

open scoped BigOperators

namespace Cert.KernelIdeal.HandV

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

variable (c : Dev nD)

/-- Row r's two sums over all columns. -/
def tFull (b : Fin 4) (r : Fin 4096) (i : Fin 128) : EReal := ∑ r' : Fin 4096, sqG m c b r r' * Kf m c (ix3 b r' i)
def sFull (b : Fin 4) (r : Fin 4096) (i : Fin 128) : EReal := ∑ r' : Fin 4096, exG m c b r r' * (one32 - Kf m c (ix3 b r' i))

theorem tG_sum (b : Fin 4) (r : Fin 4096) (i : Fin 128) : ∑ J : Fin 4, tG m c b J r i = tFull m c b r i :=
  LibMaskedSums.tile_sum rowAt (fun _ _ => rfl) (fun r' => sqG m c b r r' * Kf m c (ix3 b r' i))
theorem sG_sum (b : Fin 4) (r : Fin 4096) (i : Fin 128) : ∑ J : Fin 4, sG m c b J r i = sFull m c b r i :=
  LibMaskedSums.tile_sum rowAt (fun _ _ => rfl) (fun r' => exG m c b r r' * (one32 - Kf m c (ix3 b r' i)))

/-- The batch's two totals over all rows. -/
def lpFull (b : Fin 4) (i : Fin 128) : EReal := ∑ r : Fin 4096, tFull m c b r i * Kf m c (ix3 b r i)
def lnFull (b : Fin 4) (i : Fin 128) : EReal := ∑ r : Fin 4096, Ideal.log (max (sFull m c b r i) eps32) * Kf m c (ix3 b r i)

/-! ## One step, by position -/

theorem r1_first (n : ℕ) (hn : n < cfg0.N) (h : n % 4 = 0) (p : Fin 1024) (i : Fin 128) :
    (accN m c n).1 (ix2 p i) = zero32 + tG m c (tileB n) (tileN n) (rowAt (tileP n) p) i := by
  rw [accN_of_lt m c n hn]; exact acc1_first m c ⟨n, hn⟩ h p i
theorem r1_next (n k : ℕ) (hn : n < cfg0.N) (hk : n = k + 1) (h : ¬n % 4 = 0) (p : Fin 1024) (i : Fin 128) :
    (accN m c n).1 (ix2 p i) = (accN m c k).1 (ix2 p i) + tG m c (tileB n) (tileN n) (rowAt (tileP n) p) i := by
  subst hk; rw [accN_of_lt m c _ hn]; exact acc1_next m c ⟨k + 1, hn⟩ h p i
theorem r2_first (n : ℕ) (hn : n < cfg0.N) (h : n % 4 = 0) (p : Fin 1024) (i : Fin 128) :
    (accN m c n).2.1 (ix2 p i) = zero32 + sG m c (tileB n) (tileN n) (rowAt (tileP n) p) i := by
  rw [accN_of_lt m c n hn]; exact acc2_first m c ⟨n, hn⟩ h p i
theorem r2_next (n k : ℕ) (hn : n < cfg0.N) (hk : n = k + 1) (h : ¬n % 4 = 0) (p : Fin 1024) (i : Fin 128) :
    (accN m c n).2.1 (ix2 p i) = (accN m c k).2.1 (ix2 p i) + sG m c (tileB n) (tileN n) (rowAt (tileP n) p) i := by
  subst hk; rw [accN_of_lt m c _ hn]; exact acc2_next m c ⟨k + 1, hn⟩ h p i

theorem tile_facts (n : ℕ) (h3 : n % 4 = 3) :
    tileB (n - 1) = tileB n ∧ tileB (n - 2) = tileB n ∧ tileB (n - 3) = tileB n
    ∧ tileP (n - 1) = tileP n ∧ tileP (n - 2) = tileP n ∧ tileP (n - 3) = tileP n
    ∧ tileN (n - 3) = 0 ∧ tileN (n - 2) = 1 ∧ tileN (n - 1) = 2 ∧ tileN n = 3 := by
  refine ⟨Fin.ext ?_, Fin.ext ?_, Fin.ext ?_, Fin.ext ?_, Fin.ext ?_, Fin.ext ?_, Fin.ext ?_, Fin.ext ?_, Fin.ext ?_, Fin.ext ?_⟩
  all_goals (simp only [tileB, tileP, tileN, Fin.val_zero, Fin.val_one, Fin.val_two]; first | omega | (show _ = 3; omega))

/-- After a row tile's last column tile its first accumulator holds each row's sum over all columns. -/
theorem r1_last (n : ℕ) (hn : n < cfg0.N) (h3 : n % 4 = 3) (p : Fin 1024) (i : Fin 128) :
    (accN m c n).1 (ix2 p i) = tFull m c (tileB n) (rowAt (tileP n) p) i := by
  have hN := N64
  obtain ⟨b1, b2, b3, p1, p2, p3, n0, n1, n2, n3'⟩ := tile_facts n h3
  rw [r1_next m c n (n - 1) hn (by omega) (by omega), r1_next m c (n - 1) (n - 2) (by omega) (by omega) (by omega),
    r1_next m c (n - 2) (n - 3) (by omega) (by omega) (by omega), r1_first m c (n - 3) (by omega) (by omega)]
  rw [b1, b2, b3, p1, p2, p3, n0, n1, n2, n3', ← tG_sum, Fin.sum_univ_four, show (zero32 : EReal) = 0 from Ideal.ofBits_zero_f32, zero_add]

theorem r2_last (n : ℕ) (hn : n < cfg0.N) (h3 : n % 4 = 3) (p : Fin 1024) (i : Fin 128) :
    (accN m c n).2.1 (ix2 p i) = sFull m c (tileB n) (rowAt (tileP n) p) i := by
  have hN := N64
  obtain ⟨b1, b2, b3, p1, p2, p3, n0, n1, n2, n3'⟩ := tile_facts n h3
  rw [r2_next m c n (n - 1) hn (by omega) (by omega), r2_next m c (n - 1) (n - 2) (by omega) (by omega) (by omega),
    r2_next m c (n - 2) (n - 3) (by omega) (by omega) (by omega), r2_first m c (n - 3) (by omega) (by omega)]
  rw [b1, b2, b3, p1, p2, p3, n0, n1, n2, n3', ← sG_sum, Fin.sum_univ_four, show (zero32 : EReal) = 0 from Ideal.ofBits_zero_f32, zero_add]

/-! ## The batch totals -/

/-- A finished row tile's share of the two totals. -/
def lpTile (b J : Fin 4) (i : Fin 128) : EReal := ∑ p : Fin 1024, tFull m c b (rowAt J p) i * Kf m c (ix3 b (rowAt J p) i)
def lnTile (b J : Fin 4) (i : Fin 128) : EReal := ∑ p : Fin 1024, Ideal.log (max (sFull m c b (rowAt J p) i) eps32) * Kf m c (ix3 b (rowAt J p) i)

theorem lpTile_sum (b : Fin 4) (i : Fin 128) : ∑ J : Fin 4, lpTile m c b J i = lpFull m c b i :=
  LibMaskedSums.tile_sum rowAt (fun _ _ => rfl) (fun r => tFull m c b r i * Kf m c (ix3 b r i))
theorem lnTile_sum (b : Fin 4) (i : Fin 128) : ∑ J : Fin 4, lnTile m c b J i = lnFull m c b i :=
  LibMaskedSums.tile_sum rowAt (fun _ _ => rfl) (fun r => Ideal.log (max (sFull m c b r i) eps32) * Kf m c (ix3 b r i))

theorem l3_reset (n : ℕ) (hn : n < cfg0.N) (h : n % 16 = 0) (u : Fin 1) (i : Fin 128) :
    (accN m c n).2.2.1 (ix2 u i) = zero32 := by
  rw [accN_of_lt m c n hn]; exact acc3_reset m c ⟨n, hn⟩ h u i
theorem l3_keep (n k : ℕ) (hn : n < cfg0.N) (hk : n = k + 1) (h3 : ¬n % 4 = 3) (h16 : ¬n % 16 = 0) :
    (accN m c n).2.2.1 = (accN m c k).2.2.1 := by
  subst hk; rw [accN_of_lt m c _ hn]; exact acc3_keep m c ⟨k + 1, hn⟩ h3 h16
theorem l3_fold (n k : ℕ) (hn : n < cfg0.N) (hk : n = k + 1) (h3 : n % 4 = 3) (u : Fin 1) (i : Fin 128) :
    (accN m c n).2.2.1 (ix2 u i) = (accN m c k).2.2.1 (ix2 u i) + lpTile m c (tileB n) (tileP n) i := by
  subst hk
  rw [accN_of_lt m c _ hn]
  refine (acc3_fold m c ⟨k + 1, hn⟩ h3 u i).trans ?_
  refine congrArg (_ + ·) (Finset.sum_congr rfl fun p _ => ?_)
  rw [← accN_of_lt m c (k + 1) hn, r1_last m c (k + 1) hn h3]

theorem l4_reset (n : ℕ) (hn : n < cfg0.N) (h : n % 16 = 0) (u : Fin 1) (i : Fin 128) :
    (accN m c n).2.2.2 (ix2 u i) = zero32 := by
  rw [accN_of_lt m c n hn]; exact acc4_reset m c ⟨n, hn⟩ h u i
theorem l4_keep (n k : ℕ) (hn : n < cfg0.N) (hk : n = k + 1) (h3 : ¬n % 4 = 3) (h16 : ¬n % 16 = 0) :
    (accN m c n).2.2.2 = (accN m c k).2.2.2 := by
  subst hk; rw [accN_of_lt m c _ hn]; exact acc4_keep m c ⟨k + 1, hn⟩ h3 h16
theorem l4_fold (n k : ℕ) (hn : n < cfg0.N) (hk : n = k + 1) (h3 : n % 4 = 3) (u : Fin 1) (i : Fin 128) :
    (accN m c n).2.2.2 (ix2 u i) = (accN m c k).2.2.2 (ix2 u i) + lnTile m c (tileB n) (tileP n) i := by
  subst hk
  rw [accN_of_lt m c _ hn]
  refine (acc4_fold m c ⟨k + 1, hn⟩ h3 u i).trans ?_
  refine congrArg (_ + ·) (Finset.sum_congr rfl fun p _ => ?_)
  rw [← accN_of_lt m c (k + 1) hn, r2_last m c (k + 1) hn h3]

theorem batch_facts (n : ℕ) (h : n % 16 = 15) :
    tileB (n - 4) = tileB n ∧ tileB (n - 8) = tileB n ∧ tileB (n - 12) = tileB n
    ∧ tileP (n - 12) = 0 ∧ tileP (n - 8) = 1 ∧ tileP (n - 4) = 2 ∧ tileP n = 3 := by
  refine ⟨Fin.ext ?_, Fin.ext ?_, Fin.ext ?_, Fin.ext ?_, Fin.ext ?_, Fin.ext ?_, Fin.ext ?_⟩
  all_goals (simp only [tileB, tileP, Fin.val_zero, Fin.val_one, Fin.val_two]; first | omega | (show _ = 3; omega))

/-- After a batch's last point the first total is the sum over all of the batch's rows. -/
theorem l3_last (n : ℕ) (hn : n < cfg0.N) (h : n % 16 = 15) (u : Fin 1) (i : Fin 128) :
    (accN m c n).2.2.1 (ix2 u i) = lpFull m c (tileB n) i := by
  have hN := N64
  obtain ⟨b1, b2, b3, p0, p1, p2, p3⟩ := batch_facts n h
  rw [l3_fold m c n (n - 1) hn (by omega) (by omega),
    l3_keep m c (n - 1) (n - 2) (by omega) (by omega) (by omega) (by omega), l3_keep m c (n - 2) (n - 3) (by omega) (by omega) (by omega) (by omega),
    l3_keep m c (n - 3) (n - 4) (by omega) (by omega) (by omega) (by omega), l3_fold m c (n - 4) (n - 5) (by omega) (by omega) (by omega),
    l3_keep m c (n - 5) (n - 6) (by omega) (by omega) (by omega) (by omega), l3_keep m c (n - 6) (n - 7) (by omega) (by omega) (by omega) (by omega),
    l3_keep m c (n - 7) (n - 8) (by omega) (by omega) (by omega) (by omega), l3_fold m c (n - 8) (n - 9) (by omega) (by omega) (by omega),
    l3_keep m c (n - 9) (n - 10) (by omega) (by omega) (by omega) (by omega), l3_keep m c (n - 10) (n - 11) (by omega) (by omega) (by omega) (by omega),
    l3_keep m c (n - 11) (n - 12) (by omega) (by omega) (by omega) (by omega), l3_fold m c (n - 12) (n - 13) (by omega) (by omega) (by omega),
    l3_keep m c (n - 13) (n - 14) (by omega) (by omega) (by omega) (by omega), l3_keep m c (n - 14) (n - 15) (by omega) (by omega) (by omega) (by omega),
    l3_reset m c (n - 15) (by omega) (by omega)]
  rw [b1, b2, b3, p0, p1, p2, p3, ← lpTile_sum, Fin.sum_univ_four, show (zero32 : EReal) = 0 from Ideal.ofBits_zero_f32, zero_add]

theorem l4_last (n : ℕ) (hn : n < cfg0.N) (h : n % 16 = 15) (u : Fin 1) (i : Fin 128) :
    (accN m c n).2.2.2 (ix2 u i) = lnFull m c (tileB n) i := by
  have hN := N64
  obtain ⟨b1, b2, b3, p0, p1, p2, p3⟩ := batch_facts n h
  rw [l4_fold m c n (n - 1) hn (by omega) (by omega),
    l4_keep m c (n - 1) (n - 2) (by omega) (by omega) (by omega) (by omega), l4_keep m c (n - 2) (n - 3) (by omega) (by omega) (by omega) (by omega),
    l4_keep m c (n - 3) (n - 4) (by omega) (by omega) (by omega) (by omega), l4_fold m c (n - 4) (n - 5) (by omega) (by omega) (by omega),
    l4_keep m c (n - 5) (n - 6) (by omega) (by omega) (by omega) (by omega), l4_keep m c (n - 6) (n - 7) (by omega) (by omega) (by omega) (by omega),
    l4_keep m c (n - 7) (n - 8) (by omega) (by omega) (by omega) (by omega), l4_fold m c (n - 8) (n - 9) (by omega) (by omega) (by omega),
    l4_keep m c (n - 9) (n - 10) (by omega) (by omega) (by omega) (by omega), l4_keep m c (n - 10) (n - 11) (by omega) (by omega) (by omega) (by omega),
    l4_keep m c (n - 11) (n - 12) (by omega) (by omega) (by omega) (by omega), l4_fold m c (n - 12) (n - 13) (by omega) (by omega) (by omega),
    l4_keep m c (n - 13) (n - 14) (by omega) (by omega) (by omega) (by omega), l4_keep m c (n - 14) (n - 15) (by omega) (by omega) (by omega) (by omega),
    l4_reset m c (n - 15) (by omega) (by omega)]
  rw [b1, b2, b3, p0, p1, p2, p3, ← lnTile_sum, Fin.sum_univ_four, show (zero32 : EReal) = 0 from Ideal.ofBits_zero_f32, zero_add]

end Cert.KernelIdeal.HandV

end
-- ==== Proof.IdealResult.lean ====
/-
  The two result arrays after the run, and the slices of them the host lines read. The body stores the two totals to
  the outputs only at a batch's last point, and that point's block is row b of the result array: so after the run the
  first result holds at (b, 0, i) the sum over the batch's rows r of (sum over r' of sq[r, r']·K[r', i])·K[r, i], the
  second the sum of log(max(sum over r' of ex[r, r']·(1 - K[r', i]), 1e-30))·K[r, i].
-/
import proofs.«120329_j57647051047499_1_alg».proof.Proof.IdealTotals
import proofs.«120329_j57647051047499_1_alg».proof.Proof.IdealRun
import Idealize.ShloMosaic.Lib.Pipeline.Value

set_option maxRecDepth 16384

noncomputable section

open scoped BigOperators

namespace Cert.KernelIdeal.HandV

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

variable (c : Dev nD)

def G4 : S4x1x128.Idx → EReal := fun j => lpFull m c (j 0) (j 2)
def G5 : S4x1x128.Idx → EReal := fun j => lnFull m c (j 0) (j 2)

theorem emb4 (t : Fin cfg0.N) (y : S1x1x128.Idx) :
    ((cfg0.win 4).blk t).view.emb y = ix3 (tileB t.val) (0 : Fin 1) (y 2) := by
  funext a; apply Fin.ext
  have hi := idx4 t
  have hu : (y 0).val = 0 := by have h : (y 0).val < 1 := (y 0).isLt; omega
  have hv : (y 1).val = 0 := by have h : (y 1).val < 1 := (y 1).isLt; omega
  match a with
  | ⟨0, _⟩ => show (cfg0.win 4).index t 0 * 1 + 1 * (y 0).val = t.val / 16 % 4; rw [hi.1, hu]; have := t.isLt; have := N64; omega
  | ⟨1, _⟩ => show (cfg0.win 4).index t 1 * 1 + 1 * (y 1).val = 0; rw [hi.2.1, hv]
  | ⟨2, _⟩ => show (cfg0.win 4).index t 2 * 128 + 1 * (y 2).val = (y 2).val; rw [hi.2.2]; omega

theorem emb5 (t : Fin cfg0.N) (y : S1x1x128.Idx) :
    ((cfg0.win 5).blk t).view.emb y = ix3 (tileB t.val) (0 : Fin 1) (y 2) := by
  funext a; apply Fin.ext
  have hi := idx5 t
  have hu : (y 0).val = 0 := by have h : (y 0).val < 1 := (y 0).isLt; omega
  have hv : (y 1).val = 0 := by have h : (y 1).val < 1 := (y 1).isLt; omega
  match a with
  | ⟨0, _⟩ => show (cfg0.win 5).index t 0 * 1 + 1 * (y 0).val = t.val / 16 % 4; rw [hi.1, hu]; have := t.isLt; have := N64; omega
  | ⟨1, _⟩ => show (cfg0.win 5).index t 1 * 1 + 1 * (y 1).val = 0; rw [hi.2.1, hv]
  | ⟨2, _⟩ => show (cfg0.win 5).index t 2 * 128 + 1 * (y 2).val = (y 2).val; rw [hi.2.2]; omega

/-- What a batch's last point writes back is row b of the first result. -/
theorem flushed4_eq (t : Fin cfg0.N) (hf : (cfg0.win 4).flush t = true) :
    (dats m 0 c).flushed 4 t = ((cfg0.win 4).blk t).view.read (Elt Ideal) (G4 m c) := by
  show (cfg0.win 4).cut (grid0.coords t) ((dats m 0 c).after 4 t) = _
  rw [after_4]
  have h15 : t.val % 16 = 15 := (flush0_4 t).mp hf
  refine funext fun (y : S1x1x128.Idx) => ?_
  obtain ⟨u, v, i, rfl⟩ : ∃ (u : Fin 1) (v : Fin 1) (i : Fin 128), y = ix3 u v i := ⟨y 0, y 1, y 2, eq_ix3 y⟩
  show k0_pay6 (F := Ideal) (accAt m c t.val t.isLt).2.2.1 (ix3 u v i) = G4 m c (((cfg0.win 4).blk t).view.emb (ix3 u v i))
  rw [emb4, pay6_apply, ← accN_of_lt m c t.val t.isLt, l3_last m c t.val t.isLt h15]
  rfl

theorem flushed5_eq (t : Fin cfg0.N) (hf : (cfg0.win 5).flush t = true) :
    (dats m 0 c).flushed 5 t = ((cfg0.win 5).blk t).view.read (Elt Ideal) (G5 m c) := by
  show (cfg0.win 5).cut (grid0.coords t) ((dats m 0 c).after 5 t) = _
  rw [after_5]
  have h15 : t.val % 16 = 15 := (flush0_5 t).mp hf
  refine funext fun (y : S1x1x128.Idx) => ?_
  obtain ⟨u, v, i, rfl⟩ : ∃ (u : Fin 1) (v : Fin 1) (i : Fin 128), y = ix3 u v i := ⟨y 0, y 1, y 2, eq_ix3 y⟩
  show k0_pay7 (F := Ideal) (accAt m c t.val t.isLt).2.2.2 (ix3 u v i) = G5 m c (((cfg0.win 5).blk t).view.emb (ix3 u v i))
  rw [emb5, pay7_apply, ← accN_of_lt m c t.val t.isLt, l4_last m c t.val t.isLt h15]
  rfl

theorem mem_blk4 (t : Fin cfg0.N) (j : S4x1x128.Idx) :
    j ∈ ((cfg0.win 4).blk t).view.set ↔ ∀ a : Fin 3, (cfg0.win 4).index t a * S1x1x128.size a ≤ (j a).val ∧ (j a).val < (cfg0.win 4).index t a * S1x1x128.size a + S1x1x128.size a := by
  show j ∈ ((View.whole main_v4_0).slice (win0_4.rect t)).set ↔ _
  rw [View.set_slice_whole, Rect.mem_set_unit]
  exact Iff.rfl
theorem mem_blk5 (t : Fin cfg0.N) (j : S4x1x128.Idx) :
    j ∈ ((cfg0.win 5).blk t).view.set ↔ ∀ a : Fin 3, (cfg0.win 5).index t a * S1x1x128.size a ≤ (j a).val ∧ (j a).val < (cfg0.win 5).index t a * S1x1x128.size a + S1x1x128.size a := by
  show j ∈ ((View.whole main_v4_1).slice (win0_5.rect t)).set ↔ _
  rw [View.set_slice_whole, Rect.mem_set_unit]
  exact Iff.rfl

/-- Every row of a result array is some batch's last point's block. -/
theorem cover4 (j : S4x1x128.Idx) : ∃ t : Fin cfg0.N, (cfg0.win 4).flush t = true ∧ j ∈ ((cfg0.win 4).blk t).view.set := by
  have h0 : (j 0).val < 4 := (j 0).isLt
  have h1 : (j 1).val < 1 := (j 1).isLt
  have h2 : (j 2).val < 128 := (j 2).isLt
  have hN := N64
  refine ⟨⟨16 * (j 0).val + 15, by omega⟩, (flush0_4 _).mpr (by show (16 * (j 0).val + 15) % 16 = 15; omega), ?_⟩
  rw [mem_blk4]
  have hi := idx4 ⟨16 * (j 0).val + 15, by omega⟩
  intro a
  match a with
  | ⟨0, _⟩ => show (cfg0.win 4).index _ 0 * 1 ≤ (j 0).val ∧ (j 0).val < (cfg0.win 4).index _ 0 * 1 + 1; rw [hi.1]; show (16 * (j 0).val + 15) / 16 * 1 ≤ _ ∧ _ < (16 * (j 0).val + 15) / 16 * 1 + 1; omega
  | ⟨1, _⟩ => show (cfg0.win 4).index _ 1 * 1 ≤ (j 1).val ∧ (j 1).val < (cfg0.win 4).index _ 1 * 1 + 1; rw [hi.2.1]; omega
  | ⟨2, _⟩ => show (cfg0.win 4).index _ 2 * 128 ≤ (j 2).val ∧ (j 2).val < (cfg0.win 4).index _ 2 * 128 + 128; rw [hi.2.2]; omega

theorem cover5 (j : S4x1x128.Idx) : ∃ t : Fin cfg0.N, (cfg0.win 5).flush t = true ∧ j ∈ ((cfg0.win 5).blk t).view.set := by
  have h0 : (j 0).val < 4 := (j 0).isLt
  have h1 : (j 1).val < 1 := (j 1).isLt
  have h2 : (j 2).val < 128 := (j 2).isLt
  have hN := N64
  refine ⟨⟨16 * (j 0).val + 15, by omega⟩, (flush0_5 _).mpr (by show (16 * (j 0).val + 15) % 16 = 15; omega), ?_⟩
  rw [mem_blk5]
  have hi := idx5 ⟨16 * (j 0).val + 15, by omega⟩
  intro a
  match a with
  | ⟨0, _⟩ => show (cfg0.win 5).index _ 0 * 1 ≤ (j 0).val ∧ (j 0).val < (cfg0.win 5).index _ 0 * 1 + 1; rw [hi.1]; show (16 * (j 0).val + 15) / 16 * 1 ≤ _ ∧ _ < (16 * (j 0).val + 15) / 16 * 1 + 1; omega
  | ⟨1, _⟩ => show (cfg0.win 5).index _ 1 * 1 ≤ (j 1).val ∧ (j 1).val < (cfg0.win 5).index _ 1 * 1 + 1; rw [hi.2.1]; omega
  | ⟨2, _⟩ => show (cfg0.win 5).index _ 2 * 128 ≤ (j 2).val ∧ (j 2).val < (cfg0.win 5).index _ 2 * 128 + 128; rw [hi.2.2]; omega

/-- The two result arrays after the run. -/
theorem arrAt4 : ((dats m 0 c).arrAt 4 cfg0.N : S4x1x128.Idx → EReal) = G4 m c :=
  (dats m 0 c).arrAt_eq_of_cover 4 (G4 m c) (fun t hf => flushed4_eq m c t hf) (cover4)
theorem arrAt5 : ((dats m 0 c).arrAt 5 cfg0.N : S4x1x128.Idx → EReal) = G5 m c :=
  (dats m 0 c).arrAt_eq_of_cover 5 (G5 m c) (fun t hf => flushed5_eq m c t hf) (cover5)

/-- The slice of the first 32 lanes of a result array, with its unit axis dropped, read at (b, i). -/
theorem sliced_apply (L : S4x1x128.Idx → EReal) (b : Fin 4) (i : Fin 32) :
    shapeCast S4x32 (extractStridedSlice S4x1x32 ![0, 0, 0] L slices_S4x1x128_S4x1x32_0_0_0) shapeCasts_S4x1x32_S4x32 (ix2 b i)
      = L (ix3 b (0 : Fin 1) ⟨i.val, by omega⟩) := by
  refine (shapeCast_apply _ _ _ (ix3 b (0 : Fin 1) i) ?_).trans ?_
  · rw [Shape.rowMajor_val_three, Shape.rowMajor_val_two]
    show (b.val * 1 + 0) * 32 + i.val = b.val * 32 + i.val
    omega
  · exact extractStridedSlice_apply _ _ _ _ _ (fun a => by
      match a with
      | ⟨0, _⟩ => show b.val = 0 + b.val; omega
      | ⟨1, _⟩ => show 0 = 0 + 0; rfl
      | ⟨2, _⟩ => show i.val = 0 + i.val; omega)

end Cert.KernelIdeal.HandV

end
-- ==== Proof.RefSide.lean ====
/-
  The reference at the extended reals, read at an index. With M[b, i, r] the label bit as 0 or 1, sim[b, r, r'] the
  inner product of feature rows r and r' of batch b, sq = (sim - 1)² and ex = exp(sim / 1): the reference's first
  per-instance sum is, over columns k, (sum over rows p of M[b,i,p]·sq[b,p,k])·M[b,i,k]; its second is, over rows p,
  log(max(sum over columns n of (1 - M[b,i,n])·ex[b,p,n], 1e-30))·M[b,i,p]. Everything after those two sums is the same
  sequence of host operations in both programs.
-/
import proofs.«120329_j57647051047499_1_alg».proof.Proof.RefReadP
import Idealize.ShloMosaic.Lib.ValueIdx
import Idealize.ShloMosaic.PureOps.Ideal.Laws

set_option maxRecDepth 16384

noncomputable section

open scoped BigOperators

namespace Cert.ReferenceIdeal.HandR

open Idealize.ShloMosaic Idealize.ShloMosaic.ValueIdx Cert.ReferenceIdeal Cert.ReferenceIdeal.Gen Cert.ReferenceIdeal.ReadP

abbrev one32 : EReal := Ideal.ofBits .f32 0x3F800000#32
abbrev eps32 : EReal := Ideal.ofBits .f32 0x0DA24260#32
abbrev zero32 : EReal := Ideal.ofBits .f32 0x00000000#32

variable (x0 : (⟨S4x4096x64, .f32⟩ : BufTy).Contents (Elt Ideal)) (x1 : (⟨S4x32x4096, .i1⟩ : BufTy).Contents (Elt Ideal))

def simR (b : Fin 4) (r r' : Fin 4096) : EReal := ∑ d : Fin 64, x0 (ix3 b r d) * x0 (ix3 b r' d)
def sqR (b : Fin 4) (r r' : Fin 4096) : EReal := (simR x0 b r r' - one32) * (simR x0 b r r' - one32)
def exR (b : Fin 4) (r r' : Fin 4096) : EReal := Ideal.exp (Ideal.div (simR x0 b r r') one32)
/-- The label bit of instance i at position r of batch b, as 0 or 1. -/
def Mb (b : Fin 4) (i : Fin 32) (r : Fin 4096) : EReal := ((((x1 (ix3 b i r) : BitVec 1)).toNat : ℝ) : EReal)

theorem e11 (b : Fin 4) (i : Fin 32) (k : Fin 4096) : idx_main_v11 (ix2 b i) k = ix3 b i k :=
  funext fun a => Fin.ext (by match a with | ⟨0, _⟩ => rfl | ⟨1, _⟩ => rfl | ⟨2, _⟩ => rfl)
theorem e26 (b : Fin 4) (i : Fin 32) (k : Fin 4096) : idx_main_v26 (ix2 b i) k = ix3 b i k :=
  funext fun a => Fin.ext (by match a with | ⟨0, _⟩ => rfl | ⟨1, _⟩ => rfl | ⟨2, _⟩ => rfl)
theorem l9 (b : Fin 4) (i : Fin 32) (k p : Fin 4096) : lidx_main_v9 (ix3 b i k) p = ix3 b i p :=
  funext fun a => Fin.ext (by match a with | ⟨0, _⟩ => rfl | ⟨1, _⟩ => rfl | ⟨2, _⟩ => rfl)
theorem r9 (b : Fin 4) (i : Fin 32) (k p : Fin 4096) : ridx_main_v9 (ix3 b i k) p = ix3 b p k :=
  funext fun a => Fin.ext (by match a with | ⟨0, _⟩ => rfl | ⟨1, _⟩ => rfl | ⟨2, _⟩ => rfl)
theorem l5 (b : Fin 4) (p k : Fin 4096) (d : Fin 64) : lidx_main_v5 (ix3 b p k) d = ix3 b p d :=
  funext fun a => Fin.ext (by match a with | ⟨0, _⟩ => rfl | ⟨1, _⟩ => rfl | ⟨2, _⟩ => rfl)
theorem r5 (b : Fin 4) (p k : Fin 4096) (d : Fin 64) : ridx_main_v5 (ix3 b p k) d = ix3 b k d :=
  funext fun a => Fin.ext (by match a with | ⟨0, _⟩ => rfl | ⟨1, _⟩ => rfl | ⟨2, _⟩ => rfl)
theorem l21 (b : Fin 4) (i : Fin 32) (p n : Fin 4096) : lidx_main_v21 (ix3 b i p) n = ix3 b i n :=
  funext fun a => Fin.ext (by match a with | ⟨0, _⟩ => rfl | ⟨1, _⟩ => rfl | ⟨2, _⟩ => rfl)
theorem r21 (b : Fin 4) (i : Fin 32) (p n : Fin 4096) : ridx_main_v21 (ix3 b i p) n = ix3 b p n :=
  funext fun a => Fin.ext (by match a with | ⟨0, _⟩ => rfl | ⟨1, _⟩ => rfl | ⟨2, _⟩ => rfl)

theorem v0_read (b : Fin 4) (i : Fin 32) (r : Fin 4096) : val_main_v0 (F := Ideal) x1 (ix3 b i r) = Mb x1 b i r := rfl

theorem v5_read (b : Fin 4) (p k : Fin 4096) : val_main_v5 (F := Ideal) x0 (ix3 b p k) = simR x0 b p k := by
  rw [val_main_v5_apply]; simp only [l5, r5]; rfl

theorem v8_read (b : Fin 4) (p k : Fin 4096) : val_main_v8 (F := Ideal) x0 (ix3 b p k) = sqR x0 b p k := by
  rw [val_main_v8_apply, val_main_v7_apply, v5_read]; rfl

theorem v18_read (b : Fin 4) (p n : Fin 4096) : val_main_v18 (F := Ideal) x0 (ix3 b p n) = exR x0 b p n := by
  rw [val_main_v18_apply, val_main_v17_apply, v5_read]; rfl

/-- The reference's first per-instance sum. -/
theorem lp_read (b : Fin 4) (i : Fin 32) :
    val_main_v11 (F := Ideal) x0 x1 (ix2 b i)
      = zero32 + ∑ k : Fin 4096, (∑ p : Fin 4096, Mb x1 b i p * sqR x0 b p k) * Mb x1 b i k := by
  rw [val_main_v11_apply]
  refine congrArg₂ (· + ·) rfl (Finset.sum_congr rfl fun k _ => ?_)
  rw [e11, val_main_v10_apply, val_main_v9_apply, v0_read]
  refine congrArg (· * Mb x1 b i k) (Finset.sum_congr rfl fun p _ => ?_)
  rw [l9, r9, v8_read, v0_read]

/-- The reference's second per-instance sum. -/
theorem ln_read (b : Fin 4) (i : Fin 32) :
    val_main_v26 (F := Ideal) x0 x1 (ix2 b i)
      = zero32 + ∑ p : Fin 4096, Ideal.log (max (∑ n : Fin 4096, (one32 - Mb x1 b i n) * exR x0 b p n) eps32) * Mb x1 b i p := by
  rw [val_main_v26_apply]
  refine congrArg₂ (· + ·) rfl (Finset.sum_congr rfl fun p _ => ?_)
  rw [e26, val_main_v25_apply, val_main_v24_apply, val_main_v23_apply, val_main_v21_apply, v0_read]
  refine congrArg (fun z => Ideal.log (max z eps32) * Mb x1 b i p) (Finset.sum_congr rfl fun n _ => ?_)
  rw [l21, r21, v18_read, val_main_v20_apply, v0_read]
  rfl

/-- What both programs do with the two per-instance sums: divide by the instance's count (squared, for the first),
    both floored at one, keep the instances of at least five positions, average over the 128 (batch, instance) pairs and
    take the mean of the two averages. -/
def tail (lp ln : FVec Ideal S4x32 .f32) : FVec Ideal S_ .f32 :=
  addf (F := Ideal) (mulf (val_main_cst_13 (F := Ideal)) (Host.divf (Host.reduceAdd (mulf (val_main_v4 (F := Ideal) x1) (Host.divf lp (val_main_v14 (F := Ideal) x1))) (val_main_cst_9 (F := Ideal)) reducesTo_S4x32_S_d0_1 h_S_) (val_main_cst_10 (F := Ideal))))
    (mulf (val_main_cst_14 (F := Ideal)) (Host.divf (Host.reduceAdd (mulf (val_main_v4 (F := Ideal) x1) (Host.divf ln (val_main_v28 (F := Ideal) x1))) (val_main_cst_11 (F := Ideal)) reducesTo_S4x32_S_d0_1 h_S_) (val_main_cst_12 (F := Ideal))))

theorem v38_tail : val_main_v38 (F := Ideal) x0 x1 = tail x1 (val_main_v11 (F := Ideal) x0 x1) (val_main_v26 (F := Ideal) x0 x1) := rfl

end Cert.ReferenceIdeal.HandR

end
-- ==== Proof.IdealBridge.lean ====
/-
  The two programs compute one number. The kernel's two per-instance totals, sliced to the 32 real instances, are the
  reference's two per-instance sums: the first after exchanging the sums over rows and columns (the mask entries are 0
  or 1, so they may be moved into a sum of extended reals whatever the summands), the second term by term up to the
  order of a product. What follows those sums is the same host computation in both programs.
-/
import proofs.«120329_j57647051047499_1_alg».proof.Proof.IdealResult
import proofs.«120329_j57647051047499_1_alg».proof.Proof.IdealFrame
import proofs.«120329_j57647051047499_1_alg».proof.Proof.RefSide
import proofs.«120329_j57647051047499_1_alg».proof.Proof.LibMaskedSums

set_option maxRecDepth 16384

noncomputable section

open scoped BigOperators

namespace Cert.KernelIdeal.HandV

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

open Cert.ReferenceIdeal Cert.ReferenceIdeal.HandR

variable (c : Dev nD)

/-- The features and the label bits, as the programs are given them. -/
abbrev feat : S4x4096x64.Idx → EReal := m ((c : Thread nD τ).loc main_arg0)
abbrev labs : S4x32x4096.Idx → BitVec 1 := m ((c : Thread nD τ).loc main_arg1)

theorem Xf_eq : Xf m c = feat m c := V_v0 m c

theorem Kf_eq (b : Fin 4) (r : Fin 4096) (i : Fin 32) : Kf m c (ix3 b r ⟨i.val, by omega⟩) = Mb (labs m c) b i r :=
  mask_apply m c b r i

theorem simG_eq (b : Fin 4) (r r' : Fin 4096) : simG m c b r r' = simR (feat m c) b r r' := by
  unfold simG simR; rw [Xf_eq]
theorem sqG_eq (b : Fin 4) (r r' : Fin 4096) : sqG m c b r r' = sqR (feat m c) b r r' := by
  unfold sqG sqR; rw [simG_eq]
theorem exG_eq (b : Fin 4) (r r' : Fin 4096) : exG m c b r r' = exR (feat m c) b r r' := by
  unfold exG exR; rw [simG_eq]

theorem Mb_bit (x1 : S4x32x4096.Idx → BitVec 1) (b : Fin 4) (i : Fin 32) (r : Fin 4096) : Mb x1 b i r = 0 ∨ Mb x1 b i r = 1 := by
  unfold Mb
  have h : (x1 (ix3 b i r)).toNat < 2 := (x1 (ix3 b i r)).isLt
  rcases (by omega : (x1 (ix3 b i r)).toNat = 0 ∨ (x1 (ix3 b i r)).toNat = 1) with h0 | h1
  · left; rw [h0]; simp
  · right; rw [h1]; simp

/-- The kernel's first total is the reference's first sum. -/
theorem lp_eq (b : Fin 4) (i : Fin 32) :
    lpFull m c b ⟨i.val, by omega⟩ = ReadP.val_main_v11 (F := Ideal) (feat m c) (labs m c) (ix2 b i) := by
  rw [lp_read, show (Cert.ReferenceIdeal.HandR.zero32 : EReal) = 0 from Ideal.ofBits_zero_f32, zero_add]
  unfold lpFull tFull
  refine Eq.trans (Finset.sum_congr rfl fun r _ => ?_)
    (LibMaskedSums.masked_swap (sqR (feat m c) b) (Mb (labs m c) b i) (Mb_bit (labs m c) b i))
  rw [Kf_eq m c b r i]
  refine congrArg (· * Mb (labs m c) b i r) (Finset.sum_congr rfl fun r' _ => ?_)
  rw [Kf_eq m c b r' i, sqG_eq]

/-- The kernel's second total is the reference's second sum. -/
theorem ln_eq (b : Fin 4) (i : Fin 32) :
    lnFull m c b ⟨i.val, by omega⟩ = ReadP.val_main_v26 (F := Ideal) (feat m c) (labs m c) (ix2 b i) := by
  rw [ln_read, show (Cert.ReferenceIdeal.HandR.zero32 : EReal) = 0 from Ideal.ofBits_zero_f32, zero_add]
  unfold lnFull sFull
  refine Finset.sum_congr rfl fun p _ => ?_
  rw [Kf_eq m c b p i]
  refine congrArg (fun z => Ideal.log (max z eps32) * Mb (labs m c) b i p) (Finset.sum_congr rfl fun n _ => ?_)
  rw [Kf_eq m c b n i, exG_eq]
  exact EReal.mul_comm _ _

/-- The two totals as the host lines after the region read them. -/
def lpK : S4x32.Idx → EReal :=
  shapeCast S4x32 (extractStridedSlice S4x1x32 ![0, 0, 0] ((dats m 0 c).arrAt 4 cfg0.N : S4x1x128.Idx → EReal) slices_S4x1x128_S4x1x32_0_0_0) shapeCasts_S4x1x32_S4x32
def lnK : S4x32.Idx → EReal :=
  shapeCast S4x32 (extractStridedSlice S4x1x32 ![0, 0, 0] ((dats m 0 c).arrAt 5 cfg0.N : S4x1x128.Idx → EReal) slices_S4x1x128_S4x1x32_0_0_0) shapeCasts_S4x1x32_S4x32

theorem lpK_eq : lpK m c = ReadP.val_main_v11 (F := Ideal) (feat m c) (labs m c) := by
  funext j
  obtain ⟨b, i, rfl⟩ : ∃ (b : Fin 4) (i : Fin 32), j = ix2 b i := ⟨j 0, j 1, eq_ix2 j⟩
  unfold lpK
  rw [sliced_apply, arrAt4]
  exact lp_eq m c b i

theorem lnK_eq : lnK m c = ReadP.val_main_v26 (F := Ideal) (feat m c) (labs m c) := by
  funext j
  obtain ⟨b, i, rfl⟩ : ∃ (b : Fin 4) (i : Fin 32), j = ix2 b i := ⟨j 0, j 1, eq_ix2 j⟩
  unfold lnK
  rw [sliced_apply, arrAt5]
  exact ln_eq m c b i

/-- What the kernel's @main leaves in its result buffer: the common host computation of the two totals. -/
theorem result_tail :
    StableHlo.after (List.flatten [hostOps1]) (Eexit m c) (Proc.devRef .tc main_v29)
      = Cert.ReferenceIdeal.HandR.tail (labs m c) (lpK m c) (lnK m c) := by
  rw [flat1]
  dsimp only [hostOps1]
  after_results_simp
  rw [Eexit_v4_0, Eexit_v4_1, Eexit_of_ne m c main_arg1 (by decide) (by decide), V0_arg1]
  rfl

/-- The kernel's result is the reference's. -/
theorem result_eq :
    StableHlo.after (List.flatten [hostOps1]) (Eexit m c) (Proc.devRef .tc main_v29)
      = ReadP.val_main_v38 (F := Ideal) (feat m c) (labs m c) := by
  rw [result_tail, lpK_eq, lnK_eq, v38_tail]

end Cert.KernelIdeal.HandV

end
-- ==== Proof.lean ====
/-
  A contrastive loss over four batches of 4096 unit feature vectors and 32 instance masks. For every batch b and
  instance i the programs form, with sim the Gram matrix of the batch, M the mask of the instance as 0 or 1, and the
  sums over all 4096 positions,

      lp[b, i] = sum over p, n of M[p]·(sim[p, n] - 1)²·M[n]
      ln[b, i] = sum over p of M[p]·log(max(sum over n of exp(sim[p, n] / 1)·(1 - M[n]), 1e-30)),

  divide them by the squared and the plain instance count (floored at one), keep the instances of at least five
  positions, average over the 128 pairs (b, i) and take the mean of the two averages.

  The reference computes the Gram matrix whole. The kernel walks a grid of 4 batches by 4 row tiles by 4 column tiles
  of 1024 positions: at each point it forms the tile of sim, adds the tile's two contractions against the mask columns
  to two row accumulators, and when a row tile has met all four column tiles folds its masked column sums into two
  per-batch totals, which the batch's last point stores. The features and the padded mask are each handed to the
  kernel through two windows (the row tile's and the column tile's), so each array is dealt to its two windows at
  half the share each and collected again when the kernel is done.

  At the extended reals a change of float format is the identity, a matrix product into a zero accumulator is the
  plain sum, and sums may be regrouped freely: so the row accumulators, after a row tile's last column tile, hold the
  sums over all 4096 columns, and the totals, after a batch's last point, the sums over all 4096 rows. The kernel's
  first total sums rows-then-columns what the reference sums columns-then-rows; the mask entries being 0 or 1 they
  move into the inner sums whatever the other factors are, and the two double sums are exchanged. The second total
  agrees term by term. No finiteness of the features is used.

  Both programs' frames (termination without a fault, the arguments unchanged) come from the same runs: the kernel's
  from the launch theorem for windows that share an array, with the body run once per case of its four branches (read at
  both instances), the reference's from its straight-line run.
-/
import proofs.«120329_j57647051047499_1_alg».proof.Defs
import proofs.«120329_j57647051047499_1_alg».proof.Proof.Gen.Kernel
import proofs.«120329_j57647051047499_1_alg».proof.Proof.Gen.KernelIdeal
import proofs.«120329_j57647051047499_1_alg».proof.Proof.Gen.ReferenceIdeal
import proofs.«120329_j57647051047499_1_alg».proof.Proof.Gen.Pre_finite_inputs
import proofs.«120329_j57647051047499_1_alg».proof.Proof.RefRunP
import proofs.«120329_j57647051047499_1_alg».proof.Proof.RefReadP
import proofs.«120329_j57647051047499_1_alg».proof.Proof.BitsFrame
import proofs.«120329_j57647051047499_1_alg».proof.Proof.IdealFrame
import proofs.«120329_j57647051047499_1_alg».proof.Proof.IdealBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the reference's result term of the arguments. -/
theorem algebraic : Cert.algebraic_KernelIdeal_ReferenceIdeal := by
  intro m ρ m' ρ' _ hagree
  refine ⟨fun c => Cert.ReferenceIdeal.ReadP.val_main_v38 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono (fun r h c =>
      ⟨((h c).2 Cert.KernelIdeal.main_v29 Cert.KernelIdeal.Hand.mem_rest_v29).trans (Cert.KernelIdeal.HandV.result_eq m c),
        ((h c).2 Cert.KernelIdeal.main_arg0 Cert.KernelIdeal.Hand.mem_rest_arg0).trans (Cert.KernelIdeal.Hand.kept_arg0 m c),
        ((h c).2 Cert.KernelIdeal.main_arg1 Cert.KernelIdeal.Hand.mem_rest_arg1).trans (Cert.KernelIdeal.Hand.kept_arg1 m c)⟩)
      (Cert.KernelIdeal.Hand.run_main m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v38_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
